-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.sign_bit.Statement Cert.KernelIdeal.S10000x64 .f32
  ∧ IdealRules.sign_bit.Statement Cert.KernelIdeal.S10000x64 .f32
  ∧ IdealRules.sign_bit.Statement Cert.KernelIdeal.S10000x64 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v58)) (v3 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_v59) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4000000 : Shape := ⟨1, ![4000000]⟩
abbrev S3x150000x64 : Shape := ⟨3, ![3, 150000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4000000 : S_.BroadcastsInDim S4000000 (![] : Fin 0 → Fin S4000000.rank)
  reducesTo_S4000000_S_d0 : S4000000.ReducesTo [0] S_
  bcast_S_S3x150000x64 : S_.BroadcastsInDim S3x150000x64 (![] : Fin 0 → Fin S3x150000x64.rank)
  reducesTo_S3x150000x64_S_d0_1_2 : S3x150000x64.ReducesTo [0, 1, 2] S_

variable [Facts]

def fn_part1 {F : FTy → Type} [FloatOps F] (main_v13 : IVec S_ 1) (main_v16 : IVec S3x150000x64 1) : IVec S_ 1 :=
  let main_c_5 : IVec S_ 1 := constantI S_ 1 1#1
  let main_v17 : IVec S_ 1 := (fun x v => Host.reduce IntOp.andi x v reducesTo_S3x150000x64_S_d0_1_2 h_S_) main_v16 main_c_5
  let main_v18 : IVec S_ 1 := andi main_v13 main_v17
  main_v18

def fn {F : FTy → Type} [FloatOps F] (main_arg0 : FVec F S100000x64 .f32) (main_arg1 : FVec F S50000x64 .f32) (main_arg2 : IVec S4000000 32) (main_arg3 : IVec S4000000 32) (main_arg4 : FVec F S4000000 .f32) (main_arg5 : FVec F S3x150000x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4000000 .f32 := Host.absf main_arg4
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S3x150000x64 .f32 := Host.absf main_arg5
  let main_cst_4 : FVec F S_ .f32 := constant S_ .f32 0x7F800000#32
  let main_v15 : FVec F S3x150000x64 .f32 := broadcastInDim S3x150000x64 ![] bcast_S_S3x150000x64 main_cst_4
  let main_v16 : IVec S3x150000x64 1 := cmpf .olt main_v14 main_v15
  fn_part1 (F := F) main_v13 main_v16
-- ==== Kernel.lean ====
abbrev S100000x64 : Shape := ⟨2, ![100000, 64]⟩
abbrev S50000x64 : Shape := ⟨2, ![50000, 64]⟩
abbrev S4000000 : Shape := ⟨1, ![4000000]⟩
abbrev S3x150000x64 : Shape := ⟨3, ![3, 150000, 64]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S1x150000x64 : Shape := ⟨3, ![1, 150000, 64]⟩
abbrev S10000x64 : Shape := ⟨2, ![10000, 64]⟩
abbrev S10000 : Shape := ⟨1, ![10000]⟩
abbrev S10000x1 : Shape := ⟨2, ![10000, 1]⟩
abbrev S150000x1x64 : Shape := ⟨3, ![150000, 1, 64]⟩
abbrev S150000x3x64 : Shape := ⟨3, ![150000, 3, 64]⟩

abbrev nBuf : Space → Nat
  | .hbm => 77
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .i32⟩
  | .hbm, ⟨3, _⟩ => ⟨S4000000, .i32⟩
  | .hbm, ⟨4, _⟩ => ⟨S4000000, .f32⟩
  | .hbm, ⟨5, _⟩ => ⟨S3x150000x64, .f32⟩
  | .hbm, ⟨6, _⟩ => ⟨S150000x64, .f32⟩
  | .hbm, ⟨7, _⟩ => ⟨S4000000x1, .f32⟩
  | .hbm, ⟨8, _⟩ => ⟨S_, .i32⟩
  | .hbm, ⟨9, _⟩ => ⟨S4000000, .i32⟩
  | .hbm, ⟨10, _⟩ => ⟨S4000000, .i1⟩
  | .hbm, ⟨11, _⟩ => ⟨S_, .i32⟩
  | .hbm, ⟨12, _⟩ => ⟨S4000000, .i32⟩
  | .hbm, ⟨13, _⟩ => ⟨S4000000, .i32⟩
  | .hbm, ⟨14, _⟩ => ⟨S4000000, .i32⟩
  | .hbm, ⟨15, _⟩ => ⟨S4000000x1, .i32⟩
  | .hbm, ⟨16, _⟩ => ⟨S4000000x64, .f32⟩
  | .hbm, ⟨17, _⟩ => ⟨S4000000x64, .f32⟩
  | .hbm, ⟨18, _⟩ => ⟨S4000000x64, .f32⟩
  | .hbm, ⟨19, _⟩ => ⟨S_, .f32⟩
  | .hbm, ⟨20, _⟩ => ⟨S150000x64, .f32⟩
  | .hbm, ⟨21, _⟩ => ⟨S4000000x1, .i32⟩
  | .hbm, ⟨22, _⟩ => ⟨S150000x64, .f32⟩
  | .hbm, ⟨23, _⟩ => ⟨S1x150000x64, .f32⟩
  | .hbm, ⟨24, _⟩ => ⟨S150000x64, .f32⟩
  | .hbm, ⟨25, _⟩ => ⟨S150000x64, .f32⟩
  | .hbm, ⟨26, _⟩ => ⟨S4000000x1, .f32⟩
  | .hbm, ⟨27, _⟩ => ⟨S_, .i32⟩
  | .hbm, ⟨28, _⟩ => ⟨S4000000, .i32⟩
  | .hbm, ⟨29, _⟩ => ⟨S4000000, .i1⟩
  | .hbm, ⟨30, _⟩ => ⟨S_, .i32⟩
  | .hbm, ⟨31, _⟩ => ⟨S4000000, .i32⟩
  | .hbm, ⟨32, _⟩ => ⟨S4000000, .i32⟩
  | .hbm, ⟨33, _⟩ => ⟨S4000000, .i32⟩
  | .hbm, ⟨34, _⟩ => ⟨S4000000x1, .i32⟩
  | .hbm, ⟨35, _⟩ => ⟨S4000000x64, .f32⟩
  | .hbm, ⟨36, _⟩ => ⟨S4000000x64, .f32⟩
  | .hbm, ⟨37, _⟩ => ⟨S4000000x64, .f32⟩
  | .hbm, ⟨38, _⟩ => ⟨S_, .f32⟩
  | .hbm, ⟨39, _⟩ => ⟨S150000x64, .f32⟩
  | .hbm, ⟨40, _⟩ => ⟨S4000000x1, .i32⟩
  | .hbm, ⟨41, _⟩ => ⟨S150000x64, .f32⟩
  | .hbm, ⟨42, _⟩ => ⟨S1x150000x64, .f32⟩
  | .hbm, ⟨43, _⟩ => ⟨S150000x64, .f32⟩
  | .hbm, ⟨44, _⟩ => ⟨S150000x64, .f32⟩
  | .hbm, ⟨45, _⟩ => ⟨S4000000x1, .f32⟩
  | .hbm, ⟨46, _⟩ => ⟨S_, .i32⟩
  | .hbm, ⟨47, _⟩ => ⟨S4000000, .i32⟩
  | .hbm, ⟨48, _⟩ => ⟨S4000000, .i1⟩
  | .hbm, ⟨49, _⟩ => ⟨S_, .i32⟩
  | .hbm, ⟨50, _⟩ => ⟨S4000000, .i32⟩
  | .hbm, ⟨51, _⟩ => ⟨S4000000, .i32⟩
  | .hbm, ⟨52, _⟩ => ⟨S4000000, .i32⟩
  | .hbm, ⟨53, _⟩ => ⟨S4000000x1, .i32⟩
  | .hbm, ⟨54, _⟩ => ⟨S4000000x64, .f32⟩
  | .hbm, ⟨55, _⟩ => ⟨S4000000x64, .f32⟩
  | .hbm, ⟨56, _⟩ => ⟨S4000000x64, .f32⟩
  | .hbm, ⟨57, _⟩ => ⟨S_, .f32⟩
  | .hbm, ⟨58, _⟩ => ⟨S150000x64, .f32⟩
  | .hbm, ⟨59, _⟩ => ⟨S4000000x1, .i32⟩
  | .hbm, ⟨60, _⟩ => ⟨S150000x64, .f32⟩
  | .hbm, ⟨61, _⟩ => ⟨S1x150000x64, .f32⟩
  | .hbm, ⟨62, _⟩ => ⟨S150000x64, .f32⟩
  | .hbm, ⟨63, _⟩ => ⟨S150000x64, .f32⟩
  | .hbm, ⟨64, _⟩ => ⟨S150000x1x64, .f32⟩
  | .hbm, ⟨65, _⟩ => ⟨S150000x1x64, .f32⟩
  | .hbm, ⟨66, _⟩ => ⟨S150000x1x64, .f32⟩
  | .hbm, ⟨67, _⟩ => ⟨S150000x3x64, .f32⟩
  | .hbm, ⟨68, _⟩ => ⟨S_, .f32⟩
  | .hbm, ⟨69, _⟩ => ⟨S150000x64, .f32⟩
  | .hbm, ⟨70, _⟩ => ⟨S_, .f32⟩
  | .hbm, ⟨71, _⟩ => ⟨S150000x64, .f32⟩
  | .hbm, ⟨72, _⟩ => ⟨S150000x64, .f32⟩
  | .hbm, ⟨73, _⟩ => ⟨S100000x64, .f32⟩
  | .hbm, ⟨74, _⟩ => ⟨S50000x64, .f32⟩
  | .hbm, ⟨75, _⟩ => ⟨S100000x64, .f32⟩
  | .hbm, ⟨76, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [BitOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S3x150000x64_S1x150000x64_0_0_0 : S3x150000x64.Slices ![0, 0, 0] S1x150000x64
  shapeCasts_S1x150000x64_S150000x64 : S1x150000x64.ShapeCasts S150000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  slices_S3x150000x64_S1x150000x64_1_0_0 : S3x150000x64.Slices ![1, 0, 0] S1x150000x64
  slices_S3x150000x64_S1x150000x64_2_0_0 : S3x150000x64.Slices ![2, 0, 0] S1x150000x64
  bcast_S150000x64_S150000x1x64_0_2 : S150000x64.BroadcastsInDim S150000x1x64 (![0, 2] : Fin 2 → Fin S150000x1x64.rank)
  concatenates_S150000x1x64_S150000x1x64_S150000x1x64_S150000x3x64_d1 : Shape.Concatenates [S150000x1x64, S150000x1x64, S150000x1x64] S150000x3x64 1
  reducesTo_S150000x3x64_S150000x64_d1 : S150000x3x64.ReducesTo [1] S150000x64
  h_S_ : 0 < S_.numel
  slices_S150000x64_S100000x64_0_0 : S150000x64.Slices ![0, 0] S100000x64
  slices_S150000x64_S50000x64_100000_0 : S150000x64.Slices ![100000, 0] S50000x64
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S150000x64.size a
  hwx0_0 : ∀ i : grid0.Coords, EltTy.bits .f32 = 32 ∨ (Rect.block (s := S150000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S150000x64.size a
  hwx0_1 : ∀ i : grid0.Coords, EltTy.bits .f32 = 32 ∨ (Rect.block (s := S150000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S150000x64.size a
  hwx0_2 : ∀ i : grid0.Coords, EltTy.bits .f32 = 32 ∨ (Rect.block (s := S150000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S150000x64.size a
  hwx1_0 : ∀ i : grid1.Coords, EltTy.bits .f32 = 32 ∨ (Rect.block (s := S150000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S150000x64.size a
  hwx1_1 : ∀ i : grid1.Coords, EltTy.bits .f32 = 32 ∨ (Rect.block (s := S150000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S150000x64.size a
  hwx1_2 : ∀ i : grid1.Coords, EltTy.bits .f32 = 32 ∨ (Rect.block (s := S150000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S150000x64.size a
  hwx2_0 : ∀ i : grid2.Coords, EltTy.bits .f32 = 32 ∨ (Rect.block (s := S150000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S150000x64.size a
  hwx2_1 : ∀ i : grid2.Coords, EltTy.bits .f32 = 32 ∨ (Rect.block (s := S150000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S150000x64.size a
  hwx2_2 : ∀ i : grid2.Coords, EltTy.bits .f32 = 32 ∨ (Rect.block (s := S150000x64) S10000x64.size (cc2_transform_2 i) (hinb2_2 i)).WholeWords (EltTy.packing .f32)

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4000000 : Shape := ⟨1, ![4000000]⟩
abbrev S3x150000x64 : Shape := ⟨3, ![3, 150000, 64]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S1x150000x64 : Shape := ⟨3, ![1, 150000, 64]⟩
abbrev S150000 : Shape := ⟨1, ![150000]⟩
abbrev S150000x1 : Shape := ⟨2, ![150000, 1]⟩
abbrev S150000x1x64 : Shape := ⟨3, ![150000, 1, 64]⟩
abbrev S150000x3x64 : Shape := ⟨3, ![150000, 3, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .i32⟩
  | .hbm, ⟨3, _⟩ => ⟨S4000000, .i32⟩
  | .hbm, ⟨4, _⟩ => ⟨S4000000, .f32⟩
  | .hbm, ⟨5, _⟩ => ⟨S3x150000x64, .f32⟩
  | .hbm, ⟨6, _⟩ => ⟨S150000x64, .f32⟩
  | .hbm, ⟨7, _⟩ => ⟨S4000000x1, .f32⟩
  | .hbm, ⟨8, _⟩ => ⟨S_, .i32⟩
  | .hbm, ⟨9, _⟩ => ⟨S4000000, .i32⟩
  | .hbm, ⟨10, _⟩ => ⟨S4000000, .i1⟩
  | .hbm, ⟨11, _⟩ => ⟨S_, .i32⟩
  | .hbm, ⟨12, _⟩ => ⟨S4000000, .i32⟩
  | .hbm, ⟨13, _⟩ => ⟨S4000000, .i32⟩
  | .hbm, ⟨14, _⟩ => ⟨S4000000, .i32⟩
  | .hbm, ⟨15, _⟩ => ⟨S4000000x1, .i32⟩
  | .hbm, ⟨16, _⟩ => ⟨S4000000x64, .f32⟩
  | .hbm, ⟨17, _⟩ => ⟨S4000000x64, .f32⟩
  | .hbm, ⟨18, _⟩ => ⟨S4000000x64, .f32⟩
  | .hbm, ⟨19, _⟩ => ⟨S_, .f32⟩
  | .hbm, ⟨20, _⟩ => ⟨S150000x64, .f32⟩
  | .hbm, ⟨21, _⟩ => ⟨S4000000x1, .i32⟩
  | .hbm, ⟨22, _⟩ => ⟨S150000x64, .f32⟩
  | .hbm, ⟨23, _⟩ => ⟨S1x150000x64, .f32⟩
  | .hbm, ⟨24, _⟩ => ⟨S150000x64, .f32⟩
  | .hbm, ⟨25, _⟩ => ⟨S150000x64, .f32⟩
  | .hbm, ⟨26, _⟩ => ⟨S_, .f32⟩
  | .hbm, ⟨27, _⟩ => ⟨S150000, .f32⟩
  | .hbm, ⟨28, _⟩ => ⟨S150000x1, .f32⟩
  | .hbm, ⟨29, _⟩ => ⟨S150000x1, .f32⟩
  | .hbm, ⟨30, _⟩ => ⟨S_, .f32⟩
  | .hbm, ⟨31, _⟩ => ⟨S150000x1, .f32⟩
  | .hbm, ⟨32, _⟩ => ⟨S150000x1, .f32⟩
  | .hbm, ⟨33, _⟩ => ⟨S150000x64, .f32⟩
  | .hbm, ⟨34, _⟩ => ⟨S150000x64, .f32⟩
  | .hbm, ⟨35, _⟩ => ⟨S150000x64, .f32⟩
  | .hbm, ⟨36, _⟩ => ⟨S150000x64, .f32⟩
  | .hbm, ⟨37, _⟩ => ⟨S_, .f32⟩
  | .hbm, ⟨38, _⟩ => ⟨S150000x64, .f32⟩
  | .hbm, ⟨39, _⟩ => ⟨S150000x64, .f32⟩
  | .hbm, ⟨40, _⟩ => ⟨S150000x64, .f32⟩
  | .hbm, ⟨41, _⟩ => ⟨S4000000x1, .f32⟩
  | .hbm, ⟨42, _⟩ => ⟨S_, .i32⟩
  | .hbm, ⟨43, _⟩ => ⟨S4000000, .i32⟩
  | .hbm, ⟨44, _⟩ => ⟨S4000000, .i1⟩
  | .hbm, ⟨45, _⟩ => ⟨S_, .i32⟩
  | .hbm, ⟨46, _⟩ => ⟨S4000000, .i32⟩
  | .hbm, ⟨47, _⟩ => ⟨S4000000, .i32⟩
  | .hbm, ⟨48, _⟩ => ⟨S4000000, .i32⟩
  | .hbm, ⟨49, _⟩ => ⟨S4000000x1, .i32⟩
  | .hbm, ⟨50, _⟩ => ⟨S4000000x64, .f32⟩
  | .hbm, ⟨51, _⟩ => ⟨S4000000x64, .f32⟩
  | .hbm, ⟨52, _⟩ => ⟨S4000000x64, .f32⟩
  | .hbm, ⟨53, _⟩ => ⟨S_, .f32⟩
  | .hbm, ⟨54, _⟩ => ⟨S150000x64, .f32⟩
  | .hbm, ⟨55, _⟩ => ⟨S4000000x1, .i32⟩
  | .hbm, ⟨56, _⟩ => ⟨S150000x64, .f32⟩
  | .hbm, ⟨57, _⟩ => ⟨S1x150000x64, .f32⟩
  | .hbm, ⟨58, _⟩ => ⟨S150000x64, .f32⟩
  | .hbm, ⟨59, _⟩ => ⟨S150000x64, .f32⟩
  | .hbm, ⟨60, _⟩ => ⟨S_, .f32⟩
  | .hbm, ⟨61, _⟩ => ⟨S150000, .f32⟩
  | .hbm, ⟨62, _⟩ => ⟨S150000x1, .f32⟩
  | .hbm, ⟨63, _⟩ => ⟨S150000x1, .f32⟩
  | .hbm, ⟨64, _⟩ => ⟨S_, .f32⟩
  | .hbm, ⟨65, _⟩ => ⟨S150000x1, .f32⟩
  | .hbm, ⟨66, _⟩ => ⟨S150000x1, .f32⟩
  | .hbm, ⟨67, _⟩ => ⟨S150000x64, .f32⟩
  | .hbm, ⟨68, _⟩ => ⟨S150000x64, .f32⟩
  | .hbm, ⟨69, _⟩ => ⟨S150000x64, .f32⟩
  | .hbm, ⟨70, _⟩ => ⟨S150000x64, .f32⟩
  | .hbm, ⟨71, _⟩ => ⟨S_, .f32⟩
  | .hbm, ⟨72, _⟩ => ⟨S150000x64, .f32⟩
  | .hbm, ⟨73, _⟩ => ⟨S150000x64, .f32⟩
  | .hbm, ⟨74, _⟩ => ⟨S150000x64, .f32⟩
  | .hbm, ⟨75, _⟩ => ⟨S4000000x1, .f32⟩
  | .hbm, ⟨76, _⟩ => ⟨S_, .i32⟩
  | .hbm, ⟨77, _⟩ => ⟨S4000000, .i32⟩
  | .hbm, ⟨78, _⟩ => ⟨S4000000, .i1⟩
  | .hbm, ⟨79, _⟩ => ⟨S_, .i32⟩
  | .hbm, ⟨80, _⟩ => ⟨S4000000, .i32⟩
  | .hbm, ⟨81, _⟩ => ⟨S4000000, .i32⟩
  | .hbm, ⟨82, _⟩ => ⟨S4000000, .i32⟩
  | .hbm, ⟨83, _⟩ => ⟨S4000000x1, .i32⟩
  | .hbm, ⟨84, _⟩ => ⟨S4000000x64, .f32⟩
  | .hbm, ⟨85, _⟩ => ⟨S4000000x64, .f32⟩
  | .hbm, ⟨86, _⟩ => ⟨S4000000x64, .f32⟩
  | .hbm, ⟨87, _⟩ => ⟨S_, .f32⟩
  | .hbm, ⟨88, _⟩ => ⟨S150000x64, .f32⟩
  | .hbm, ⟨89, _⟩ => ⟨S4000000x1, .i32⟩
  | .hbm, ⟨90, _⟩ => ⟨S150000x64, .f32⟩
  | .hbm, ⟨91, _⟩ => ⟨S1x150000x64, .f32⟩
  | .hbm, ⟨92, _⟩ => ⟨S150000x64, .f32⟩
  | .hbm, ⟨93, _⟩ => ⟨S150000x64, .f32⟩
  | .hbm, ⟨94, _⟩ => ⟨S_, .f32⟩
  | .hbm, ⟨95, _⟩ => ⟨S150000, .f32⟩
  | .hbm, ⟨96, _⟩ => ⟨S150000x1, .f32⟩
  | .hbm, ⟨97, _⟩ => ⟨S150000x1, .f32⟩
  | .hbm, ⟨98, _⟩ => ⟨S_, .f32⟩
  | .hbm, ⟨99, _⟩ => ⟨S150000x1, .f32⟩
  | .hbm, ⟨100, _⟩ => ⟨S150000x1, .f32⟩
  | .hbm, ⟨101, _⟩ => ⟨S150000x64, .f32⟩
  | .hbm, ⟨102, _⟩ => ⟨S150000x64, .f32⟩
  | .hbm, ⟨103, _⟩ => ⟨S150000x64, .f32⟩
  | .hbm, ⟨104, _⟩ => ⟨S150000x64, .f32⟩
  | .hbm, ⟨105, _⟩ => ⟨S_, .f32⟩
  | .hbm, ⟨106, _⟩ => ⟨S150000x64, .f32⟩
  | .hbm, ⟨107, _⟩ => ⟨S150000x64, .f32⟩
  | .hbm, ⟨108, _⟩ => ⟨S150000x64, .f32⟩
  | .hbm, ⟨109, _⟩ => ⟨S150000x1x64, .f32⟩
  | .hbm, ⟨110, _⟩ => ⟨S150000x1x64, .f32⟩
  | .hbm, ⟨111, _⟩ => ⟨S150000x1x64, .f32⟩
  | .hbm, ⟨112, _⟩ => ⟨S150000x3x64, .f32⟩
  | .hbm, ⟨113, _⟩ => ⟨S_, .f32⟩
  | .hbm, ⟨114, _⟩ => ⟨S150000x64, .f32⟩
  | .hbm, ⟨115, _⟩ => ⟨S_, .f32⟩
  | .hbm, ⟨116, _⟩ => ⟨S150000x64, .f32⟩
  | .hbm, ⟨117, _⟩ => ⟨S150000x64, .f32⟩
  | .hbm, ⟨118, _⟩ => ⟨S100000x64, .f32⟩
  | .hbm, ⟨119, _⟩ => ⟨S50000x64, .f32⟩
  | .hbm, ⟨120, _⟩ => ⟨S100000x64, .f32⟩
  | .hbm, ⟨121, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_v0 : Ref sig .tc := ⟨.hbm, 59, rfl⟩
abbrev main_call1_cst : Ref sig .tc := ⟨.hbm, 60, rfl⟩
abbrev main_call1_v1 : Ref sig .tc := ⟨.hbm, 61, rfl⟩
abbrev main_call1_v2 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_8 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_v0 : Ref sig .tc := ⟨.hbm, 93, rfl⟩
abbrev main_call2_cst : Ref sig .tc := ⟨.hbm, 94, rfl⟩
abbrev main_call2_v1 : Ref sig .tc := ⟨.hbm, 95, rfl⟩
abbrev main_call2_v2 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_12 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_13 : Ref sig .tc := ⟨.hbm, 113, rfl⟩
abbrev main_v80 : Ref sig .tc := ⟨.hbm, 114, rfl⟩
abbrev main_cst_14 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S3x150000x64_S1x150000x64_0_0_0 : S3x150000x64.Slices ![0, 0, 0] S1x150000x64
  shapeCasts_S1x150000x64_S150000x64 : S1x150000x64.ShapeCasts S150000x64
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S3x150000x64_S1x150000x64_1_0_0 : S3x150000x64.Slices ![1, 0, 0] S1x150000x64
  slices_S3x150000x64_S1x150000x64_2_0_0 : S3x150000x64.Slices ![2, 0, 0] S1x150000x64
  bcast_S150000x64_S150000x1x64_0_2 : S150000x64.BroadcastsInDim S150000x1x64 (![0, 2] : Fin 2 → Fin S150000x1x64.rank)
  concatenates_S150000x1x64_S150000x1x64_S150000x1x64_S150000x3x64_d1 : Shape.Concatenates [S150000x1x64, S150000x1x64, S150000x1x64] S150000x3x64 1
  reducesTo_S150000x3x64_S150000x64_d1 : S150000x3x64.ReducesTo [1] S150000x64
  slices_S150000x64_S100000x64_0_0 : S150000x64.Slices ![0, 0] S100000x64
  slices_S150000x64_S50000x64_100000_0 : S150000x64.Slices ![100000, 0] S50000x64
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

class Facts : Prop extends Facts₀ where

variable [Facts]
-- ==== Proof.RefRun.lean ====
/-
  The reference program's run, stretch by stretch.

  @main of the reference is 116 host operations in a straight line. They fall into seven stretches: a propagation
  (gather, weight, scatter-add) with the layer's noise slab sliced off, then the injection, three times over, and a
  closing stretch that averages the three layers and slices the results. Every weakly fair execution terminates with
  each buffer at the fold of the operations over the launch memory; cutting the fold at the six boundaries gives seven
  short folds, each read on its own.
-/
import proofs.«147810_j21371757264955_1_alg».proof.Proof.Gen.ReferenceIdeal
import Idealize.ShloMosaic.Lib.StableHlo.Run

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

/-! ## The seven stretches (a called function's operations stand in its call's place) -/

/-- Operations 1 … 19: the two embedding tables joined, the first propagation (gather the source rows, weight them, add them up by destination) and the first noise slab. -/
abbrev prop0 : List (HloOp τ sig (Elt F)) :=
  [ binary main_arg0 main_arg1 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    unary main_arg4 main_v1 (broadcastInDim S4000000x1 ![0] bcast_S4000000_S4000000x1_0 : (⟨S4000000, .f32⟩ : BufTy).Contents (Elt F) → (⟨S4000000x1, .f32⟩ : BufTy).Contents (Elt F)),
    nullary main_c (constantI S_ 32 0#32),
    unary main_c main_v2 (broadcastInDim S4000000 ![] bcast_S_S4000000 : (⟨S_, .i32⟩ : BufTy).Contents (Elt F) → (⟨S4000000, .i32⟩ : BufTy).Contents (Elt F)),
    binary main_arg3 main_v2 main_v3 (cmpi .slt : (⟨S4000000, .i32⟩ : BufTy).Contents (Elt F) → (⟨S4000000, .i32⟩ : BufTy).Contents (Elt F) → (⟨S4000000, .i1⟩ : BufTy).Contents (Elt F)),
    nullary main_c_0 (constantI S_ 32 150000#32),
    unary main_c_0 main_v4 (broadcastInDim S4000000 ![] bcast_S_S4000000 : (⟨S_, .i32⟩ : BufTy).Contents (Elt F) → (⟨S4000000, .i32⟩ : BufTy).Contents (Elt F)),
    binary main_arg3 main_v4 main_v5 (addi : (⟨S4000000, .i32⟩ : BufTy).Contents (Elt F) → (⟨S4000000, .i32⟩ : BufTy).Contents (Elt F) → (⟨S4000000, .i32⟩ : BufTy).Contents (Elt F)),
    ternary main_v3 main_v5 main_arg3 main_v6 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v6 main_v7 (broadcastInDim S4000000x1 ![0] bcast_S4000000_S4000000x1_0 : (⟨S4000000, .i32⟩ : BufTy).Contents (Elt F) → (⟨S4000000x1, .i32⟩ : BufTy).Contents (Elt F)),
    binary main_v0 main_v7 main_v8 ((fun x i => Host.gather gather_S150000x64_S4000000x1_S4000000x64_1_0_n_n_0_1_164 x i) : (⟨S150000x64, .f32⟩ : BufTy).Contents (Elt F) → (⟨S4000000x1, .i32⟩ : BufTy).Contents (Elt F) → (⟨S4000000x64, .f32⟩ : BufTy).Contents (Elt F)),
    unary main_v1 main_v9 (broadcastInDim S4000000x64 ![0, 1] bcast_S4000000x1_S4000000x64_0_1 : (⟨S4000000x1, .f32⟩ : BufTy).Contents (Elt F) → (⟨S4000000x64, .f32⟩ : BufTy).Contents (Elt F)),
    binary main_v9 main_v8 main_v10 (mulf : (⟨S4000000x64, .f32⟩ : BufTy).Contents (Elt F) → (⟨S4000000x64, .f32⟩ : BufTy).Contents (Elt F) → (⟨S4000000x64, .f32⟩ : BufTy).Contents (Elt F)),
    nullary main_cst (constant S_ .f32 0x00000000#32),
    unary main_cst main_v11 (broadcastInDim S150000x64 ![] bcast_S_S150000x64 : (⟨S_, .f32⟩ : BufTy).Contents (Elt F) → (⟨S150000x64, .f32⟩ : BufTy).Contents (Elt F)),
    unary main_arg2 main_v12 (broadcastInDim S4000000x1 ![0] bcast_S4000000_S4000000x1_0 : (⟨S4000000, .i32⟩ : BufTy).Contents (Elt F) → (⟨S4000000x1, .i32⟩ : BufTy).Contents (Elt F)),
    ternary main_v11 main_v12 main_v10 main_v13 ((fun x i u => Host.scatterAdd scatter_S150000x64_S4000000x1_S4000000x64_1_0_0_1 x i u) : (⟨S150000x64, .f32⟩ : BufTy).Contents (Elt F) → (⟨S4000000x1, .i32⟩ : BufTy).Contents (Elt F) → (⟨S4000000x64, .f32⟩ : BufTy).Contents (Elt F) → (⟨S150000x64, .f32⟩ : BufTy).Contents (Elt F)),
    unary main_arg5 main_v14 ((extractStridedSlice S1x150000x64 ![0, 0, 0] · slices_S3x150000x64_S1x150000x64_0_0_0) : (⟨S3x150000x64, .f32⟩ : BufTy).Contents (Elt F) → (⟨S1x150000x64, .f32⟩ : BufTy).Contents (Elt F)),
    reshape main_v14 main_v15 rfl shapeCasts_S1x150000x64_S150000x64 ]

/-- Operations 20 … 35: the first injection: the slab's row norms, then `x + sign x · (n / max (‖n‖, floor)) · step`. -/
abbrev inj0 : List (HloOp τ sig (Elt F)) :=
  [ TRef.binary (TRef.of (T := ⟨S150000x64, .f32⟩) main_v15) (TRef.of (T := ⟨S150000x64, .f32⟩) main_v15) (TRef.of (T := ⟨S150000x64, .f32⟩) main_call0_v0) mulf,
    TRef.nullary (TRef.of (T := ⟨S_, .f32⟩) main_call0_cst) (constant S_ .f32 0x00000000#32),
    TRef.binary (TRef.of (T := ⟨S150000x64, .f32⟩) main_call0_v0) (TRef.of (T := ⟨S_, .f32⟩) main_call0_cst) (TRef.of (T := ⟨S150000, .f32⟩) main_call0_v1) (fun x v => Host.reduceAdd x v reducesTo_S150000x64_S150000_d1 h_S_),
    TRef.unary (TRef.of (T := ⟨S150000, .f32⟩) main_call0_v1) (TRef.of (T := ⟨S150000x1, .f32⟩) main_call0_v2) (broadcastInDim S150000x1 ![0] bcast_S150000_S150000x1_0),
    TRef.unary (TRef.of (T := ⟨S150000x1, .f32⟩) main_call0_v2) (TRef.of (T := ⟨S150000x1, .f32⟩) main_v16) Host.sqrt,
    nullary main_cst_1 (constant S_ .f32 0x2B8CBCCC#32),
    unary main_cst_1 main_v17 (broadcastInDim S150000x1 ![] bcast_S_S150000x1 : (⟨S_, .f32⟩ : BufTy).Contents (Elt F) → (⟨S150000x1, .f32⟩ : BufTy).Contents (Elt F)),
    binary main_v16 main_v17 main_v18 (maximumf : (⟨S150000x1, .f32⟩ : BufTy).Contents (Elt F) → (⟨S150000x1, .f32⟩ : BufTy).Contents (Elt F) → (⟨S150000x1, .f32⟩ : BufTy).Contents (Elt F)),
    unary main_v18 main_v19 (broadcastInDim S150000x64 ![0, 1] bcast_S150000x1_S150000x64_0_1 : (⟨S150000x1, .f32⟩ : BufTy).Contents (Elt F) → (⟨S150000x64, .f32⟩ : BufTy).Contents (Elt F)),
    binary main_v15 main_v19 main_v20 (Host.divf : (⟨S150000x64, .f32⟩ : BufTy).Contents (Elt F) → (⟨S150000x64, .f32⟩ : BufTy).Contents (Elt F) → (⟨S150000x64, .f32⟩ : BufTy).Contents (Elt F)),
    unary main_v13 main_v21 (Host.sign : (⟨S150000x64, .f32⟩ : BufTy).Contents (Elt F) → (⟨S150000x64, .f32⟩ : BufTy).Contents (Elt F)),
    binary main_v21 main_v20 main_v22 (mulf : (⟨S150000x64, .f32⟩ : BufTy).Contents (Elt F) → (⟨S150000x64, .f32⟩ : BufTy).Contents (Elt F) → (⟨S150000x64, .f32⟩ : BufTy).Contents (Elt F)),
    nullary main_cst_2 (constant S_ .f32 0x3E4CCCCD#32),
    unary main_cst_2 main_v23 (broadcastInDim S150000x64 ![] bcast_S_S150000x64 : (⟨S_, .f32⟩ : BufTy).Contents (Elt F) → (⟨S150000x64, .f32⟩ : BufTy).Contents (Elt F)),
    binary main_v22 main_v23 main_v24 (mulf : (⟨S150000x64, .f32⟩ : BufTy).Contents (Elt F) → (⟨S150000x64, .f32⟩ : BufTy).Contents (Elt F) → (⟨S150000x64, .f32⟩ : BufTy).Contents (Elt F)),
    binary main_v13 main_v24 main_v25 (addf : (⟨S150000x64, .f32⟩ : BufTy).Contents (Elt F) → (⟨S150000x64, .f32⟩ : BufTy).Contents (Elt F) → (⟨S150000x64, .f32⟩ : BufTy).Contents (Elt F)) ]

/-- Operations 36 … 53: the second propagation, of the first layer, and the second noise slab. -/
abbrev prop1 : List (HloOp τ sig (Elt F)) :=
  [ unary main_arg4 main_v26 (broadcastInDim S4000000x1 ![0] bcast_S4000000_S4000000x1_0 : (⟨S4000000, .f32⟩ : BufTy).Contents (Elt F) → (⟨S4000000x1, .f32⟩ : BufTy).Contents (Elt F)),
    nullary main_c_3 (constantI S_ 32 0#32),
    unary main_c_3 main_v27 (broadcastInDim S4000000 ![] bcast_S_S4000000 : (⟨S_, .i32⟩ : BufTy).Contents (Elt F) → (⟨S4000000, .i32⟩ : BufTy).Contents (Elt F)),
    binary main_arg3 main_v27 main_v28 (cmpi .slt : (⟨S4000000, .i32⟩ : BufTy).Contents (Elt F) → (⟨S4000000, .i32⟩ : BufTy).Contents (Elt F) → (⟨S4000000, .i1⟩ : BufTy).Contents (Elt F)),
    nullary main_c_4 (constantI S_ 32 150000#32),
    unary main_c_4 main_v29 (broadcastInDim S4000000 ![] bcast_S_S4000000 : (⟨S_, .i32⟩ : BufTy).Contents (Elt F) → (⟨S4000000, .i32⟩ : BufTy).Contents (Elt F)),
    binary main_arg3 main_v29 main_v30 (addi : (⟨S4000000, .i32⟩ : BufTy).Contents (Elt F) → (⟨S4000000, .i32⟩ : BufTy).Contents (Elt F) → (⟨S4000000, .i32⟩ : BufTy).Contents (Elt F)),
    ternary main_v28 main_v30 main_arg3 main_v31 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v31 main_v32 (broadcastInDim S4000000x1 ![0] bcast_S4000000_S4000000x1_0 : (⟨S4000000, .i32⟩ : BufTy).Contents (Elt F) → (⟨S4000000x1, .i32⟩ : BufTy).Contents (Elt F)),
    binary main_v25 main_v32 main_v33 ((fun x i => Host.gather gather_S150000x64_S4000000x1_S4000000x64_1_0_n_n_0_1_164 x i) : (⟨S150000x64, .f32⟩ : BufTy).Contents (Elt F) → (⟨S4000000x1, .i32⟩ : BufTy).Contents (Elt F) → (⟨S4000000x64, .f32⟩ : BufTy).Contents (Elt F)),
    unary main_v26 main_v34 (broadcastInDim S4000000x64 ![0, 1] bcast_S4000000x1_S4000000x64_0_1 : (⟨S4000000x1, .f32⟩ : BufTy).Contents (Elt F) → (⟨S4000000x64, .f32⟩ : BufTy).Contents (Elt F)),
    binary main_v34 main_v33 main_v35 (mulf : (⟨S4000000x64, .f32⟩ : BufTy).Contents (Elt F) → (⟨S4000000x64, .f32⟩ : BufTy).Contents (Elt F) → (⟨S4000000x64, .f32⟩ : BufTy).Contents (Elt F)),
    nullary main_cst_5 (constant S_ .f32 0x00000000#32),
    unary main_cst_5 main_v36 (broadcastInDim S150000x64 ![] bcast_S_S150000x64 : (⟨S_, .f32⟩ : BufTy).Contents (Elt F) → (⟨S150000x64, .f32⟩ : BufTy).Contents (Elt F)),
    unary main_arg2 main_v37 (broadcastInDim S4000000x1 ![0] bcast_S4000000_S4000000x1_0 : (⟨S4000000, .i32⟩ : BufTy).Contents (Elt F) → (⟨S4000000x1, .i32⟩ : BufTy).Contents (Elt F)),
    ternary main_v36 main_v37 main_v35 main_v38 ((fun x i u => Host.scatterAdd scatter_S150000x64_S4000000x1_S4000000x64_1_0_0_1 x i u) : (⟨S150000x64, .f32⟩ : BufTy).Contents (Elt F) → (⟨S4000000x1, .i32⟩ : BufTy).Contents (Elt F) → (⟨S4000000x64, .f32⟩ : BufTy).Contents (Elt F) → (⟨S150000x64, .f32⟩ : BufTy).Contents (Elt F)),
    unary main_arg5 main_v39 ((extractStridedSlice S1x150000x64 ![1, 0, 0] · slices_S3x150000x64_S1x150000x64_1_0_0) : (⟨S3x150000x64, .f32⟩ : BufTy).Contents (Elt F) → (⟨S1x150000x64, .f32⟩ : BufTy).Contents (Elt F)),
    reshape main_v39 main_v40 rfl shapeCasts_S1x150000x64_S150000x64 ]

/-- Operations 54 … 69: the second injection. -/
abbrev inj1 : List (HloOp τ sig (Elt F)) :=
  [ TRef.binary (TRef.of (T := ⟨S150000x64, .f32⟩) main_v40) (TRef.of (T := ⟨S150000x64, .f32⟩) main_v40) (TRef.of (T := ⟨S150000x64, .f32⟩) main_call1_v0) mulf,
    TRef.nullary (TRef.of (T := ⟨S_, .f32⟩) main_call1_cst) (constant S_ .f32 0x00000000#32),
    TRef.binary (TRef.of (T := ⟨S150000x64, .f32⟩) main_call1_v0) (TRef.of (T := ⟨S_, .f32⟩) main_call1_cst) (TRef.of (T := ⟨S150000, .f32⟩) main_call1_v1) (fun x v => Host.reduceAdd x v reducesTo_S150000x64_S150000_d1 h_S_),
    TRef.unary (TRef.of (T := ⟨S150000, .f32⟩) main_call1_v1) (TRef.of (T := ⟨S150000x1, .f32⟩) main_call1_v2) (broadcastInDim S150000x1 ![0] bcast_S150000_S150000x1_0),
    TRef.unary (TRef.of (T := ⟨S150000x1, .f32⟩) main_call1_v2) (TRef.of (T := ⟨S150000x1, .f32⟩) main_v41) Host.sqrt,
    nullary main_cst_6 (constant S_ .f32 0x2B8CBCCC#32),
    unary main_cst_6 main_v42 (broadcastInDim S150000x1 ![] bcast_S_S150000x1 : (⟨S_, .f32⟩ : BufTy).Contents (Elt F) → (⟨S150000x1, .f32⟩ : BufTy).Contents (Elt F)),
    binary main_v41 main_v42 main_v43 (maximumf : (⟨S150000x1, .f32⟩ : BufTy).Contents (Elt F) → (⟨S150000x1, .f32⟩ : BufTy).Contents (Elt F) → (⟨S150000x1, .f32⟩ : BufTy).Contents (Elt F)),
    unary main_v43 main_v44 (broadcastInDim S150000x64 ![0, 1] bcast_S150000x1_S150000x64_0_1 : (⟨S150000x1, .f32⟩ : BufTy).Contents (Elt F) → (⟨S150000x64, .f32⟩ : BufTy).Contents (Elt F)),
    binary main_v40 main_v44 main_v45 (Host.divf : (⟨S150000x64, .f32⟩ : BufTy).Contents (Elt F) → (⟨S150000x64, .f32⟩ : BufTy).Contents (Elt F) → (⟨S150000x64, .f32⟩ : BufTy).Contents (Elt F)),
    unary main_v38 main_v46 (Host.sign : (⟨S150000x64, .f32⟩ : BufTy).Contents (Elt F) → (⟨S150000x64, .f32⟩ : BufTy).Contents (Elt F)),
    binary main_v46 main_v45 main_v47 (mulf : (⟨S150000x64, .f32⟩ : BufTy).Contents (Elt F) → (⟨S150000x64, .f32⟩ : BufTy).Contents (Elt F) → (⟨S150000x64, .f32⟩ : BufTy).Contents (Elt F)),
    nullary main_cst_7 (constant S_ .f32 0x3E4CCCCD#32),
    unary main_cst_7 main_v48 (broadcastInDim S150000x64 ![] bcast_S_S150000x64 : (⟨S_, .f32⟩ : BufTy).Contents (Elt F) → (⟨S150000x64, .f32⟩ : BufTy).Contents (Elt F)),
    binary main_v47 main_v48 main_v49 (mulf : (⟨S150000x64, .f32⟩ : BufTy).Contents (Elt F) → (⟨S150000x64, .f32⟩ : BufTy).Contents (Elt F) → (⟨S150000x64, .f32⟩ : BufTy).Contents (Elt F)),
    binary main_v38 main_v49 main_v50 (addf : (⟨S150000x64, .f32⟩ : BufTy).Contents (Elt F) → (⟨S150000x64, .f32⟩ : BufTy).Contents (Elt F) → (⟨S150000x64, .f32⟩ : BufTy).Contents (Elt F)) ]

/-- Operations 70 … 87: the third propagation, of the second layer, and the third noise slab. -/
abbrev prop2 : List (HloOp τ sig (Elt F)) :=
  [ unary main_arg4 main_v51 (broadcastInDim S4000000x1 ![0] bcast_S4000000_S4000000x1_0 : (⟨S4000000, .f32⟩ : BufTy).Contents (Elt F) → (⟨S4000000x1, .f32⟩ : BufTy).Contents (Elt F)),
    nullary main_c_8 (constantI S_ 32 0#32),
    unary main_c_8 main_v52 (broadcastInDim S4000000 ![] bcast_S_S4000000 : (⟨S_, .i32⟩ : BufTy).Contents (Elt F) → (⟨S4000000, .i32⟩ : BufTy).Contents (Elt F)),
    binary main_arg3 main_v52 main_v53 (cmpi .slt : (⟨S4000000, .i32⟩ : BufTy).Contents (Elt F) → (⟨S4000000, .i32⟩ : BufTy).Contents (Elt F) → (⟨S4000000, .i1⟩ : BufTy).Contents (Elt F)),
    nullary main_c_9 (constantI S_ 32 150000#32),
    unary main_c_9 main_v54 (broadcastInDim S4000000 ![] bcast_S_S4000000 : (⟨S_, .i32⟩ : BufTy).Contents (Elt F) → (⟨S4000000, .i32⟩ : BufTy).Contents (Elt F)),
    binary main_arg3 main_v54 main_v55 (addi : (⟨S4000000, .i32⟩ : BufTy).Contents (Elt F) → (⟨S4000000, .i32⟩ : BufTy).Contents (Elt F) → (⟨S4000000, .i32⟩ : BufTy).Contents (Elt F)),
    ternary main_v53 main_v55 main_arg3 main_v56 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v56 main_v57 (broadcastInDim S4000000x1 ![0] bcast_S4000000_S4000000x1_0 : (⟨S4000000, .i32⟩ : BufTy).Contents (Elt F) → (⟨S4000000x1, .i32⟩ : BufTy).Contents (Elt F)),
    binary main_v50 main_v57 main_v58 ((fun x i => Host.gather gather_S150000x64_S4000000x1_S4000000x64_1_0_n_n_0_1_164 x i) : (⟨S150000x64, .f32⟩ : BufTy).Contents (Elt F) → (⟨S4000000x1, .i32⟩ : BufTy).Contents (Elt F) → (⟨S4000000x64, .f32⟩ : BufTy).Contents (Elt F)),
    unary main_v51 main_v59 (broadcastInDim S4000000x64 ![0, 1] bcast_S4000000x1_S4000000x64_0_1 : (⟨S4000000x1, .f32⟩ : BufTy).Contents (Elt F) → (⟨S4000000x64, .f32⟩ : BufTy).Contents (Elt F)),
    binary main_v59 main_v58 main_v60 (mulf : (⟨S4000000x64, .f32⟩ : BufTy).Contents (Elt F) → (⟨S4000000x64, .f32⟩ : BufTy).Contents (Elt F) → (⟨S4000000x64, .f32⟩ : BufTy).Contents (Elt F)),
    nullary main_cst_10 (constant S_ .f32 0x00000000#32),
    unary main_cst_10 main_v61 (broadcastInDim S150000x64 ![] bcast_S_S150000x64 : (⟨S_, .f32⟩ : BufTy).Contents (Elt F) → (⟨S150000x64, .f32⟩ : BufTy).Contents (Elt F)),
    unary main_arg2 main_v62 (broadcastInDim S4000000x1 ![0] bcast_S4000000_S4000000x1_0 : (⟨S4000000, .i32⟩ : BufTy).Contents (Elt F) → (⟨S4000000x1, .i32⟩ : BufTy).Contents (Elt F)),
    ternary main_v61 main_v62 main_v60 main_v63 ((fun x i u => Host.scatterAdd scatter_S150000x64_S4000000x1_S4000000x64_1_0_0_1 x i u) : (⟨S150000x64, .f32⟩ : BufTy).Contents (Elt F) → (⟨S4000000x1, .i32⟩ : BufTy).Contents (Elt F) → (⟨S4000000x64, .f32⟩ : BufTy).Contents (Elt F) → (⟨S150000x64, .f32⟩ : BufTy).Contents (Elt F)),
    unary main_arg5 main_v64 ((extractStridedSlice S1x150000x64 ![2, 0, 0] · slices_S3x150000x64_S1x150000x64_2_0_0) : (⟨S3x150000x64, .f32⟩ : BufTy).Contents (Elt F) → (⟨S1x150000x64, .f32⟩ : BufTy).Contents (Elt F)),
    reshape main_v64 main_v65 rfl shapeCasts_S1x150000x64_S150000x64 ]

/-- Operations 88 … 103: the third injection. -/
abbrev inj2 : List (HloOp τ sig (Elt F)) :=
  [ TRef.binary (TRef.of (T := ⟨S150000x64, .f32⟩) main_v65) (TRef.of (T := ⟨S150000x64, .f32⟩) main_v65) (TRef.of (T := ⟨S150000x64, .f32⟩) main_call2_v0) mulf,
    TRef.nullary (TRef.of (T := ⟨S_, .f32⟩) main_call2_cst) (constant S_ .f32 0x00000000#32),
    TRef.binary (TRef.of (T := ⟨S150000x64, .f32⟩) main_call2_v0) (TRef.of (T := ⟨S_, .f32⟩) main_call2_cst) (TRef.of (T := ⟨S150000, .f32⟩) main_call2_v1) (fun x v => Host.reduceAdd x v reducesTo_S150000x64_S150000_d1 h_S_),
    TRef.unary (TRef.of (T := ⟨S150000, .f32⟩) main_call2_v1) (TRef.of (T := ⟨S150000x1, .f32⟩) main_call2_v2) (broadcastInDim S150000x1 ![0] bcast_S150000_S150000x1_0),
    TRef.unary (TRef.of (T := ⟨S150000x1, .f32⟩) main_call2_v2) (TRef.of (T := ⟨S150000x1, .f32⟩) main_v66) Host.sqrt,
    nullary main_cst_11 (constant S_ .f32 0x2B8CBCCC#32),
    unary main_cst_11 main_v67 (broadcastInDim S150000x1 ![] bcast_S_S150000x1 : (⟨S_, .f32⟩ : BufTy).Contents (Elt F) → (⟨S150000x1, .f32⟩ : BufTy).Contents (Elt F)),
    binary main_v66 main_v67 main_v68 (maximumf : (⟨S150000x1, .f32⟩ : BufTy).Contents (Elt F) → (⟨S150000x1, .f32⟩ : BufTy).Contents (Elt F) → (⟨S150000x1, .f32⟩ : BufTy).Contents (Elt F)),
    unary main_v68 main_v69 (broadcastInDim S150000x64 ![0, 1] bcast_S150000x1_S150000x64_0_1 : (⟨S150000x1, .f32⟩ : BufTy).Contents (Elt F) → (⟨S150000x64, .f32⟩ : BufTy).Contents (Elt F)),
    binary main_v65 main_v69 main_v70 (Host.divf : (⟨S150000x64, .f32⟩ : BufTy).Contents (Elt F) → (⟨S150000x64, .f32⟩ : BufTy).Contents (Elt F) → (⟨S150000x64, .f32⟩ : BufTy).Contents (Elt F)),
    unary main_v63 main_v71 (Host.sign : (⟨S150000x64, .f32⟩ : BufTy).Contents (Elt F) → (⟨S150000x64, .f32⟩ : BufTy).Contents (Elt F)),
    binary main_v71 main_v70 main_v72 (mulf : (⟨S150000x64, .f32⟩ : BufTy).Contents (Elt F) → (⟨S150000x64, .f32⟩ : BufTy).Contents (Elt F) → (⟨S150000x64, .f32⟩ : BufTy).Contents (Elt F)),
    nullary main_cst_12 (constant S_ .f32 0x3E4CCCCD#32),
    unary main_cst_12 main_v73 (broadcastInDim S150000x64 ![] bcast_S_S150000x64 : (⟨S_, .f32⟩ : BufTy).Contents (Elt F) → (⟨S150000x64, .f32⟩ : BufTy).Contents (Elt F)),
    binary main_v72 main_v73 main_v74 (mulf : (⟨S150000x64, .f32⟩ : BufTy).Contents (Elt F) → (⟨S150000x64, .f32⟩ : BufTy).Contents (Elt F) → (⟨S150000x64, .f32⟩ : BufTy).Contents (Elt F)),
    binary main_v63 main_v74 main_v75 (addf : (⟨S150000x64, .f32⟩ : BufTy).Contents (Elt F) → (⟨S150000x64, .f32⟩ : BufTy).Contents (Elt F) → (⟨S150000x64, .f32⟩ : BufTy).Contents (Elt F)) ]

/-- Operations 104 … 116: the mean of the three layers and the four slices returned. -/
abbrev close : List (HloOp τ sig (Elt F)) :=
  [ unary main_v25 main_v76 (broadcastInDim S150000x1x64 ![0, 2] bcast_S150000x64_S150000x1x64_0_2 : (⟨S150000x64, .f32⟩ : BufTy).Contents (Elt F) → (⟨S150000x1x64, .f32⟩ : BufTy).Contents (Elt F)),
    unary main_v50 main_v77 (broadcastInDim S150000x1x64 ![0, 2] bcast_S150000x64_S150000x1x64_0_2 : (⟨S150000x64, .f32⟩ : BufTy).Contents (Elt F) → (⟨S150000x1x64, .f32⟩ : BufTy).Contents (Elt F)),
    unary main_v75 main_v78 (broadcastInDim S150000x1x64 ![0, 2] bcast_S150000x64_S150000x1x64_0_2 : (⟨S150000x64, .f32⟩ : BufTy).Contents (Elt F) → (⟨S150000x1x64, .f32⟩ : BufTy).Contents (Elt F)),
    nary ![main_v76, main_v77, main_v78] main_v79 (fun u => concatenate S150000x3x64 1 [⟨S150000x1x64, u 0⟩, ⟨S150000x1x64, u 1⟩, ⟨S150000x1x64, u 2⟩] concatenates_S150000x1x64_S150000x1x64_S150000x1x64_S150000x3x64_d1),
    nullary main_cst_13 (constant S_ .f32 0x00000000#32),
    binary main_v79 main_cst_13 main_v80 ((fun x v => Host.reduceAdd x v reducesTo_S150000x3x64_S150000x64_d1 h_S_) : (⟨S150000x3x64, .f32⟩ : BufTy).Contents (Elt F) → (⟨S_, .f32⟩ : BufTy).Contents (Elt F) → (⟨S150000x64, .f32⟩ : BufTy).Contents (Elt F)),
    nullary main_cst_14 (constant S_ .f32 0x40400000#32),
    unary main_cst_14 main_v81 (broadcastInDim S150000x64 ![] bcast_S_S150000x64 : (⟨S_, .f32⟩ : BufTy).Contents (Elt F) → (⟨S150000x64, .f32⟩ : BufTy).Contents (Elt F)),
    binary main_v80 main_v81 main_v82 (Host.divf : (⟨S150000x64, .f32⟩ : BufTy).Contents (Elt F) → (⟨S150000x64, .f32⟩ : BufTy).Contents (Elt F) → (⟨S150000x64, .f32⟩ : BufTy).Contents (Elt F)),
    unary main_v82 main_v83 ((extractStridedSlice S100000x64 ![0, 0] · slices_S150000x64_S100000x64_0_0) : (⟨S150000x64, .f32⟩ : BufTy).Contents (Elt F) → (⟨S100000x64, .f32⟩ : BufTy).Contents (Elt F)),
    unary main_v82 main_v84 ((extractStridedSlice S50000x64 ![100000, 0] · slices_S150000x64_S50000x64_100000_0) : (⟨S150000x64, .f32⟩ : BufTy).Contents (Elt F) → (⟨S50000x64, .f32⟩ : BufTy).Contents (Elt F)),
    unary main_v25 main_v85 ((extractStridedSlice S100000x64 ![0, 0] · slices_S150000x64_S100000x64_0_0) : (⟨S150000x64, .f32⟩ : BufTy).Contents (Elt F) → (⟨S100000x64, .f32⟩ : BufTy).Contents (Elt F)),
    unary main_v25 main_v86 ((extractStridedSlice S50000x64 ![100000, 0] · slices_S150000x64_S50000x64_100000_0) : (⟨S150000x64, .f32⟩ : BufTy).Contents (Elt F) → (⟨S50000x64, .f32⟩ : BufTy).Contents (Elt F)) ]

/-- @main's 116 operations, in order. -/
abbrev ops : List (HloOp τ sig (Elt F)) := prop0 ++ inj0 ++ prop1 ++ inj1 ++ prop2 ++ inj2 ++ close

set_option maxRecDepth 16384 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem prop0_sub : (prop0 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub ..⟩
theorem prop0_fresh : ∀ op ∈ (prop0 : List (HloOp τ sig (Elt F))), op.fresh = ∅ := by
  intro _ h; (repeat (cases h with | head => rfl | tail _ h => ?_)); exact nomatch h

set_option maxRecDepth 8192 in
theorem inj0_sub : (inj0 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., binary_bufs_sub ..⟩
theorem inj0_fresh : ∀ op ∈ (inj0 : List (HloOp τ sig (Elt F))), op.fresh = ∅ := by
  intro _ h; (repeat (cases h with | head => rfl | tail _ h => ?_)); exact nomatch h

set_option maxRecDepth 8192 in
theorem prop1_sub : (prop1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub ..⟩
theorem prop1_fresh : ∀ op ∈ (prop1 : List (HloOp τ sig (Elt F))), op.fresh = ∅ := by
  intro _ h; (repeat (cases h with | head => rfl | tail _ h => ?_)); exact nomatch h

set_option maxRecDepth 8192 in
theorem inj1_sub : (inj1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., binary_bufs_sub ..⟩
theorem inj1_fresh : ∀ op ∈ (inj1 : List (HloOp τ sig (Elt F))), op.fresh = ∅ := by
  intro _ h; (repeat (cases h with | head => rfl | tail _ h => ?_)); exact nomatch h

set_option maxRecDepth 8192 in
theorem prop2_sub : (prop2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub ..⟩
theorem prop2_fresh : ∀ op ∈ (prop2 : List (HloOp τ sig (Elt F))), op.fresh = ∅ := by
  intro _ h; (repeat (cases h with | head => rfl | tail _ h => ?_)); exact nomatch h

set_option maxRecDepth 8192 in
theorem inj2_sub : (inj2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., binary_bufs_sub ..⟩
theorem inj2_fresh : ∀ op ∈ (inj2 : List (HloOp τ sig (Elt F))), op.fresh = ∅ := by
  intro _ h; (repeat (cases h with | head => rfl | tail _ h => ?_)); exact nomatch h

set_option maxRecDepth 8192 in
theorem close_sub : (close : List (HloOp τ sig (Elt F))).Forall fun op => op.bufs ⊆ tcRefs τ sig :=
  ⟨unary_bufs_sub .., unary_bufs_sub .., unary_bufs_sub .., nary_bufs_sub .., nullary_bufs_sub .., binary_bufs_sub .., nullary_bufs_sub .., unary_bufs_sub .., binary_bufs_sub .., unary_bufs_sub .., unary_bufs_sub .., unary_bufs_sub .., unary_bufs_sub ..⟩
theorem close_fresh : ∀ op ∈ (close : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with ((((((h | h) | h) | h) | h) | h) | h)
    · exact List.forall_iff_forall_mem.mp prop0_sub op h
    · exact List.forall_iff_forall_mem.mp inj0_sub op h
    · exact List.forall_iff_forall_mem.mp prop1_sub op h
    · exact List.forall_iff_forall_mem.mp inj1_sub op h
    · exact List.forall_iff_forall_mem.mp prop2_sub op h
    · exact List.forall_iff_forall_mem.mp inj2_sub op h
    · exact List.forall_iff_forall_mem.mp close_sub op h

theorem ops_fresh : ∀ op ∈ (ops : List (HloOp τ sig (Elt F))), op.fresh = ∅ := fun op h => by
  simp only [ops, List.mem_append] at h
  rcases h with ((((((h | h) | h) | h) | h) | h) | h)
  · exact prop0_fresh op h
  · exact inj0_fresh op h
  · exact prop1_fresh op h
  · exact inj1_fresh op h
  · exact prop2_fresh op h
  · exact inj2_fresh op h
  · exact close_fresh op h

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The buffers at the six boundaries and at the end -/

variable (m : (ℓ : Loc nD τ sig) → Buf (Elt F) ℓ) (c : Dev nD)

/-- Core `c`'s buffers at launch, -/
abbrev at0 : Valuation τ sig (Elt F) := fun b => m (c, b)
/-- after the first propagation, the first injection, … -/
abbrev at1 : Valuation τ sig (Elt F) := after prop0 (at0 m c)
abbrev at2 : Valuation τ sig (Elt F) := after inj0 (at1 m c)
abbrev at3 : Valuation τ sig (Elt F) := after prop1 (at2 m c)
abbrev at4 : Valuation τ sig (Elt F) := after inj1 (at3 m c)
abbrev at5 : Valuation τ sig (Elt F) := after prop2 (at4 m c)
abbrev at6 : Valuation τ sig (Elt F) := after inj2 (at5 m c)
/-- and at the return. -/
abbrev at7 : Valuation τ sig (Elt F) := after close (at6 m c)

theorem after_ops : after ops (at0 m c) = at7 m c := by
  show after (prop0 ++ inj0 ++ prop1 ++ inj1 ++ prop2 ++ inj2 ++ close) (at0 m c) = _
  rw [after_append, after_append, after_append, after_append, after_append, after_append]

/-- Every weakly fair execution of the reference terminates, faulting nowhere, with every buffer at the end contents. -/
theorem run (ρ : Dev nD → PrngReg) :
    θ_run defs (onTc (τ := τ) (main (F := F))) ⟨m, fun _ => 0, ρ⟩ fun r => ∀ (c : Dev nD) (b : Ref sig .tc),
      r.2.mem ((c.tc : Thread nD τ).loc b) = at7 m c (Proc.devRef .tc b) :=
  (θ_run defs _ _).mono (fun r h c b => (h c b).trans (congrFun (after_ops m c) _))
    (run_seq scopedRefs_eq scopedSems_eq defs main (fun _ => ops) main_eq (fun _ => ops_sub) m ρ (fun _ => ops_fresh))

end Cert.ReferenceIdeal.Stretch

end
-- ==== Proof.RefKeep.lean ====
/-
  What the reference's stretches leave alone.

  No operation of the reference writes an argument array, and a layer's array, once written by its injection, is not
  written again. Stretch by stretch: each of the seven stretches keeps each of the six arguments; the later
  propagations and injections keep the first layer, and the last ones the second. Chained, every argument reaches the
  return — and the boundaries in between — as launched.
-/
import proofs.«147810_j21371757264955_1_alg».proof.Proof.RefRun

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem prop0_keeps_arg0 (W : Valuation τ sig (Elt F)) : after prop0 W (Proc.devRef .tc main_arg0) = W (Proc.devRef .tc main_arg0) := by
  after_results
  all_goals rfl
set_option maxHeartbeats 4000000 in
theorem prop0_keeps_arg1 (W : Valuation τ sig (Elt F)) : after prop0 W (Proc.devRef .tc main_arg1) = W (Proc.devRef .tc main_arg1) := by
  after_results
  all_goals rfl
set_option maxHeartbeats 4000000 in
theorem prop0_keeps_arg2 (W : Valuation τ sig (Elt F)) : after prop0 W (Proc.devRef .tc main_arg2) = W (Proc.devRef .tc main_arg2) := by
  after_results
  all_goals rfl
set_option maxHeartbeats 4000000 in
theorem prop0_keeps_arg3 (W : Valuation τ sig (Elt F)) : after prop0 W (Proc.devRef .tc main_arg3) = W (Proc.devRef .tc main_arg3) := by
  after_results
  all_goals rfl
set_option maxHeartbeats 4000000 in
theorem prop0_keeps_arg4 (W : Valuation τ sig (Elt F)) : after prop0 W (Proc.devRef .tc main_arg4) = W (Proc.devRef .tc main_arg4) := by
  after_results
  all_goals rfl
set_option maxHeartbeats 4000000 in
theorem prop0_keeps_arg5 (W : Valuation τ sig (Elt F)) : after prop0 W (Proc.devRef .tc main_arg5) = W (Proc.devRef .tc main_arg5) := by
  after_results
  all_goals rfl
set_option maxHeartbeats 4000000 in
theorem inj0_keeps_arg0 (W : Valuation τ sig (Elt F)) : after inj0 W (Proc.devRef .tc main_arg0) = W (Proc.devRef .tc main_arg0) := by
  after_results
  all_goals rfl
set_option maxHeartbeats 4000000 in
theorem inj0_keeps_arg1 (W : Valuation τ sig (Elt F)) : after inj0 W (Proc.devRef .tc main_arg1) = W (Proc.devRef .tc main_arg1) := by
  after_results
  all_goals rfl
set_option maxHeartbeats 4000000 in
theorem inj0_keeps_arg2 (W : Valuation τ sig (Elt F)) : after inj0 W (Proc.devRef .tc main_arg2) = W (Proc.devRef .tc main_arg2) := by
  after_results
  all_goals rfl
set_option maxHeartbeats 4000000 in
theorem inj0_keeps_arg3 (W : Valuation τ sig (Elt F)) : after inj0 W (Proc.devRef .tc main_arg3) = W (Proc.devRef .tc main_arg3) := by
  after_results
  all_goals rfl
set_option maxHeartbeats 4000000 in
theorem inj0_keeps_arg4 (W : Valuation τ sig (Elt F)) : after inj0 W (Proc.devRef .tc main_arg4) = W (Proc.devRef .tc main_arg4) := by
  after_results
  all_goals rfl
set_option maxHeartbeats 4000000 in
theorem inj0_keeps_arg5 (W : Valuation τ sig (Elt F)) : after inj0 W (Proc.devRef .tc main_arg5) = W (Proc.devRef .tc main_arg5) := by
  after_results
  all_goals rfl
set_option maxHeartbeats 4000000 in
theorem prop1_keeps_arg0 (W : Valuation τ sig (Elt F)) : after prop1 W (Proc.devRef .tc main_arg0) = W (Proc.devRef .tc main_arg0) := by
  after_results
  all_goals rfl
set_option maxHeartbeats 4000000 in
theorem prop1_keeps_arg1 (W : Valuation τ sig (Elt F)) : after prop1 W (Proc.devRef .tc main_arg1) = W (Proc.devRef .tc main_arg1) := by
  after_results
  all_goals rfl
set_option maxHeartbeats 4000000 in
theorem prop1_keeps_arg2 (W : Valuation τ sig (Elt F)) : after prop1 W (Proc.devRef .tc main_arg2) = W (Proc.devRef .tc main_arg2) := by
  after_results
  all_goals rfl
set_option maxHeartbeats 4000000 in
theorem prop1_keeps_arg3 (W : Valuation τ sig (Elt F)) : after prop1 W (Proc.devRef .tc main_arg3) = W (Proc.devRef .tc main_arg3) := by
  after_results
  all_goals rfl
set_option maxHeartbeats 4000000 in
theorem prop1_keeps_arg4 (W : Valuation τ sig (Elt F)) : after prop1 W (Proc.devRef .tc main_arg4) = W (Proc.devRef .tc main_arg4) := by
  after_results
  all_goals rfl
set_option maxHeartbeats 4000000 in
theorem prop1_keeps_arg5 (W : Valuation τ sig (Elt F)) : after prop1 W (Proc.devRef .tc main_arg5) = W (Proc.devRef .tc main_arg5) := by
  after_results
  all_goals rfl
set_option maxHeartbeats 4000000 in
theorem inj1_keeps_arg0 (W : Valuation τ sig (Elt F)) : after inj1 W (Proc.devRef .tc main_arg0) = W (Proc.devRef .tc main_arg0) := by
  after_results
  all_goals rfl
set_option maxHeartbeats 4000000 in
theorem inj1_keeps_arg1 (W : Valuation τ sig (Elt F)) : after inj1 W (Proc.devRef .tc main_arg1) = W (Proc.devRef .tc main_arg1) := by
  after_results
  all_goals rfl
set_option maxHeartbeats 4000000 in
theorem inj1_keeps_arg2 (W : Valuation τ sig (Elt F)) : after inj1 W (Proc.devRef .tc main_arg2) = W (Proc.devRef .tc main_arg2) := by
  after_results
  all_goals rfl
set_option maxHeartbeats 4000000 in
theorem inj1_keeps_arg3 (W : Valuation τ sig (Elt F)) : after inj1 W (Proc.devRef .tc main_arg3) = W (Proc.devRef .tc main_arg3) := by
  after_results
  all_goals rfl
set_option maxHeartbeats 4000000 in
theorem inj1_keeps_arg4 (W : Valuation τ sig (Elt F)) : after inj1 W (Proc.devRef .tc main_arg4) = W (Proc.devRef .tc main_arg4) := by
  after_results
  all_goals rfl
set_option maxHeartbeats 4000000 in
theorem inj1_keeps_arg5 (W : Valuation τ sig (Elt F)) : after inj1 W (Proc.devRef .tc main_arg5) = W (Proc.devRef .tc main_arg5) := by
  after_results
  all_goals rfl
set_option maxHeartbeats 4000000 in
theorem prop2_keeps_arg0 (W : Valuation τ sig (Elt F)) : after prop2 W (Proc.devRef .tc main_arg0) = W (Proc.devRef .tc main_arg0) := by
  after_results
  all_goals rfl
set_option maxHeartbeats 4000000 in
theorem prop2_keeps_arg1 (W : Valuation τ sig (Elt F)) : after prop2 W (Proc.devRef .tc main_arg1) = W (Proc.devRef .tc main_arg1) := by
  after_results
  all_goals rfl
set_option maxHeartbeats 4000000 in
theorem prop2_keeps_arg2 (W : Valuation τ sig (Elt F)) : after prop2 W (Proc.devRef .tc main_arg2) = W (Proc.devRef .tc main_arg2) := by
  after_results
  all_goals rfl
set_option maxHeartbeats 4000000 in
theorem prop2_keeps_arg3 (W : Valuation τ sig (Elt F)) : after prop2 W (Proc.devRef .tc main_arg3) = W (Proc.devRef .tc main_arg3) := by
  after_results
  all_goals rfl
set_option maxHeartbeats 4000000 in
theorem prop2_keeps_arg4 (W : Valuation τ sig (Elt F)) : after prop2 W (Proc.devRef .tc main_arg4) = W (Proc.devRef .tc main_arg4) := by
  after_results
  all_goals rfl
set_option maxHeartbeats 4000000 in
theorem prop2_keeps_arg5 (W : Valuation τ sig (Elt F)) : after prop2 W (Proc.devRef .tc main_arg5) = W (Proc.devRef .tc main_arg5) := by
  after_results
  all_goals rfl
set_option maxHeartbeats 4000000 in
theorem inj2_keeps_arg0 (W : Valuation τ sig (Elt F)) : after inj2 W (Proc.devRef .tc main_arg0) = W (Proc.devRef .tc main_arg0) := by
  after_results
  all_goals rfl
set_option maxHeartbeats 4000000 in
theorem inj2_keeps_arg1 (W : Valuation τ sig (Elt F)) : after inj2 W (Proc.devRef .tc main_arg1) = W (Proc.devRef .tc main_arg1) := by
  after_results
  all_goals rfl
set_option maxHeartbeats 4000000 in
theorem inj2_keeps_arg2 (W : Valuation τ sig (Elt F)) : after inj2 W (Proc.devRef .tc main_arg2) = W (Proc.devRef .tc main_arg2) := by
  after_results
  all_goals rfl
set_option maxHeartbeats 4000000 in
theorem inj2_keeps_arg3 (W : Valuation τ sig (Elt F)) : after inj2 W (Proc.devRef .tc main_arg3) = W (Proc.devRef .tc main_arg3) := by
  after_results
  all_goals rfl
set_option maxHeartbeats 4000000 in
theorem inj2_keeps_arg4 (W : Valuation τ sig (Elt F)) : after inj2 W (Proc.devRef .tc main_arg4) = W (Proc.devRef .tc main_arg4) := by
  after_results
  all_goals rfl
set_option maxHeartbeats 4000000 in
theorem inj2_keeps_arg5 (W : Valuation τ sig (Elt F)) : after inj2 W (Proc.devRef .tc main_arg5) = W (Proc.devRef .tc main_arg5) := by
  after_results
  all_goals rfl
set_option maxHeartbeats 4000000 in
theorem close_keeps_arg0 (W : Valuation τ sig (Elt F)) : after close W (Proc.devRef .tc main_arg0) = W (Proc.devRef .tc main_arg0) := by
  after_results
  all_goals rfl
set_option maxHeartbeats 4000000 in
theorem close_keeps_arg1 (W : Valuation τ sig (Elt F)) : after close W (Proc.devRef .tc main_arg1) = W (Proc.devRef .tc main_arg1) := by
  after_results
  all_goals rfl
set_option maxHeartbeats 4000000 in
theorem close_keeps_arg2 (W : Valuation τ sig (Elt F)) : after close W (Proc.devRef .tc main_arg2) = W (Proc.devRef .tc main_arg2) := by
  after_results
  all_goals rfl
set_option maxHeartbeats 4000000 in
theorem close_keeps_arg3 (W : Valuation τ sig (Elt F)) : after close W (Proc.devRef .tc main_arg3) = W (Proc.devRef .tc main_arg3) := by
  after_results
  all_goals rfl
set_option maxHeartbeats 4000000 in
theorem close_keeps_arg4 (W : Valuation τ sig (Elt F)) : after close W (Proc.devRef .tc main_arg4) = W (Proc.devRef .tc main_arg4) := by
  after_results
  all_goals rfl
set_option maxHeartbeats 4000000 in
theorem close_keeps_arg5 (W : Valuation τ sig (Elt F)) : after close W (Proc.devRef .tc main_arg5) = W (Proc.devRef .tc main_arg5) := by
  after_results
  all_goals rfl
set_option maxHeartbeats 4000000 in
theorem prop1_keeps_v25 (W : Valuation τ sig (Elt F)) : after prop1 W (Proc.devRef .tc main_v25) = W (Proc.devRef .tc main_v25) := by
  after_results
  all_goals rfl
set_option maxHeartbeats 4000000 in
theorem inj1_keeps_v25 (W : Valuation τ sig (Elt F)) : after inj1 W (Proc.devRef .tc main_v25) = W (Proc.devRef .tc main_v25) := by
  after_results
  all_goals rfl
set_option maxHeartbeats 4000000 in
theorem prop2_keeps_v25 (W : Valuation τ sig (Elt F)) : after prop2 W (Proc.devRef .tc main_v25) = W (Proc.devRef .tc main_v25) := by
  after_results
  all_goals rfl
set_option maxHeartbeats 4000000 in
theorem inj2_keeps_v25 (W : Valuation τ sig (Elt F)) : after inj2 W (Proc.devRef .tc main_v25) = W (Proc.devRef .tc main_v25) := by
  after_results
  all_goals rfl
set_option maxHeartbeats 4000000 in
theorem prop2_keeps_v50 (W : Valuation τ sig (Elt F)) : after prop2 W (Proc.devRef .tc main_v50) = W (Proc.devRef .tc main_v50) := by
  after_results
  all_goals rfl
set_option maxHeartbeats 4000000 in
theorem inj2_keeps_v50 (W : Valuation τ sig (Elt F)) : after inj2 W (Proc.devRef .tc main_v50) = W (Proc.devRef .tc main_v50) := by
  after_results
  all_goals rfl

variable (m : (ℓ : Loc nD τ sig) → Buf (Elt F) ℓ) (c : Dev nD)

theorem arg0_at7 : at7 m c (Proc.devRef .tc main_arg0) = m ((c.tc : Thread nD τ).loc main_arg0) :=
  (close_keeps_arg0 (at6 m c)).trans ((inj2_keeps_arg0 (at5 m c)).trans ((prop2_keeps_arg0 (at4 m c)).trans ((inj1_keeps_arg0 (at3 m c)).trans
    ((prop1_keeps_arg0 (at2 m c)).trans ((inj0_keeps_arg0 (at1 m c)).trans ((prop0_keeps_arg0 (at0 m c)).trans rfl))))))
theorem arg0_at2 : at2 m c (Proc.devRef .tc main_arg0) = m ((c.tc : Thread nD τ).loc main_arg0) :=
  (inj0_keeps_arg0 (at1 m c)).trans ((prop0_keeps_arg0 (at0 m c)).trans rfl)
theorem arg0_at4 : at4 m c (Proc.devRef .tc main_arg0) = m ((c.tc : Thread nD τ).loc main_arg0) :=
  (inj1_keeps_arg0 (at3 m c)).trans ((prop1_keeps_arg0 (at2 m c)).trans (arg0_at2 m c))

theorem arg1_at7 : at7 m c (Proc.devRef .tc main_arg1) = m ((c.tc : Thread nD τ).loc main_arg1) :=
  (close_keeps_arg1 (at6 m c)).trans ((inj2_keeps_arg1 (at5 m c)).trans ((prop2_keeps_arg1 (at4 m c)).trans ((inj1_keeps_arg1 (at3 m c)).trans
    ((prop1_keeps_arg1 (at2 m c)).trans ((inj0_keeps_arg1 (at1 m c)).trans ((prop0_keeps_arg1 (at0 m c)).trans rfl))))))
theorem arg1_at2 : at2 m c (Proc.devRef .tc main_arg1) = m ((c.tc : Thread nD τ).loc main_arg1) :=
  (inj0_keeps_arg1 (at1 m c)).trans ((prop0_keeps_arg1 (at0 m c)).trans rfl)
theorem arg1_at4 : at4 m c (Proc.devRef .tc main_arg1) = m ((c.tc : Thread nD τ).loc main_arg1) :=
  (inj1_keeps_arg1 (at3 m c)).trans ((prop1_keeps_arg1 (at2 m c)).trans (arg1_at2 m c))

theorem arg2_at7 : at7 m c (Proc.devRef .tc main_arg2) = m ((c.tc : Thread nD τ).loc main_arg2) :=
  (close_keeps_arg2 (at6 m c)).trans ((inj2_keeps_arg2 (at5 m c)).trans ((prop2_keeps_arg2 (at4 m c)).trans ((inj1_keeps_arg2 (at3 m c)).trans
    ((prop1_keeps_arg2 (at2 m c)).trans ((inj0_keeps_arg2 (at1 m c)).trans ((prop0_keeps_arg2 (at0 m c)).trans rfl))))))
theorem arg2_at2 : at2 m c (Proc.devRef .tc main_arg2) = m ((c.tc : Thread nD τ).loc main_arg2) :=
  (inj0_keeps_arg2 (at1 m c)).trans ((prop0_keeps_arg2 (at0 m c)).trans rfl)
theorem arg2_at4 : at4 m c (Proc.devRef .tc main_arg2) = m ((c.tc : Thread nD τ).loc main_arg2) :=
  (inj1_keeps_arg2 (at3 m c)).trans ((prop1_keeps_arg2 (at2 m c)).trans (arg2_at2 m c))

theorem arg3_at7 : at7 m c (Proc.devRef .tc main_arg3) = m ((c.tc : Thread nD τ).loc main_arg3) :=
  (close_keeps_arg3 (at6 m c)).trans ((inj2_keeps_arg3 (at5 m c)).trans ((prop2_keeps_arg3 (at4 m c)).trans ((inj1_keeps_arg3 (at3 m c)).trans
    ((prop1_keeps_arg3 (at2 m c)).trans ((inj0_keeps_arg3 (at1 m c)).trans ((prop0_keeps_arg3 (at0 m c)).trans rfl))))))
theorem arg3_at2 : at2 m c (Proc.devRef .tc main_arg3) = m ((c.tc : Thread nD τ).loc main_arg3) :=
  (inj0_keeps_arg3 (at1 m c)).trans ((prop0_keeps_arg3 (at0 m c)).trans rfl)
theorem arg3_at4 : at4 m c (Proc.devRef .tc main_arg3) = m ((c.tc : Thread nD τ).loc main_arg3) :=
  (inj1_keeps_arg3 (at3 m c)).trans ((prop1_keeps_arg3 (at2 m c)).trans (arg3_at2 m c))

theorem arg4_at7 : at7 m c (Proc.devRef .tc main_arg4) = m ((c.tc : Thread nD τ).loc main_arg4) :=
  (close_keeps_arg4 (at6 m c)).trans ((inj2_keeps_arg4 (at5 m c)).trans ((prop2_keeps_arg4 (at4 m c)).trans ((inj1_keeps_arg4 (at3 m c)).trans
    ((prop1_keeps_arg4 (at2 m c)).trans ((inj0_keeps_arg4 (at1 m c)).trans ((prop0_keeps_arg4 (at0 m c)).trans rfl))))))
theorem arg4_at2 : at2 m c (Proc.devRef .tc main_arg4) = m ((c.tc : Thread nD τ).loc main_arg4) :=
  (inj0_keeps_arg4 (at1 m c)).trans ((prop0_keeps_arg4 (at0 m c)).trans rfl)
theorem arg4_at4 : at4 m c (Proc.devRef .tc main_arg4) = m ((c.tc : Thread nD τ).loc main_arg4) :=
  (inj1_keeps_arg4 (at3 m c)).trans ((prop1_keeps_arg4 (at2 m c)).trans (arg4_at2 m c))

theorem arg5_at7 : at7 m c (Proc.devRef .tc main_arg5) = m ((c.tc : Thread nD τ).loc main_arg5) :=
  (close_keeps_arg5 (at6 m c)).trans ((inj2_keeps_arg5 (at5 m c)).trans ((prop2_keeps_arg5 (at4 m c)).trans ((inj1_keeps_arg5 (at3 m c)).trans
    ((prop1_keeps_arg5 (at2 m c)).trans ((inj0_keeps_arg5 (at1 m c)).trans ((prop0_keeps_arg5 (at0 m c)).trans rfl))))))
theorem arg5_at2 : at2 m c (Proc.devRef .tc main_arg5) = m ((c.tc : Thread nD τ).loc main_arg5) :=
  (inj0_keeps_arg5 (at1 m c)).trans ((prop0_keeps_arg5 (at0 m c)).trans rfl)
theorem arg5_at4 : at4 m c (Proc.devRef .tc main_arg5) = m ((c.tc : Thread nD τ).loc main_arg5) :=
  (inj1_keeps_arg5 (at3 m c)).trans ((prop1_keeps_arg5 (at2 m c)).trans (arg5_at2 m c))

/-- The first layer at the later boundaries, and the second. -/
theorem v25_at4 : at4 m c (Proc.devRef .tc main_v25) = at2 m c (Proc.devRef .tc main_v25) :=
  (inj1_keeps_v25 (at3 m c)).trans (prop1_keeps_v25 (at2 m c))
theorem v25_at6 : at6 m c (Proc.devRef .tc main_v25) = at2 m c (Proc.devRef .tc main_v25) :=
  (inj2_keeps_v25 (at5 m c)).trans ((prop2_keeps_v25 (at4 m c)).trans (v25_at4 m c))
theorem v50_at6 : at6 m c (Proc.devRef .tc main_v50) = at4 m c (Proc.devRef .tc main_v50) :=
  (inj2_keeps_v50 (at5 m c)).trans (prop2_keeps_v50 (at4 m c))

/-- The reference's frame: every execution terminates with the six arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c main_arg0).trans (arg0_at7 m c), (h c main_arg1).trans (arg1_at7 m c),
    (h c main_arg2).trans (arg2_at7 m c), (h c main_arg3).trans (arg3_at7 m c), (h c main_arg4).trans (arg4_at7 m c),
    (h c main_arg5).trans (arg5_at7 m c)⟩) (run m ρ)

end Cert.ReferenceIdeal.Stretch

end
-- ==== Proof.KernelCall0.lean ====
/-
  Call 0 of the noise-injection kernel, seen from the buffers as the call finds them.

  The call walks 15 row tiles of 10000 rows. At a tile it is handed the matching tile of the propagated embedding
  (window 0) and of the noise slab (window 1), and it overwrites the matching tile of the result (window 2) with one
  whole-tile store. Here: what a window's tile is as a function of the entry contents `V`; that the one store covers
  the output tile, so the tile afterwards is a function of the two input tiles alone; the body's triple; and the
  pipeline's proof data with its body obligation at every tile.
-/
import proofs.«147810_j21371757264955_1_alg».proof.Proof.Gen.Kernel.Launch
import proofs.«147810_j21371757264955_1_alg».proof.Proof.Gen.Kernel.Skeleton
import proofs.«147810_j21371757264955_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Call0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- Window `w`'s tile at grid point `t`: rows `10000 t … 10000 t + 9999` of its array as the call finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its tile when the body runs, whether that tile was fetched at this point
    or is still there from an earlier one: the embedding's window. -/
theorem staged0_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The same for the noise slab's window. -/
theorem staged1_of {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- The whole 10000 × 64 staging buffer as one rectangle: what every load and the store of the body address. -/
abbrev whole : Rect S10000x64 := Rect.unit (s := S10000x64) ![0, 0] S10000x64.size inb_S10000x64_S10000x64_0_0

/-- The output tile after the body, as a function of the two input tiles: the one store's value laid over the buffer. -/
def written (x0 x1 : Vec F S10000x64 .f32) : Vec F S10000x64 .f32 :=
  View.canon [⟨whole, k0_pay1 (View.ld x0 whole) (View.ld x1 whole)⟩]

/-- That store reaches every element of the tile. -/
theorem written_covers (p0 : Vec F S10000x64 .f32) (y : S10000x64.Idx) :
    ∃ pc ∈ ([⟨whole, p0⟩] : List (View.Piece (Elt F) S10000x64 .f32)), y ∈ pc.1.set :=
  View.cover_of_tiled [⟨whole, p0⟩] S10000x64.size (by rfl) y

set_option maxHeartbeats 1000000 in
/-- The body on three whole staging buffers — the inputs' holding `x0`, `x1`, the output's anything — reaches its
    continuation with the inputs untouched and the output at `written x0 x1`. -/
theorem body_triple (c : Dev nD) (E : Set ℕ) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole)
    (x0 : Vec F S10000x64 .f32) (x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (written x0 x1)) -∗ K ⟨⟩))
      ⊢ wp frame (wpE (defs₀ (F := F)) Variants.none c none) E (cc0__noise_inject_kernel i arg1 harg1 arg2 harg2 arg3 harg3) K := by
  simp only [cc0__noise_inject_kernel_eq_skeleton]; unfold cc0__noise_inject_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (written_covers _)

/-- The pipeline's proof data on core `c`: the arrays as found; after the body at point `t` the two inputs' buffers
    still at their tiles and the output's at `written` of them; the invariant carries only what the body never
    touches; nothing is owed; full shares. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => written (tile V c 0 t) (tile V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem dat_after0 (c : Dev nD) (t : Fin cfg0.N) : (dat V c).after 0 t = tile V c 0 t := by dsimp only [dat]
theorem dat_after1 (c : Dev nD) (t : Fin cfg0.N) : (dat V c).after 1 t = tile V c 1 t := by dsimp only [dat]
theorem dat_after2 (c : Dev nD) (t : Fin cfg0.N) : (dat V c).after 2 t = written (tile V c 0 t) (tile V c 1 t) := by dsimp only [dat]

theorem dat_before0 (c : Dev nD) (t : Fin cfg0.N) (d) : (dat V c).before 0 t d = tile V c 0 t :=
  staged0_of V (dat V c) (dat_A V c 0) (dat_after0 V c) t d
theorem dat_before1 (c : Dev nD) (t : Fin cfg0.N) (d) : (dat V c).before 1 t d = tile V c 1 t :=
  staged1_of V (dat V c) (dat_A V c 1) (dat_after1 V c) t d

/-- What the body is called with at point `t`, window by window, -/
def atEntry (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it hands back. -/
def atExit (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their tiles, so the triple applies; the invariant and the
    core's dues pass through unread. -/
theorem body_at (c : Dev nD) (t : Fin cfg0.N) :
    atEntry V c t ⊢ wp frame (wpE (defs₀ (F := F)) Variants.none c none) Set.univ (bodyAt0 t) (fun _ => atExit V c t) := by
  unfold atEntry atExit bodyAt0
  simp only [dat_before0, dat_before1]
  rw [show (dat V c).Φ t.succ = (dat V c).Φ t.castSucc from rfl,
    show (dat V c).owesAt () t.succ = (dat V c).owesAt () t.castSucc from rfl,
    dat_after0, dat_after1, dat_after2]
  iintro ⟨HΦ, Ho, ⟨%d0, H0⟩, ⟨%d1, H1⟩, ⟨%d2, H2⟩⟩
  iapply (body_triple c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W0, bigSep_W0]
  exact body_at V c t

end Cert.Kernel.Call0

end
-- ==== Proof.KernelCall1.lean ====
/-
  Call 1 of the noise-injection kernel, seen from the buffers as the call finds them.

  The call walks 15 row tiles of 10000 rows. At a tile it is handed the matching tile of the propagated embedding
  (window 0) and of the noise slab (window 1), and it overwrites the matching tile of the result (window 2) with one
  whole-tile store. Here: what a window's tile is as a function of the entry contents `V`; that the one store covers
  the output tile, so the tile afterwards is a function of the two input tiles alone; the body's triple; and the
  pipeline's proof data with its body obligation at every tile.
-/
import proofs.«147810_j21371757264955_1_alg».proof.Proof.Gen.Kernel.Launch
import proofs.«147810_j21371757264955_1_alg».proof.Proof.Gen.Kernel.Skeleton
import proofs.«147810_j21371757264955_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Call1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- Window `w`'s tile at grid point `t`: rows `10000 t … 10000 t + 9999` of its array as the call finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its tile when the body runs, whether that tile was fetched at this point
    or is still there from an earlier one: the embedding's window. -/
theorem staged0_of {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The same for the noise slab's window. -/
theorem staged1_of {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- The whole 10000 × 64 staging buffer as one rectangle: what every load and the store of the body address. -/
abbrev whole : Rect S10000x64 := Rect.unit (s := S10000x64) ![0, 0] S10000x64.size inb_S10000x64_S10000x64_0_0

/-- The output tile after the body, as a function of the two input tiles: the one store's value laid over the buffer. -/
def written (x0 x1 : Vec F S10000x64 .f32) : Vec F S10000x64 .f32 :=
  View.canon [⟨whole, k1_pay1 (View.ld x0 whole) (View.ld x1 whole)⟩]

/-- That store reaches every element of the tile. -/
theorem written_covers (p0 : Vec F S10000x64 .f32) (y : S10000x64.Idx) :
    ∃ pc ∈ ([⟨whole, p0⟩] : List (View.Piece (Elt F) S10000x64 .f32)), y ∈ pc.1.set :=
  View.cover_of_tiled [⟨whole, p0⟩] S10000x64.size (by rfl) y

set_option maxHeartbeats 1000000 in
/-- The body on three whole staging buffers — the inputs' holding `x0`, `x1`, the output's anything — reaches its
    continuation with the inputs untouched and the output at `written x0 x1`. -/
theorem body_triple (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole)
    (x0 : Vec F S10000x64 .f32) (x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (written x0 x1)) -∗ K ⟨⟩))
      ⊢ wp frame (wpE (defs₀ (F := F)) Variants.none c none) E (cc1__noise_inject_kernel i arg1 harg1 arg2 harg2 arg3 harg3) K := by
  simp only [cc1__noise_inject_kernel_eq_skeleton]; unfold cc1__noise_inject_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (written_covers _)

/-- The pipeline's proof data on core `c`: the arrays as found; after the body at point `t` the two inputs' buffers
    still at their tiles and the output's at `written` of them; the invariant carries only what the body never
    touches; nothing is owed; full shares. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => written (tile V c 0 t) (tile V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem dat_after0 (c : Dev nD) (t : Fin cfg1.N) : (dat V c).after 0 t = tile V c 0 t := by dsimp only [dat]
theorem dat_after1 (c : Dev nD) (t : Fin cfg1.N) : (dat V c).after 1 t = tile V c 1 t := by dsimp only [dat]
theorem dat_after2 (c : Dev nD) (t : Fin cfg1.N) : (dat V c).after 2 t = written (tile V c 0 t) (tile V c 1 t) := by dsimp only [dat]

theorem dat_before0 (c : Dev nD) (t : Fin cfg1.N) (d) : (dat V c).before 0 t d = tile V c 0 t :=
  staged0_of V (dat V c) (dat_A V c 0) (dat_after0 V c) t d
theorem dat_before1 (c : Dev nD) (t : Fin cfg1.N) (d) : (dat V c).before 1 t d = tile V c 1 t :=
  staged1_of V (dat V c) (dat_A V c 1) (dat_after1 V c) t d

/-- What the body is called with at point `t`, window by window, -/
def atEntry (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it hands back. -/
def atExit (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their tiles, so the triple applies; the invariant and the
    core's dues pass through unread. -/
theorem body_at (c : Dev nD) (t : Fin cfg1.N) :
    atEntry V c t ⊢ wp frame (wpE (defs₀ (F := F)) Variants.none c none) Set.univ (bodyAt1 t) (fun _ => atExit V c t) := by
  unfold atEntry atExit bodyAt1
  simp only [dat_before0, dat_before1]
  rw [show (dat V c).Φ t.succ = (dat V c).Φ t.castSucc from rfl,
    show (dat V c).owesAt () t.succ = (dat V c).owesAt () t.castSucc from rfl,
    dat_after0, dat_after1, dat_after2]
  iintro ⟨HΦ, Ho, ⟨%d0, H0⟩, ⟨%d1, H1⟩, ⟨%d2, H2⟩⟩
  iapply (body_triple c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W1, bigSep_W1]
  exact body_at V c t

end Cert.Kernel.Call1

end
-- ==== Proof.KernelCall2.lean ====
/-
  Call 2 of the noise-injection kernel, seen from the buffers as the call finds them.

  The call walks 15 row tiles of 10000 rows. At a tile it is handed the matching tile of the propagated embedding
  (window 0) and of the noise slab (window 1), and it overwrites the matching tile of the result (window 2) with one
  whole-tile store. Here: what a window's tile is as a function of the entry contents `V`; that the one store covers
  the output tile, so the tile afterwards is a function of the two input tiles alone; the body's triple; and the
  pipeline's proof data with its body obligation at every tile.
-/
import proofs.«147810_j21371757264955_1_alg».proof.Proof.Gen.Kernel.Launch
import proofs.«147810_j21371757264955_1_alg».proof.Proof.Gen.Kernel.Skeleton
import proofs.«147810_j21371757264955_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Call2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- Window `w`'s tile at grid point `t`: rows `10000 t … 10000 t + 9999` of its array as the call finds it. -/
def tile (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its tile when the body runs, whether that tile was fetched at this point
    or is still there from an earlier one: the embedding's window. -/
theorem staged0_of {c : Dev nD} (dat : Dat τ (Elt F) Unit ℕ (UR sig nD τ) ℕ cfg2 c) (hA : dat.A 0 = V c (Pipeline.arrRef spec2 0))
    (hafter : ∀ t, dat.after 0 t = tile V c 0 t) (t : Fin cfg2.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The same for the noise slab's window. -/
theorem staged1_of {c : Dev nD} (dat : Dat τ (Elt F) Unit ℕ (UR sig nD τ) ℕ cfg2 c) (hA : dat.A 1 = V c (Pipeline.arrRef spec2 1))
    (hafter : ∀ t, dat.after 1 t = tile V c 1 t) (t : Fin cfg2.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- The whole 10000 × 64 staging buffer as one rectangle: what every load and the store of the body address. -/
abbrev whole : Rect S10000x64 := Rect.unit (s := S10000x64) ![0, 0] S10000x64.size inb_S10000x64_S10000x64_0_0

/-- The output tile after the body, as a function of the two input tiles: the one store's value laid over the buffer. -/
def written (x0 x1 : Vec F S10000x64 .f32) : Vec F S10000x64 .f32 :=
  View.canon [⟨whole, k2_pay1 (View.ld x0 whole) (View.ld x1 whole)⟩]

/-- That store reaches every element of the tile. -/
theorem written_covers (p0 : Vec F S10000x64 .f32) (y : S10000x64.Idx) :
    ∃ pc ∈ ([⟨whole, p0⟩] : List (View.Piece (Elt F) S10000x64 .f32)), y ∈ pc.1.set :=
  View.cover_of_tiled [⟨whole, p0⟩] S10000x64.size (by rfl) y

set_option maxHeartbeats 1000000 in
/-- The body on three whole staging buffers — the inputs' holding `x0`, `x1`, the output's anything — reaches its
    continuation with the inputs untouched and the output at `written x0 x1`. -/
theorem body_triple (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole)
    (x0 : Vec F S10000x64 .f32) (x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (written x0 x1)) -∗ K ⟨⟩))
      ⊢ wp frame (wpE (defs₀ (F := F)) Variants.none c none) E (cc2__noise_inject_kernel i arg1 harg1 arg2 harg2 arg3 harg3) K := by
  simp only [cc2__noise_inject_kernel_eq_skeleton]; unfold cc2__noise_inject_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (written_covers _)

/-- The pipeline's proof data on core `c`: the arrays as found; after the body at point `t` the two inputs' buffers
    still at their tiles and the output's at `written` of them; the invariant carries only what the body never
    touches; nothing is owed; full shares. -/
def dat (c : Dev nD) : Dat τ (Elt F) Unit ℕ (UR sig nD τ) ℕ cfg2 c where
  A w := V c (Pipeline.arrRef spec2 w)
  after w t := match w with
    | ⟨0, _⟩ => tile V c 0 t
    | ⟨1, _⟩ => tile V c 1 t
    | ⟨2, _⟩ => written (tile V c 0 t) (tile V c 1 t)
  Φ _ := Pipeline.ΦA spec2 c
  q _ := fullShare
  owed _ := 0

theorem dat_A (c : Dev nD) (w : Fin cfg2.W) : (dat V c).A w = V c (Pipeline.arrRef spec2 w) := by
  dsimp only [dat]

theorem dat_after0 (c : Dev nD) (t : Fin cfg2.N) : (dat V c).after 0 t = tile V c 0 t := by dsimp only [dat]
theorem dat_after1 (c : Dev nD) (t : Fin cfg2.N) : (dat V c).after 1 t = tile V c 1 t := by dsimp only [dat]
theorem dat_after2 (c : Dev nD) (t : Fin cfg2.N) : (dat V c).after 2 t = written (tile V c 0 t) (tile V c 1 t) := by dsimp only [dat]

theorem dat_before0 (c : Dev nD) (t : Fin cfg2.N) (d) : (dat V c).before 0 t d = tile V c 0 t :=
  staged0_of V (dat V c) (dat_A V c 0) (dat_after0 V c) t d
theorem dat_before1 (c : Dev nD) (t : Fin cfg2.N) (d) : (dat V c).before 1 t d = tile V c 1 t :=
  staged1_of V (dat V c) (dat_A V c 1) (dat_after1 V c) t d

/-- What the body is called with at point `t`, window by window, -/
def atEntry (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it hands back. -/
def atExit (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' buffers hold their tiles, so the triple applies; the invariant and the
    core's dues pass through unread. -/
theorem body_at (c : Dev nD) (t : Fin cfg2.N) :
    atEntry V c t ⊢ wp frame (wpE (defs₀ (F := F)) Variants.none c none) Set.univ (bodyAt2 t) (fun _ => atExit V c t) := by
  unfold atEntry atExit bodyAt2
  simp only [dat_before0, dat_before1]
  rw [show (dat V c).Φ t.succ = (dat V c).Φ t.castSucc from rfl,
    show (dat V c).owesAt () t.succ = (dat V c).owesAt () t.castSucc from rfl,
    dat_after0, dat_after1, dat_after2]
  iintro ⟨HΦ, Ho, ⟨%d0, H0⟩, ⟨%d1, H1⟩, ⟨%d2, H2⟩⟩
  iapply (body_triple c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W2, bigSep_W2]
  exact body_at V c t

end Cert.Kernel.Call2

end
-- ==== Proof.KernelChain.lean ====
/-
  @main from launch to return, for the frame: what every buffer holds at each boundary between a host stretch and a
  call of the kernel, each call as a segment entered and left at those boundaries, and the conclusion that every
  execution ends with the six argument arrays as launched.

  Boundaries. The first stretch builds the propagated embedding and the first noise slab; call 0 may change only its
  result array; the second stretch reads that result; and so on through three calls and the closing stretch. A call's
  result array afterwards is the fold of its 15 tile write-backs; its two operand arrays are only read.
-/
import proofs.«147810_j21371757264955_1_alg».proof.Proof.Gen.Kernel.Regions
import proofs.«147810_j21371757264955_1_alg».proof.Proof.KernelCall0
import proofs.«147810_j21371757264955_1_alg».proof.Proof.KernelCall1
import proofs.«147810_j21371757264955_1_alg».proof.Proof.KernelCall2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ)

/-! ## What the calls leave -/

/-- The buffers call 0 is entered with, read at the TensorCore's references. -/
abbrev in0 : (c : Dev nD) → (b : Ref sig .tc) → Buf (Elt F) ((c : Thread nD τ).loc b) := fun c b => V1 m c b
/-- The buffers after call 0: its arrays at the fold of their write-backs, everything else untouched. -/
def after0 (c : Dev nD) : Valuation τ sig (Elt F) :=
  Pipeline.withArrays spec0 c (V1 m c) fun w => (Call0.dat (in0 m) c).arrAt w cfg0.N
/-- What the calls leave, as far as call 1 needs it. -/
def tab0 : Outs (F := F) := fun _ r c => after0 m c r

abbrev in1 : (c : Dev nD) → (b : Ref sig .tc) → Buf (Elt F) ((c : Thread nD τ).loc b) := fun c b => V3 m (tab0 m) c b
def after1 (c : Dev nD) : Valuation τ sig (Elt F) :=
  Pipeline.withArrays spec1 c (V3 m (tab0 m) c) fun w => (Call1.dat (in1 m) c).arrAt w cfg1.N
/-- What the calls leave, as far as call 2 needs it. -/
def tab1 : Outs (F := F) := fun J r c => match J with | 2 => after0 m c r | _ => after1 m c r

abbrev in2 : (c : Dev nD) → (b : Ref sig .tc) → Buf (Elt F) ((c : Thread nD τ).loc b) := fun c b => V5 m (tab1 m) c b
def after2 (c : Dev nD) : Valuation τ sig (Elt F) :=
  Pipeline.withArrays spec2 c (V5 m (tab1 m) c) fun w => (Call2.dat (in2 m) c).arrAt w cfg2.N
/-- What the three calls leave in the one array each may change. -/
def tab : Outs (F := F) := fun J r c => match J with | 2 => after0 m c r | 4 => after1 m c r | _ => after2 m c r

/-- The boundary contents do not depend on which of the three tables above they are read through. -/
theorem V2_left (c : Dev nD) : V2 m (tab m) c = V2 m (tab0 m) c := rfl
theorem V3_left (c : Dev nD) : V3 m (tab m) c = V3 m (tab0 m) c := rfl
theorem V4_left (c : Dev nD) : V4 m (tab m) c = V4 m (tab1 m) c := rfl
theorem V5_left (c : Dev nD) : V5 m (tab m) c = V5 m (tab1 m) c := rfl

/-! ## The proof data family -/

/-- Every pipeline's proof data, each at the contents its call is entered with. -/
def pdats : (p : Fin 3) → (c : Dev nD) → Dat τ (Elt F) Unit ℕ (UR sig nD τ) ℕ (Pipeline.pin (pcfgs (F := F)) adm p) c
  | ⟨0, _⟩ => fun c => Call0.dat (in0 m) c
  | ⟨1, _⟩ => fun c => Call1.dat (in1 m) c
  | ⟨2, _⟩ => fun c => Call2.dat (in2 m) c

abbrev 𝒱 : Variants := Variants.none
/-- No core owes another anything. -/
abbrev Lz : GSem nD τ sig → Finset Unit := fun _ => ∅
abbrev lvz : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)

/-! ## Each call's arrays at its exit -/

theorem arr0_2 : Pipeline.arrRef spec0 2 = main_v16 := rfl
theorem arr1_2 : Pipeline.arrRef spec1 2 = main_v32 := rfl
theorem arr2_2 : Pipeline.arrRef spec2 2 = main_v48 := rfl

/-- After call 0 each of its arrays holds the fold of its write-backs — the two operands, never written, their entry
    contents — -/
theorem left0_at (c : Dev nD) (w : Fin cfg0.W) : (Call0.dat (in0 m) c).arrAt w cfg0.N = V2 m (tab m) c (Pipeline.arrRef spec0 w) := by
  match w with
  | ⟨0, _⟩ => exact ((Call0.dat (in0 m) c).arrAt_in 0 rfl _).trans ((Call0.dat_A (in0 m) c 0).trans (V2_of m (tab m) c _ (by decide)).symm)
  | ⟨1, _⟩ => exact ((Call0.dat (in0 m) c).arrAt_in 1 rfl _).trans ((Call0.dat_A (in0 m) c 1).trans (V2_of m (tab m) c _ (by decide)).symm)
  | ⟨2, _⟩ =>
    have e := Pipeline.withArrays_arr spec0 launch0.win.arr_inj c (V1 m c) (fun w => (Call0.dat (in0 m) c).arrAt w cfg0.N) 2
    show _ = Function.update (V1 m c) (Proc.devRef .tc main_v16) (after0 m c main_v16) (Proc.devRef .tc main_v16)
    rw [Function.update_self]
    exact e.symm
/-- and every other buffer what it held on entry. -/
theorem kept0_at (c : Dev nD) : ∀ b, b ∉ Finset.univ.image (Pipeline.arrRef spec0) → V2 m (tab m) c b = in0 m c b :=
  fun b hb => V2_of m (tab m) c b (by
    intro h; rw [List.mem_singleton] at h
    exact hb (Finset.mem_image.mpr ⟨2, Finset.mem_univ _, (arr0_2).trans h.symm⟩))

theorem left1_at (c : Dev nD) (w : Fin cfg1.W) : (Call1.dat (in1 m) c).arrAt w cfg1.N = V4 m (tab m) c (Pipeline.arrRef spec1 w) := by
  match w with
  | ⟨0, _⟩ => exact ((Call1.dat (in1 m) c).arrAt_in 0 rfl _).trans ((Call1.dat_A (in1 m) c 0).trans (V4_of m (tab m) c _ (by decide)).symm)
  | ⟨1, _⟩ => exact ((Call1.dat (in1 m) c).arrAt_in 1 rfl _).trans ((Call1.dat_A (in1 m) c 1).trans (V4_of m (tab m) c _ (by decide)).symm)
  | ⟨2, _⟩ =>
    have e := Pipeline.withArrays_arr spec1 launch1.win.arr_inj c (V3 m (tab0 m) c) (fun w => (Call1.dat (in1 m) c).arrAt w cfg1.N) 2
    show _ = Function.update (V3 m (tab m) c) (Proc.devRef .tc main_v32) (after1 m c main_v32) (Proc.devRef .tc main_v32)
    rw [Function.update_self]
    exact e.symm
theorem kept1_at (c : Dev nD) : ∀ b, b ∉ Finset.univ.image (Pipeline.arrRef spec1) → V4 m (tab m) c b = in1 m c b :=
  fun b hb => V4_of m (tab m) c b (by
    intro h; rw [List.mem_singleton] at h
    exact hb (Finset.mem_image.mpr ⟨2, Finset.mem_univ _, (arr1_2).trans h.symm⟩))

theorem left2_at (c : Dev nD) (w : Fin cfg2.W) : (Call2.dat (in2 m) c).arrAt w cfg2.N = V6 m (tab m) c (Pipeline.arrRef spec2 w) := by
  match w with
  | ⟨0, _⟩ => exact ((Call2.dat (in2 m) c).arrAt_in 0 rfl _).trans ((Call2.dat_A (in2 m) c 0).trans (V6_of m (tab m) c _ (by decide)).symm)
  | ⟨1, _⟩ => exact ((Call2.dat (in2 m) c).arrAt_in 1 rfl _).trans ((Call2.dat_A (in2 m) c 1).trans (V6_of m (tab m) c _ (by decide)).symm)
  | ⟨2, _⟩ =>
    have e := Pipeline.withArrays_arr spec2 launch2.win.arr_inj c (V5 m (tab1 m) c) (fun w => (Call2.dat (in2 m) c).arrAt w cfg2.N) 2
    show _ = Function.update (V5 m (tab m) c) (Proc.devRef .tc main_v48) (after2 m c main_v48) (Proc.devRef .tc main_v48)
    rw [Function.update_self]
    exact e.symm
theorem kept2_at (c : Dev nD) : ∀ b, b ∉ Finset.univ.image (Pipeline.arrRef spec2) → V6 m (tab m) c b = in2 m c b :=
  fun b hb => V6_of m (tab m) c b (by
    intro h; rw [List.mem_singleton] at h
    exact hb (Finset.mem_image.mpr ⟨2, Finset.mem_univ _, (arr2_2).trans h.symm⟩))

/-! ## The calls as segments -/

-- a library lemma stated over the pinned configuration unifies with the printed one only when unification may unfold
-- plain definitions in a metavariable's type
set_option backward.isDefEq.respectTransparency.types false in
/-- Call 0 as a segment of @main: entered with every unscoped buffer at `V1 m`, left with them at `V2 m (tab m)`.
    Its three arrays are split out of the unscoped buffers on entry and put back at their final contents on exit; the
    generator register rides through the invariant; nothing is owed; the kernel has no semaphore of its own. -/
def reg0 : Pipeline.RegionSeg (pcfgs (F := F)) adm (pdats m) () defs₀ 𝒱 Lz lvz 0 where
  win := launch0.win.to₀
  block_pos := launch0.block_pos
  stage_whole := launch0.stage_whole
  K := PEmpty
  osem k := k.elim
  ho := Pipeline.OwnSemFacts.none _
  hbody c := (Call0.body_obligation (in0 m) c).loose
  hwaits := Pipeline.hwaits_of_owed_zero _ _ _ _ Lz lvz 0 fun _ _ => rfl
  pre c := iprop(StableHlo.held (c : Thread nD τ) (Pipeline.ucRefs τ sig) (V1 m c) ∗ Rest c)
  post c := iprop(StableHlo.held (c : Thread nD τ) (Pipeline.ucRefs τ sig) (V2 m (tab m) c) ∗ Rest c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in0 m c) fun _ => rfl
    rw [Pipeline.unscopedBufs_held] at hsplit
    replace hsplit : (StableHlo.held (c : Thread nD τ) (Pipeline.ucRefs τ sig) (V1 m c) : sProp 𝕄) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in0 m c) (fun b => V2 m (tab m) c b) ((pdats m 0 c).arrAt · cfg0.N) (left0_at m c) (kept0_at m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 as a segment of @main: entered with every unscoped buffer at `V3 m (tab m)`, left with them at `V4 m (tab m)`.
    Its three arrays are split out of the unscoped buffers on entry and put back at their final contents on exit; the
    generator register rides through the invariant; nothing is owed; the kernel has no semaphore of its own. -/
def reg1 : Pipeline.RegionSeg (pcfgs (F := F)) adm (pdats m) () defs₀ 𝒱 Lz lvz 1 where
  win := launch1.win.to₀
  block_pos := launch1.block_pos
  stage_whole := launch1.stage_whole
  K := PEmpty
  osem k := k.elim
  ho := Pipeline.OwnSemFacts.none _
  hbody c := (Call1.body_obligation (in1 m) c).loose
  hwaits := Pipeline.hwaits_of_owed_zero _ _ _ _ Lz lvz 1 fun _ _ => rfl
  pre c := iprop(StableHlo.held (c : Thread nD τ) (Pipeline.ucRefs τ sig) (V3 m (tab m) c) ∗ Rest c)
  post c := iprop(StableHlo.held (c : Thread nD τ) (Pipeline.ucRefs τ sig) (V4 m (tab m) c) ∗ Rest c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) fun _ => rfl
    rw [Pipeline.unscopedBufs_held] at hsplit
    replace hsplit : (StableHlo.held (c : Thread nD τ) (Pipeline.ucRefs τ sig) (V3 m (tab m) c) : sProp 𝕄) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (fun b => V4 m (tab m) c b) ((pdats m 1 c).arrAt · cfg1.N) (left1_at m c) (kept1_at m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 2 as a segment of @main: entered with every unscoped buffer at `V5 m (tab m)`, left with them at `V6 m (tab m)`.
    Its three arrays are split out of the unscoped buffers on entry and put back at their final contents on exit; the
    generator register rides through the invariant; nothing is owed; the kernel has no semaphore of its own. -/
def reg2 : Pipeline.RegionSeg (pcfgs (F := F)) adm (pdats m) () defs₀ 𝒱 Lz lvz 2 where
  win := launch2.win.to₀
  block_pos := launch2.block_pos
  stage_whole := launch2.stage_whole
  K := PEmpty
  osem k := k.elim
  ho := Pipeline.OwnSemFacts.none _
  hbody c := (Call2.body_obligation (in2 m) c).loose
  hwaits := Pipeline.hwaits_of_owed_zero _ _ _ _ Lz lvz 2 fun _ _ => rfl
  pre c := iprop(StableHlo.held (c : Thread nD τ) (Pipeline.ucRefs τ sig) (V5 m (tab m) c) ∗ Rest c)
  post c := iprop(StableHlo.held (c : Thread nD τ) (Pipeline.ucRefs τ sig) (V6 m (tab m) c) ∗ Rest c)
  X c := iprop(∃ r, prngReg c r)
  Y c := iprop(∃ r, prngReg c r)
  Z c := Pipeline.unscopedRest (Ix := Unit) (Name := ℕ) (U := UR sig nD τ) (Lvl := ℕ) spec2 c (in2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (in2 m c) fun _ => rfl
    rw [Pipeline.unscopedBufs_held] at hsplit
    replace hsplit : (StableHlo.held (c : Thread nD τ) (Pipeline.ucRefs τ sig) (V5 m (tab m) c) : sProp 𝕄) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (in2 m c) (fun b => V6 m (tab m) c b) ((pdats m 2 c).arrAt · cfg2.N) (left2_at m c) (kept2_at m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

-- the launch theorem's implicit arguments are found by unifying its conclusion with this one
set_option backward.isDefEq.respectTransparency.types false in
/-- Every weakly fair execution of @main from `m` with zero counters terminates, faults nowhere, and ends with each of
    the six argument arrays as launched: the host side is the generated conditional frame; the three calls are the
    segments above; beside the buffers only the generator register and an empty bill travel. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () 𝒱 Lz lvz (fun _ _ => rfl) ρ (tab m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rest c)
    (by
      refine Pipeline.initEach Lz lvz fun c => ?_
      iintro ⟨⟨-, HO, -, Hp, -⟩, -⟩
      imodintro
      isplitl [Hp]; · iexists _; iexact Hp
      iexists ∅; iexact HO)
    (fun c => by iintro ⟨-, H⟩; iexact H)
    (reg0 m) (fun c => .rfl) (fun c => .rfl)
    (reg1 m) (fun c => .rfl) (fun c => .rfl)
    (reg2 m) (fun c => .rfl) (fun c => .rfl)

end Cert.Kernel.Chain

end
-- ==== Proof.KernelIdealCall0.lean ====
/-
  Call 0 of the noise-injection kernel, seen from the buffers as the call finds them.

  The call walks 15 row tiles of 10000 rows. At a tile it is handed the matching tile of the propagated embedding
  (window 0) and of the noise slab (window 1), and it overwrites the matching tile of the result (window 2) with one
  whole-tile store. Here: what a window's tile is as a function of the entry contents `V`; that the one store covers
  the output tile, so the tile afterwards is a function of the two input tiles alone; the body's triple; and the
  pipeline's proof data with its body obligation at every tile.
-/
import proofs.«147810_j21371757264955_1_alg».proof.Proof.Gen.KernelIdeal.Launch
import proofs.«147810_j21371757264955_1_alg».proof.Proof.Gen.KernelIdeal.Skeleton
import proofs.«147810_j21371757264955_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Call0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- Window `w`'s tile at grid point `t`: rows `10000 t … 10000 t + 9999` of its array as the call finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its tile when the body runs, whether that tile was fetched at this point
    or is still there from an earlier one: the embedding's window. -/
theorem staged0_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The same for the noise slab's window. -/
theorem staged1_of {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- The whole 10000 × 64 staging buffer as one rectangle: what every load and the store of the body address. -/
abbrev whole : Rect S10000x64 := Rect.unit (s := S10000x64) ![0, 0] S10000x64.size inb_S10000x64_S10000x64_0_0

/-- The output tile after the body, as a function of the two input tiles: the one store's value laid over the buffer. -/
def written (x0 x1 : Vec F S10000x64 .f32) : Vec F S10000x64 .f32 :=
  View.canon [⟨whole, k0_pay1 (View.ld x0 whole) (View.ld x1 whole)⟩]

/-- That store reaches every element of the tile. -/
theorem written_covers (p0 : Vec F S10000x64 .f32) (y : S10000x64.Idx) :
    ∃ pc ∈ ([⟨whole, p0⟩] : List (View.Piece (Elt F) S10000x64 .f32)), y ∈ pc.1.set :=
  View.cover_of_tiled [⟨whole, p0⟩] S10000x64.size (by rfl) y

set_option maxHeartbeats 1000000 in
/-- The body on three whole staging buffers — the inputs' holding `x0`, `x1`, the output's anything — reaches its
    continuation with the inputs untouched and the output at `written x0 x1`. -/
theorem body_triple (c : Dev nD) (E : Set ℕ) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole)
    (x0 : Vec F S10000x64 .f32) (x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (written x0 x1)) -∗ K ⟨⟩))
      ⊢ wp frame (wpE (defs₀ (F := F)) Variants.none c none) E (cc0__noise_inject_kernel i arg1 harg1 arg2 harg2 arg3 harg3) K := by
  simp only [cc0__noise_inject_kernel_eq_skeleton]; unfold cc0__noise_inject_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (written_covers _)

/-- The pipeline's proof data on core `c`: the arrays as found; after the body at point `t` the two inputs' buffers
    still at their tiles and the output's at `written` of them; the invariant carries only what the body never
    touches; nothing is owed; full shares. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => written (tile V c 0 t) (tile V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem dat_after0 (c : Dev nD) (t : Fin cfg0.N) : (dat V c).after 0 t = tile V c 0 t := by dsimp only [dat]
theorem dat_after1 (c : Dev nD) (t : Fin cfg0.N) : (dat V c).after 1 t = tile V c 1 t := by dsimp only [dat]
theorem dat_after2 (c : Dev nD) (t : Fin cfg0.N) : (dat V c).after 2 t = written (tile V c 0 t) (tile V c 1 t) := by dsimp only [dat]

theorem dat_before0 (c : Dev nD) (t : Fin cfg0.N) (d) : (dat V c).before 0 t d = tile V c 0 t :=
  staged0_of V (dat V c) (dat_A V c 0) (dat_after0 V c) t d
theorem dat_before1 (c : Dev nD) (t : Fin cfg0.N) (d) : (dat V c).before 1 t d = tile V c 1 t :=
  staged1_of V (dat V c) (dat_A V c 1) (dat_after1 V c) t d

/-- What the body is called with at point `t`, window by window, -/
def atEntry (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it hands back. -/
def atExit (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their tiles, so the triple applies; the invariant and the
    core's dues pass through unread. -/
theorem body_at (c : Dev nD) (t : Fin cfg0.N) :
    atEntry V c t ⊢ wp frame (wpE (defs₀ (F := F)) Variants.none c none) Set.univ (bodyAt0 t) (fun _ => atExit V c t) := by
  unfold atEntry atExit bodyAt0
  simp only [dat_before0, dat_before1]
  rw [show (dat V c).Φ t.succ = (dat V c).Φ t.castSucc from rfl,
    show (dat V c).owesAt () t.succ = (dat V c).owesAt () t.castSucc from rfl,
    dat_after0, dat_after1, dat_after2]
  iintro ⟨HΦ, Ho, ⟨%d0, H0⟩, ⟨%d1, H1⟩, ⟨%d2, H2⟩⟩
  iapply (body_triple c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W0, bigSep_W0]
  exact body_at V c t

end Cert.KernelIdeal.Call0

end
-- ==== Proof.KernelIdealCall1.lean ====
/-
  Call 1 of the noise-injection kernel, seen from the buffers as the call finds them.

  The call walks 15 row tiles of 10000 rows. At a tile it is handed the matching tile of the propagated embedding
  (window 0) and of the noise slab (window 1), and it overwrites the matching tile of the result (window 2) with one
  whole-tile store. Here: what a window's tile is as a function of the entry contents `V`; that the one store covers
  the output tile, so the tile afterwards is a function of the two input tiles alone; the body's triple; and the
  pipeline's proof data with its body obligation at every tile.
-/
import proofs.«147810_j21371757264955_1_alg».proof.Proof.Gen.KernelIdeal.Launch
import proofs.«147810_j21371757264955_1_alg».proof.Proof.Gen.KernelIdeal.Skeleton
import proofs.«147810_j21371757264955_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Call1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- Window `w`'s tile at grid point `t`: rows `10000 t … 10000 t + 9999` of its array as the call finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its tile when the body runs, whether that tile was fetched at this point
    or is still there from an earlier one: the embedding's window. -/
theorem staged0_of {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The same for the noise slab's window. -/
theorem staged1_of {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- The whole 10000 × 64 staging buffer as one rectangle: what every load and the store of the body address. -/
abbrev whole : Rect S10000x64 := Rect.unit (s := S10000x64) ![0, 0] S10000x64.size inb_S10000x64_S10000x64_0_0

/-- The output tile after the body, as a function of the two input tiles: the one store's value laid over the buffer. -/
def written (x0 x1 : Vec F S10000x64 .f32) : Vec F S10000x64 .f32 :=
  View.canon [⟨whole, k1_pay1 (View.ld x0 whole) (View.ld x1 whole)⟩]

/-- That store reaches every element of the tile. -/
theorem written_covers (p0 : Vec F S10000x64 .f32) (y : S10000x64.Idx) :
    ∃ pc ∈ ([⟨whole, p0⟩] : List (View.Piece (Elt F) S10000x64 .f32)), y ∈ pc.1.set :=
  View.cover_of_tiled [⟨whole, p0⟩] S10000x64.size (by rfl) y

set_option maxHeartbeats 1000000 in
/-- The body on three whole staging buffers — the inputs' holding `x0`, `x1`, the output's anything — reaches its
    continuation with the inputs untouched and the output at `written x0 x1`. -/
theorem body_triple (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole)
    (x0 : Vec F S10000x64 .f32) (x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (written x0 x1)) -∗ K ⟨⟩))
      ⊢ wp frame (wpE (defs₀ (F := F)) Variants.none c none) E (cc1__noise_inject_kernel i arg1 harg1 arg2 harg2 arg3 harg3) K := by
  simp only [cc1__noise_inject_kernel_eq_skeleton]; unfold cc1__noise_inject_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (written_covers _)

/-- The pipeline's proof data on core `c`: the arrays as found; after the body at point `t` the two inputs' buffers
    still at their tiles and the output's at `written` of them; the invariant carries only what the body never
    touches; nothing is owed; full shares. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => written (tile V c 0 t) (tile V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem dat_after0 (c : Dev nD) (t : Fin cfg1.N) : (dat V c).after 0 t = tile V c 0 t := by dsimp only [dat]
theorem dat_after1 (c : Dev nD) (t : Fin cfg1.N) : (dat V c).after 1 t = tile V c 1 t := by dsimp only [dat]
theorem dat_after2 (c : Dev nD) (t : Fin cfg1.N) : (dat V c).after 2 t = written (tile V c 0 t) (tile V c 1 t) := by dsimp only [dat]

theorem dat_before0 (c : Dev nD) (t : Fin cfg1.N) (d) : (dat V c).before 0 t d = tile V c 0 t :=
  staged0_of V (dat V c) (dat_A V c 0) (dat_after0 V c) t d
theorem dat_before1 (c : Dev nD) (t : Fin cfg1.N) (d) : (dat V c).before 1 t d = tile V c 1 t :=
  staged1_of V (dat V c) (dat_A V c 1) (dat_after1 V c) t d

/-- What the body is called with at point `t`, window by window, -/
def atEntry (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it hands back. -/
def atExit (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their tiles, so the triple applies; the invariant and the
    core's dues pass through unread. -/
theorem body_at (c : Dev nD) (t : Fin cfg1.N) :
    atEntry V c t ⊢ wp frame (wpE (defs₀ (F := F)) Variants.none c none) Set.univ (bodyAt1 t) (fun _ => atExit V c t) := by
  unfold atEntry atExit bodyAt1
  simp only [dat_before0, dat_before1]
  rw [show (dat V c).Φ t.succ = (dat V c).Φ t.castSucc from rfl,
    show (dat V c).owesAt () t.succ = (dat V c).owesAt () t.castSucc from rfl,
    dat_after0, dat_after1, dat_after2]
  iintro ⟨HΦ, Ho, ⟨%d0, H0⟩, ⟨%d1, H1⟩, ⟨%d2, H2⟩⟩
  iapply (body_triple c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W1, bigSep_W1]
  exact body_at V c t

end Cert.KernelIdeal.Call1

end
-- ==== Proof.KernelIdealCall2.lean ====
/-
  Call 2 of the noise-injection kernel, seen from the buffers as the call finds them.

  The call walks 15 row tiles of 10000 rows. At a tile it is handed the matching tile of the propagated embedding
  (window 0) and of the noise slab (window 1), and it overwrites the matching tile of the result (window 2) with one
  whole-tile store. Here: what a window's tile is as a function of the entry contents `V`; that the one store covers
  the output tile, so the tile afterwards is a function of the two input tiles alone; the body's triple; and the
  pipeline's proof data with its body obligation at every tile.
-/
import proofs.«147810_j21371757264955_1_alg».proof.Proof.Gen.KernelIdeal.Launch
import proofs.«147810_j21371757264955_1_alg».proof.Proof.Gen.KernelIdeal.Skeleton
import proofs.«147810_j21371757264955_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Call2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- Window `w`'s tile at grid point `t`: rows `10000 t … 10000 t + 9999` of its array as the call finds it. -/
def tile (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its tile when the body runs, whether that tile was fetched at this point
    or is still there from an earlier one: the embedding's window. -/
theorem staged0_of {c : Dev nD} (dat : Dat τ (Elt F) Unit ℕ (UR sig nD τ) ℕ cfg2 c) (hA : dat.A 0 = V c (Pipeline.arrRef spec2 0))
    (hafter : ∀ t, dat.after 0 t = tile V c 0 t) (t : Fin cfg2.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The same for the noise slab's window. -/
theorem staged1_of {c : Dev nD} (dat : Dat τ (Elt F) Unit ℕ (UR sig nD τ) ℕ cfg2 c) (hA : dat.A 1 = V c (Pipeline.arrRef spec2 1))
    (hafter : ∀ t, dat.after 1 t = tile V c 1 t) (t : Fin cfg2.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- The whole 10000 × 64 staging buffer as one rectangle: what every load and the store of the body address. -/
abbrev whole : Rect S10000x64 := Rect.unit (s := S10000x64) ![0, 0] S10000x64.size inb_S10000x64_S10000x64_0_0

/-- The output tile after the body, as a function of the two input tiles: the one store's value laid over the buffer. -/
def written (x0 x1 : Vec F S10000x64 .f32) : Vec F S10000x64 .f32 :=
  View.canon [⟨whole, k2_pay1 (View.ld x0 whole) (View.ld x1 whole)⟩]

/-- That store reaches every element of the tile. -/
theorem written_covers (p0 : Vec F S10000x64 .f32) (y : S10000x64.Idx) :
    ∃ pc ∈ ([⟨whole, p0⟩] : List (View.Piece (Elt F) S10000x64 .f32)), y ∈ pc.1.set :=
  View.cover_of_tiled [⟨whole, p0⟩] S10000x64.size (by rfl) y

set_option maxHeartbeats 1000000 in
/-- The body on three whole staging buffers — the inputs' holding `x0`, `x1`, the output's anything — reaches its
    continuation with the inputs untouched and the output at `written x0 x1`. -/
theorem body_triple (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole)
    (x0 : Vec F S10000x64 .f32) (x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (written x0 x1)) -∗ K ⟨⟩))
      ⊢ wp frame (wpE (defs₀ (F := F)) Variants.none c none) E (cc2__noise_inject_kernel i arg1 harg1 arg2 harg2 arg3 harg3) K := by
  simp only [cc2__noise_inject_kernel_eq_skeleton]; unfold cc2__noise_inject_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (written_covers _)

/-- The pipeline's proof data on core `c`: the arrays as found; after the body at point `t` the two inputs' buffers
    still at their tiles and the output's at `written` of them; the invariant carries only what the body never
    touches; nothing is owed; full shares. -/
def dat (c : Dev nD) : Dat τ (Elt F) Unit ℕ (UR sig nD τ) ℕ cfg2 c where
  A w := V c (Pipeline.arrRef spec2 w)
  after w t := match w with
    | ⟨0, _⟩ => tile V c 0 t
    | ⟨1, _⟩ => tile V c 1 t
    | ⟨2, _⟩ => written (tile V c 0 t) (tile V c 1 t)
  Φ _ := Pipeline.ΦA spec2 c
  q _ := fullShare
  owed _ := 0

theorem dat_A (c : Dev nD) (w : Fin cfg2.W) : (dat V c).A w = V c (Pipeline.arrRef spec2 w) := by
  dsimp only [dat]

theorem dat_after0 (c : Dev nD) (t : Fin cfg2.N) : (dat V c).after 0 t = tile V c 0 t := by dsimp only [dat]
theorem dat_after1 (c : Dev nD) (t : Fin cfg2.N) : (dat V c).after 1 t = tile V c 1 t := by dsimp only [dat]
theorem dat_after2 (c : Dev nD) (t : Fin cfg2.N) : (dat V c).after 2 t = written (tile V c 0 t) (tile V c 1 t) := by dsimp only [dat]

theorem dat_before0 (c : Dev nD) (t : Fin cfg2.N) (d) : (dat V c).before 0 t d = tile V c 0 t :=
  staged0_of V (dat V c) (dat_A V c 0) (dat_after0 V c) t d
theorem dat_before1 (c : Dev nD) (t : Fin cfg2.N) (d) : (dat V c).before 1 t d = tile V c 1 t :=
  staged1_of V (dat V c) (dat_A V c 1) (dat_after1 V c) t d

/-- What the body is called with at point `t`, window by window, -/
def atEntry (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it hands back. -/
def atExit (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' buffers hold their tiles, so the triple applies; the invariant and the
    core's dues pass through unread. -/
theorem body_at (c : Dev nD) (t : Fin cfg2.N) :
    atEntry V c t ⊢ wp frame (wpE (defs₀ (F := F)) Variants.none c none) Set.univ (bodyAt2 t) (fun _ => atExit V c t) := by
  unfold atEntry atExit bodyAt2
  simp only [dat_before0, dat_before1]
  rw [show (dat V c).Φ t.succ = (dat V c).Φ t.castSucc from rfl,
    show (dat V c).owesAt () t.succ = (dat V c).owesAt () t.castSucc from rfl,
    dat_after0, dat_after1, dat_after2]
  iintro ⟨HΦ, Ho, ⟨%d0, H0⟩, ⟨%d1, H1⟩, ⟨%d2, H2⟩⟩
  iapply (body_triple c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W2, bigSep_W2]
  exact body_at V c t

end Cert.KernelIdeal.Call2

end
-- ==== Proof.KernelIdealChain.lean ====
/-
  @main from launch to return, for the frame: what every buffer holds at each boundary between a host stretch and a
  call of the kernel, each call as a segment entered and left at those boundaries, and the conclusion that every
  execution ends with the six argument arrays as launched.

  Boundaries. The first stretch builds the propagated embedding and the first noise slab; call 0 may change only its
  result array; the second stretch reads that result; and so on through three calls and the closing stretch. A call's
  result array afterwards is the fold of its 15 tile write-backs; its two operand arrays are only read.
-/
import proofs.«147810_j21371757264955_1_alg».proof.Proof.Gen.KernelIdeal.Regions
import proofs.«147810_j21371757264955_1_alg».proof.Proof.KernelIdealCall0
import proofs.«147810_j21371757264955_1_alg».proof.Proof.KernelIdealCall1
import proofs.«147810_j21371757264955_1_alg».proof.Proof.KernelIdealCall2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the calls leave -/

/-- The buffers call 0 is entered with, read at the TensorCore's references. -/
abbrev in0 : (c : Dev nD) → (b : Ref sig .tc) → Buf (Elt F) ((c : Thread nD τ).loc b) := fun c b => V1 m c b
/-- The buffers after call 0: its arrays at the fold of their write-backs, everything else untouched. -/
def after0 (c : Dev nD) : Valuation τ sig (Elt F) :=
  Pipeline.withArrays spec0 c (V1 m c) fun w => (Call0.dat (in0 m) c).arrAt w cfg0.N
/-- What the calls leave, as far as call 1 needs it. -/
def tab0 : Outs (F := F) := fun _ r c => after0 m c r

abbrev in1 : (c : Dev nD) → (b : Ref sig .tc) → Buf (Elt F) ((c : Thread nD τ).loc b) := fun c b => V3 m (tab0 m) c b
def after1 (c : Dev nD) : Valuation τ sig (Elt F) :=
  Pipeline.withArrays spec1 c (V3 m (tab0 m) c) fun w => (Call1.dat (in1 m) c).arrAt w cfg1.N
/-- What the calls leave, as far as call 2 needs it. -/
def tab1 : Outs (F := F) := fun J r c => match J with | 2 => after0 m c r | _ => after1 m c r

abbrev in2 : (c : Dev nD) → (b : Ref sig .tc) → Buf (Elt F) ((c : Thread nD τ).loc b) := fun c b => V5 m (tab1 m) c b
def after2 (c : Dev nD) : Valuation τ sig (Elt F) :=
  Pipeline.withArrays spec2 c (V5 m (tab1 m) c) fun w => (Call2.dat (in2 m) c).arrAt w cfg2.N
/-- What the three calls leave in the one array each may change. -/
def tab : Outs (F := F) := fun J r c => match J with | 2 => after0 m c r | 4 => after1 m c r | _ => after2 m c r

/-- The boundary contents do not depend on which of the three tables above they are read through. -/
theorem V2_left (c : Dev nD) : V2 m (tab m) c = V2 m (tab0 m) c := rfl
theorem V3_left (c : Dev nD) : V3 m (tab m) c = V3 m (tab0 m) c := rfl
theorem V4_left (c : Dev nD) : V4 m (tab m) c = V4 m (tab1 m) c := rfl
theorem V5_left (c : Dev nD) : V5 m (tab m) c = V5 m (tab1 m) c := rfl

/-! ## The proof data family -/

/-- Every pipeline's proof data, each at the contents its call is entered with. -/
def pdats : (p : Fin 3) → (c : Dev nD) → Dat τ (Elt F) Unit ℕ (UR sig nD τ) ℕ (Pipeline.pin (pcfgs (F := F)) adm p) c
  | ⟨0, _⟩ => fun c => Call0.dat (in0 m) c
  | ⟨1, _⟩ => fun c => Call1.dat (in1 m) c
  | ⟨2, _⟩ => fun c => Call2.dat (in2 m) c

abbrev 𝒱 : Variants := Variants.none
/-- No core owes another anything. -/
abbrev Lz : GSem nD τ sig → Finset Unit := fun _ => ∅
abbrev lvz : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)

/-! ## Each call's arrays at its exit -/

theorem arr0_2 : Pipeline.arrRef spec0 2 = main_v16 := rfl
theorem arr1_2 : Pipeline.arrRef spec1 2 = main_v32 := rfl
theorem arr2_2 : Pipeline.arrRef spec2 2 = main_v48 := rfl

/-- After call 0 each of its arrays holds the fold of its write-backs — the two operands, never written, their entry
    contents — -/
theorem left0_at (c : Dev nD) (w : Fin cfg0.W) : (Call0.dat (in0 m) c).arrAt w cfg0.N = V2 m (tab m) c (Pipeline.arrRef spec0 w) := by
  match w with
  | ⟨0, _⟩ => exact ((Call0.dat (in0 m) c).arrAt_in 0 rfl _).trans ((Call0.dat_A (in0 m) c 0).trans (V2_of m (tab m) c _ (by decide)).symm)
  | ⟨1, _⟩ => exact ((Call0.dat (in0 m) c).arrAt_in 1 rfl _).trans ((Call0.dat_A (in0 m) c 1).trans (V2_of m (tab m) c _ (by decide)).symm)
  | ⟨2, _⟩ =>
    have e := Pipeline.withArrays_arr spec0 launch0.win.arr_inj c (V1 m c) (fun w => (Call0.dat (in0 m) c).arrAt w cfg0.N) 2
    show _ = Function.update (V1 m c) (Proc.devRef .tc main_v16) (after0 m c main_v16) (Proc.devRef .tc main_v16)
    rw [Function.update_self]
    exact e.symm
/-- and every other buffer what it held on entry. -/
theorem kept0_at (c : Dev nD) : ∀ b, b ∉ Finset.univ.image (Pipeline.arrRef spec0) → V2 m (tab m) c b = in0 m c b :=
  fun b hb => V2_of m (tab m) c b (by
    intro h; rw [List.mem_singleton] at h
    exact hb (Finset.mem_image.mpr ⟨2, Finset.mem_univ _, (arr0_2).trans h.symm⟩))

theorem left1_at (c : Dev nD) (w : Fin cfg1.W) : (Call1.dat (in1 m) c).arrAt w cfg1.N = V4 m (tab m) c (Pipeline.arrRef spec1 w) := by
  match w with
  | ⟨0, _⟩ => exact ((Call1.dat (in1 m) c).arrAt_in 0 rfl _).trans ((Call1.dat_A (in1 m) c 0).trans (V4_of m (tab m) c _ (by decide)).symm)
  | ⟨1, _⟩ => exact ((Call1.dat (in1 m) c).arrAt_in 1 rfl _).trans ((Call1.dat_A (in1 m) c 1).trans (V4_of m (tab m) c _ (by decide)).symm)
  | ⟨2, _⟩ =>
    have e := Pipeline.withArrays_arr spec1 launch1.win.arr_inj c (V3 m (tab0 m) c) (fun w => (Call1.dat (in1 m) c).arrAt w cfg1.N) 2
    show _ = Function.update (V3 m (tab m) c) (Proc.devRef .tc main_v32) (after1 m c main_v32) (Proc.devRef .tc main_v32)
    rw [Function.update_self]
    exact e.symm
theorem kept1_at (c : Dev nD) : ∀ b, b ∉ Finset.univ.image (Pipeline.arrRef spec1) → V4 m (tab m) c b = in1 m c b :=
  fun b hb => V4_of m (tab m) c b (by
    intro h; rw [List.mem_singleton] at h
    exact hb (Finset.mem_image.mpr ⟨2, Finset.mem_univ _, (arr1_2).trans h.symm⟩))

theorem left2_at (c : Dev nD) (w : Fin cfg2.W) : (Call2.dat (in2 m) c).arrAt w cfg2.N = V6 m (tab m) c (Pipeline.arrRef spec2 w) := by
  match w with
  | ⟨0, _⟩ => exact ((Call2.dat (in2 m) c).arrAt_in 0 rfl _).trans ((Call2.dat_A (in2 m) c 0).trans (V6_of m (tab m) c _ (by decide)).symm)
  | ⟨1, _⟩ => exact ((Call2.dat (in2 m) c).arrAt_in 1 rfl _).trans ((Call2.dat_A (in2 m) c 1).trans (V6_of m (tab m) c _ (by decide)).symm)
  | ⟨2, _⟩ =>
    have e := Pipeline.withArrays_arr spec2 launch2.win.arr_inj c (V5 m (tab1 m) c) (fun w => (Call2.dat (in2 m) c).arrAt w cfg2.N) 2
    show _ = Function.update (V5 m (tab m) c) (Proc.devRef .tc main_v48) (after2 m c main_v48) (Proc.devRef .tc main_v48)
    rw [Function.update_self]
    exact e.symm
theorem kept2_at (c : Dev nD) : ∀ b, b ∉ Finset.univ.image (Pipeline.arrRef spec2) → V6 m (tab m) c b = in2 m c b :=
  fun b hb => V6_of m (tab m) c b (by
    intro h; rw [List.mem_singleton] at h
    exact hb (Finset.mem_image.mpr ⟨2, Finset.mem_univ _, (arr2_2).trans h.symm⟩))

/-! ## The calls as segments -/

-- a library lemma stated over the pinned configuration unifies with the printed one only when unification may unfold
-- plain definitions in a metavariable's type
set_option backward.isDefEq.respectTransparency.types false in
/-- Call 0 as a segment of @main: entered with every unscoped buffer at `V1 m`, left with them at `V2 m (tab m)`.
    Its three arrays are split out of the unscoped buffers on entry and put back at their final contents on exit; the
    generator register rides through the invariant; nothing is owed; the kernel has no semaphore of its own. -/
def reg0 : Pipeline.RegionSeg (pcfgs (F := F)) adm (pdats m) () defs₀ 𝒱 Lz lvz 0 where
  win := launch0.win.to₀
  block_pos := launch0.block_pos
  stage_whole := launch0.stage_whole
  K := PEmpty
  osem k := k.elim
  ho := Pipeline.OwnSemFacts.none _
  hbody c := (Call0.body_obligation (in0 m) c).loose
  hwaits := Pipeline.hwaits_of_owed_zero _ _ _ _ Lz lvz 0 fun _ _ => rfl
  pre c := iprop(StableHlo.held (c : Thread nD τ) (Pipeline.ucRefs τ sig) (V1 m c) ∗ Rest c)
  post c := iprop(StableHlo.held (c : Thread nD τ) (Pipeline.ucRefs τ sig) (V2 m (tab m) c) ∗ Rest c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in0 m c) fun _ => rfl
    rw [Pipeline.unscopedBufs_held] at hsplit
    replace hsplit : (StableHlo.held (c : Thread nD τ) (Pipeline.ucRefs τ sig) (V1 m c) : sProp 𝕄) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in0 m c) (fun b => V2 m (tab m) c b) ((pdats m 0 c).arrAt · cfg0.N) (left0_at m c) (kept0_at m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 as a segment of @main: entered with every unscoped buffer at `V3 m (tab m)`, left with them at `V4 m (tab m)`.
    Its three arrays are split out of the unscoped buffers on entry and put back at their final contents on exit; the
    generator register rides through the invariant; nothing is owed; the kernel has no semaphore of its own. -/
def reg1 : Pipeline.RegionSeg (pcfgs (F := F)) adm (pdats m) () defs₀ 𝒱 Lz lvz 1 where
  win := launch1.win.to₀
  block_pos := launch1.block_pos
  stage_whole := launch1.stage_whole
  K := PEmpty
  osem k := k.elim
  ho := Pipeline.OwnSemFacts.none _
  hbody c := (Call1.body_obligation (in1 m) c).loose
  hwaits := Pipeline.hwaits_of_owed_zero _ _ _ _ Lz lvz 1 fun _ _ => rfl
  pre c := iprop(StableHlo.held (c : Thread nD τ) (Pipeline.ucRefs τ sig) (V3 m (tab m) c) ∗ Rest c)
  post c := iprop(StableHlo.held (c : Thread nD τ) (Pipeline.ucRefs τ sig) (V4 m (tab m) c) ∗ Rest c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) fun _ => rfl
    rw [Pipeline.unscopedBufs_held] at hsplit
    replace hsplit : (StableHlo.held (c : Thread nD τ) (Pipeline.ucRefs τ sig) (V3 m (tab m) c) : sProp 𝕄) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (fun b => V4 m (tab m) c b) ((pdats m 1 c).arrAt · cfg1.N) (left1_at m c) (kept1_at m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 2 as a segment of @main: entered with every unscoped buffer at `V5 m (tab m)`, left with them at `V6 m (tab m)`.
    Its three arrays are split out of the unscoped buffers on entry and put back at their final contents on exit; the
    generator register rides through the invariant; nothing is owed; the kernel has no semaphore of its own. -/
def reg2 : Pipeline.RegionSeg (pcfgs (F := F)) adm (pdats m) () defs₀ 𝒱 Lz lvz 2 where
  win := launch2.win.to₀
  block_pos := launch2.block_pos
  stage_whole := launch2.stage_whole
  K := PEmpty
  osem k := k.elim
  ho := Pipeline.OwnSemFacts.none _
  hbody c := (Call2.body_obligation (in2 m) c).loose
  hwaits := Pipeline.hwaits_of_owed_zero _ _ _ _ Lz lvz 2 fun _ _ => rfl
  pre c := iprop(StableHlo.held (c : Thread nD τ) (Pipeline.ucRefs τ sig) (V5 m (tab m) c) ∗ Rest c)
  post c := iprop(StableHlo.held (c : Thread nD τ) (Pipeline.ucRefs τ sig) (V6 m (tab m) c) ∗ Rest c)
  X c := iprop(∃ r, prngReg c r)
  Y c := iprop(∃ r, prngReg c r)
  Z c := Pipeline.unscopedRest (Ix := Unit) (Name := ℕ) (U := UR sig nD τ) (Lvl := ℕ) spec2 c (in2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (in2 m c) fun _ => rfl
    rw [Pipeline.unscopedBufs_held] at hsplit
    replace hsplit : (StableHlo.held (c : Thread nD τ) (Pipeline.ucRefs τ sig) (V5 m (tab m) c) : sProp 𝕄) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (in2 m c) (fun b => V6 m (tab m) c b) ((pdats m 2 c).arrAt · cfg2.N) (left2_at m c) (kept2_at m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

-- the launch theorem's implicit arguments are found by unifying its conclusion with this one
set_option backward.isDefEq.respectTransparency.types false in
/-- Every weakly fair execution of @main from `m` with zero counters terminates, faults nowhere, and ends with each of
    the six argument arrays as launched: the host side is the generated conditional frame; the three calls are the
    segments above; beside the buffers only the generator register and an empty bill travel. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () 𝒱 Lz lvz (fun _ _ => rfl) ρ (tab m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rest c)
    (by
      refine Pipeline.initEach Lz lvz fun c => ?_
      iintro ⟨⟨-, HO, -, Hp, -⟩, -⟩
      imodintro
      isplitl [Hp]; · iexists _; iexact Hp
      iexists ∅; iexact HO)
    (fun c => by iintro ⟨-, H⟩; iexact H)
    (reg0 m) (fun c => .rfl) (fun c => .rfl)
    (reg1 m) (fun c => .rfl) (fun c => .rfl)
    (reg2 m) (fun c => .rfl) (fun c => .rfl)

end Cert.KernelIdeal.Chain

end
-- ==== Proof.KernelIdealRun.lean ====
/-
  The idealized kernel program's run with ALL of its buffers read at the end: every weakly fair execution terminates
  and every unscoped buffer — the four results among them — ends at the last boundary's contents, the fold of the four
  host stretches over the launch memory with each call's result array put in where the call leaves it.
  The same segments and thread states as the frame; only the reading at the end is wider.
-/
import proofs.«147810_j21371757264955_1_alg».proof.Proof.KernelIdealChain

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- the launch theorem's implicit arguments are found by unifying its conclusion with this one
set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V7 m (tab m) c b) := by
  refine Pipeline.θ_run_regions_kit_dev (pcfgs (F := F)) adm (pdats m) () cellOf_inj emb₁ defs₀ 𝒱 Lz lvz m ρ main
    (segs m (tab m) 𝒱 Lz lvz (fun _ c => Rest c) () (pdats m) (reg0 m) (reg1 m) (reg2 m))
    (fun c Q => by
      rewrite [main_chain c, Seg.run_eq_chain,
        show (segs m (tab m) 𝒱 Lz lvz (fun _ c => Rest c) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V7 m (tab m) c))
    (hch := fun c => ⟨.rfl, .rfl, .rfl, .rfl, .rfl, .rfl, .rfl, sep_mono .rfl (by iintro ⟨-, H⟩; iexact H)⟩)
    (hinit := ?_) (QY := fun c s => ∀ b ∈ Pipeline.ucRefs τ sig, s.mem (((c : Thread nD τ)).1, b) = V7 m (tab m) c b)
    (hfin := fun c s' => ?_) (hQ := fun _ h => h)
  · -- the launch: every core's unscoped buffers at the launch memory, its generator register, nothing owed
    refine Pipeline.initEach Lz lvz fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last boundary's contents
    iintro ⟨Hh, HSI⟩
    unfold StableHlo.held
    imodintro
    iapply (pointsTo_read_all (Pipeline.ucRefs τ sig) (fun b => (((c : Thread nD τ)).1, b)) (V7 m (tab m) c) s')
    isplitl [Hh] <;> iassumption

end Cert.KernelIdeal.Chain

end
-- ==== Proof.InjectSpec.lean ====
/-
  The noise injection, element by element, on the extended reals.

  One layer replaces a propagated embedding row `x` by `x + sign x · (n / max (‖n‖, floor)) · step`, where `n` is the
  row of noise, `‖n‖` the root of the sum of its 64 squares, `floor` the float nearest `1e-12` and `step` the float
  nearest `0.2`. The sign is `-1`, `0` or `1` by the order; the quotient is the extended reals' own.
-/
import Idealize.ShloMosaic.PureOps.Ideal
import Idealize.ShloMosaic.PureOps.Ideal.Laws
import Idealize.ShloMosaic.Lib.ValueIdx

noncomputable section

namespace Cert.Inject

open Idealize.ShloMosaic Idealize.ShloMosaic.ValueIdx

/-- One element of the result from the embedding's element `x`, the noise's element `n` and the sum `ss` of the squares
    of the noise's row. -/
def elem (x n ss : EReal) : EReal :=
  x + Ideal.sign x * Ideal.div n (max (Ideal.sqrt ss) (Ideal.ofBits .f32 0x2B8CBCCC#32)) * Ideal.ofBits .f32 0x3E4CCCCD#32

/-- The sum of the squares of row `r` of a noise array with 64 columns. -/
def rowSq {R : Nat} (nz : (⟨2, ![R, 64]⟩ : Shape).Idx → EReal) (r : Fin R) : EReal :=
  ∑ k : Fin 64, nz (ix2 r k) * nz (ix2 r k)

/-- A whole array of `R` rows: every element from its own embedding and noise elements and its row's sum of squares. -/
def rows {R : Nat} (x nz : (⟨2, ![R, 64]⟩ : Shape).Idx → EReal) : (⟨2, ![R, 64]⟩ : Shape).Idx → EReal :=
  fun i => elem (x i) (nz i) (rowSq nz (i 0))

theorem rows_apply {R : Nat} (x nz : (⟨2, ![R, 64]⟩ : Shape).Idx → EReal) (r : Fin R) (k : Fin 64) :
    rows x nz (ix2 r k) = elem (x (ix2 r k)) (nz (ix2 r k)) (rowSq nz r) := rfl

/-- A tile that holds whole rows: if local element `(p, k)` of the tile sits at `(ρ p, k)` of the array and the two tiles
    `X0`, `X1` are the arrays `x`, `nz` read there, then the injection computed from the tiles alone is the
    array-wide injection read there — a row's sum of squares is the same sum inside the tile and inside the array. -/
theorem rows_tile {R T : Nat} (x nz : (⟨2, ![R, 64]⟩ : Shape).Idx → EReal) (X0 X1 : (⟨2, ![T, 64]⟩ : Shape).Idx → EReal)
    (e : (⟨2, ![T, 64]⟩ : Shape).Idx → (⟨2, ![R, 64]⟩ : Shape).Idx) (ρ : Fin T → Fin R)
    (he : ∀ p k, e (ix2 p k) = ix2 (ρ p) k) (h0 : ∀ j, X0 j = x (e j)) (h1 : ∀ j, X1 j = nz (e j)) (p : Fin T) (k : Fin 64) :
    elem (X0 (ix2 p k)) (X1 (ix2 p k)) (rowSq X1 p) = rows x nz (e (ix2 p k)) := by
  rw [he p k, rows_apply, h0, h1, he p k]
  congr 1
  unfold rowSq
  exact Finset.sum_congr rfl fun k' _ => by rw [h1, he p k']

end Cert.Inject

end
-- ==== Proof.KernelIdealTile.lean ====
/-
  The kernel body's one stored value, read at an element of a tile.

  On a tile of 10000 rows the body squares the noise, sums each row over its 64 lanes, takes the root, floors it,
  spreads it back over the row, divides the noise by it, multiplies by the sign of the embedding and by the step, and
  adds the embedding. Element `(p, k)` of that is `Inject.elem` of the two tiles' elements `(p, k)` and of row
  `p`'s sum of squares: the lane sum is the sum over the row's 64 columns, the keep-dims column and its spreading
  read row `p` back, and the select-built sign is the order's sign.
-/
import proofs.«147810_j21371757264955_1_alg».proof.Proof.Gen.KernelIdeal.Skeleton
import proofs.«147810_j21371757264955_1_alg».proof.Proof.InjectSpec
import Idealize.ShloMosaic.Lib.Pipeline.Value
import Idealize.ShloMosaic.Lib.ValueIdx
import Idealize.ShloMosaic.PureOps.Ideal.Laws

noncomputable section

namespace Cert.KernelIdeal.Tile

open Idealize.ShloMosaic Idealize.ShloMosaic.ValueIdx
open Cert.KernelIdeal Cert.KernelIdeal.Gen

/-- The reduced index `p` with lane `k` put back is element `(p, k)`. -/
theorem lift_lane (h : S10000x64.Reduces [1] S10000) (p : Fin 10000) (k : Fin 64) :
    h.lift (ix1 p) k = ix2 p k := by
  funext c
  apply Fin.ext
  refine (h.lift_val (ix1 p) k c).trans ?_
  unfold Shape.Reduces.liftVal
  match c with
  | ⟨0, _⟩ => rfl
  | ⟨1, _⟩ => rfl

/-- The lane sum of the squared tile at row `p` is the row's sum of squares. -/
theorem lane_sum (x1 : FVec Ideal S10000x64 .f32) (h : S10000x64.Reduces [1] S10000) (hφ : FKind.Formats .f32)
    (hacc : (0x00000000#32 : BitVec 32) = FKind.add.neutral .f32 hφ) (p : Fin 10000) :
    multiReduction .add [1] S10000 (mulf x1 x1) 0x00000000#32 h hφ hacc (ix1 p) = Inject.rowSq x1 p := by
  refine (Ideal.multiReduction_add_single (mulf x1 x1) 0x00000000#32 h hφ hacc (ix1 p)).trans ?_
  unfold Inject.rowSq
  exact Finset.sum_congr rfl fun k _ => by rw [lift_lane h p k]; rfl

/-- A length-10000 vector recast as a 10000 × 1 column reads row `p` at `(p, 0)`. -/
theorem column_apply {α : Type} (v : S10000.Idx → α) (h : S10000.ShapeCasts S10000x1) (p : Fin 10000) (z : Fin 1) :
    shapeCast S10000x1 v h (ix2 p z) = v (ix1 p) :=
  shapeCast_apply v h (ix2 p z) (ix1 p) (by
    rw [Shape.rowMajor_val_one, Shape.rowMajor_val_two]
    show p.val = p.val * 1 + z.val
    have := z.isLt; omega)

/-- A 10000 × 1 column spread over 64 lanes reads row `p`'s entry at every `(p, k)`. -/
theorem spread_apply {α : Type} (v : S10000x1.Idx → α) (h : S10000x1.Broadcasts S10000x64) (p : Fin 10000) (k : Fin 64) :
    broadcastTo S10000x64 v h (ix2 p k) = v (ix2 p (0 : Fin 1)) :=
  broadcastTo_apply v h (ix2 p k) (ix2 p (0 : Fin 1)) (fun a => by
    match a with
    | ⟨0, _⟩ => rfl
    | ⟨1, _⟩ => rfl)

/-- The body's tree of operations on two tiles, at element `(p, k)`. -/
theorem elem_of_ops (x0 x1 : FVec Ideal S10000x64 .f32) (hr : S10000x64.Reduces [1] S10000) (hφ : FKind.Formats .f32)
    (hacc : (0x00000000#32 : BitVec 32) = FKind.add.neutral .f32 hφ) (hc : S10000.ShapeCasts S10000x1)
    (hb : S10000x1.Broadcasts S10000x64) (p : Fin 10000) (k : Fin 64) :
    addf x0 (mulf (mulf
        (select (cmpf .ogt (absf x0) (broadcast S10000x64 (Scalar.ofBits (F := Ideal) .f32 0x00000000#32)))
          (select (cmpf .olt x0 (constant S10000x64 .f32 0x00000000#32)) (constant S10000x64 .f32 0xBF800000#32) (constant S10000x64 .f32 0x3F800000#32))
          x0)
        (divf x1 (broadcastTo S10000x64
          (maximumf (sqrt (shapeCast S10000x1 (multiReduction .add [1] S10000 (mulf x1 x1) 0x00000000#32 hr hφ hacc) hc))
            (broadcast S10000x1 (Scalar.ofBits (F := Ideal) .f32 0x2B8CBCCC#32))) hb)))
      (broadcast S10000x64 (Scalar.ofBits (F := Ideal) .f32 0x3E4CCCCD#32))) (ix2 p k)
    = Inject.elem (x0 (ix2 p k)) (x1 (ix2 p k)) (Inject.rowSq x1 p) := by
  unfold Inject.elem
  rw [addf_apply, mulf_apply, mulf_apply, divf_apply, spread_apply]
  show x0 (ix2 p k) + (Scalar.select (FloatOps.cmpf .ogt (FloatOps.absf (x0 (ix2 p k))) (Scalar.ofBits .f32 0x00000000#32))
        (Scalar.select (FloatOps.cmpf .olt (x0 (ix2 p k)) (Scalar.ofBits .f32 0x00000000#32)) (Scalar.ofBits .f32 0xBF800000#32)
          (Scalar.ofBits .f32 0x3F800000#32)) (x0 (ix2 p k)))
      * Ideal.div (x1 (ix2 p k)) (max (Ideal.sqrt (shapeCast S10000x1 (multiReduction .add [1] S10000 (mulf x1 x1) 0x00000000#32 hr hφ hacc) hc (ix2 p (0 : Fin 1))))
          (Ideal.ofBits .f32 0x2B8CBCCC#32)) * Ideal.ofBits .f32 0x3E4CCCCD#32 = _
  rw [Ideal.jnp_sign_eq_sign_f32, column_apply, lane_sum]

/-- Call 0's stored value at row `p`, column `k` of a tile. -/
theorem pay0_apply (x0 x1 : Vec Ideal S10000x64 .f32) (p : Fin 10000) (k : Fin 64) :
    k0_pay1 (F := Ideal) x0 x1 (ix2 p k) = Inject.elem (x0 (ix2 p k)) (x1 (ix2 p k)) (Inject.rowSq x1 p) := by
  unfold k0_pay1
  simp only [shapeCast_self]
  exact elem_of_ops x0 x1 _ _ _ _ _ p k

/-- Call 1's stored value at row `p`, column `k` of a tile. -/
theorem pay1_apply (x0 x1 : Vec Ideal S10000x64 .f32) (p : Fin 10000) (k : Fin 64) :
    k1_pay1 (F := Ideal) x0 x1 (ix2 p k) = Inject.elem (x0 (ix2 p k)) (x1 (ix2 p k)) (Inject.rowSq x1 p) := by
  unfold k1_pay1
  simp only [shapeCast_self]
  exact elem_of_ops x0 x1 _ _ _ _ _ p k

/-- Call 2's stored value at row `p`, column `k` of a tile. -/
theorem pay2_apply (x0 x1 : Vec Ideal S10000x64 .f32) (p : Fin 10000) (k : Fin 64) :
    k2_pay1 (F := Ideal) x0 x1 (ix2 p k) = Inject.elem (x0 (ix2 p k)) (x1 (ix2 p k)) (Inject.rowSq x1 p) := by
  unfold k2_pay1
  simp only [shapeCast_self]
  exact elem_of_ops x0 x1 _ _ _ _ _ p k

end Cert.KernelIdeal.Tile

end
-- ==== Proof.KernelIdealArr0.lean ====
/-
  Call 0: what its result array holds once all 15 tiles are written back.

  Tile `t` of each of the three windows is rows `10000 t … 10000 t + 9999`, all 64 columns. What point `t` writes back is
  therefore that tile of ONE function of the two operand arrays as the call finds them — the row-wise injection
  `Inject.rows` —, because a tile holds whole rows and a row's norm needs nothing outside the row. The 15 tiles cover
  the 150000 rows, so the array ends equal to that function.
-/
import proofs.«147810_j21371757264955_1_alg».proof.Proof.KernelIdealCall0
import proofs.«147810_j21371757264955_1_alg».proof.Proof.KernelIdealTile
import Idealize.ShloMosaic.Lib.Pipeline.Value

set_option maxRecDepth 16384

noncomputable section

namespace Cert.KernelIdeal.Arr0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Call0

variable (V : (c : Dev nD) → (b : Ref sig .tc) → Buf (Elt Ideal) ((c : Thread nD τ).loc b))

theorem origin : (![0, 0] : Fin 2 → Nat) = fun _ => 0 := funext fun a => by fin_cases a <;> rfl

/-- The three index maps, decided over the grid: at point `t` every window's tile starts at the same row block and at
    column block 0, and the row block is below 15. -/
theorem same_tile : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 14 :=
  (by decide +kernel : ∀ t : Fin grid0.N, _)

/-- Every one of the 15 row blocks is some point's. -/
theorem every_tile : ∀ q : Fin 15, ∃ t : Fin cfg0.N, win0_2.index t = ![q.val, 0] :=
  (by decide +kernel : ∀ q : Fin 15, ∃ t : Fin grid0.N, win0_2.index t = ![q.val, 0])

/-- The array the call's result ends at: the injection of the embedding operand with the noise operand, row by row. -/
abbrev result (c : Dev nD) : S150000x64.Idx → EReal := Inject.rows (V c main_v13) (V c main_v15)

/-- Where local element `(p, k)` of point `t`'s output tile sits in the array. -/
theorem place (t : Fin cfg0.N) (p : Fin 10000) (k : Fin 64) (hrow : win0_2.index t (0 : Fin 2) * 10000 + p.val < 150000) :
    ((cfg0.win 2).blk t).view.emb (ix2 p k) = ix2 (⟨win0_2.index t (0 : Fin 2) * 10000 + p.val, hrow⟩ : Fin 150000) k := by
  obtain ⟨e0, e1, e2, e3, e4, e5⟩ := same_tile t
  funext a; apply Fin.ext
  match a with
  | ⟨0, _⟩ => show win0_2.index t (0 : Fin 2) * 10000 + 1 * p.val = win0_2.index t (0 : Fin 2) * 10000 + p.val; omega
  | ⟨1, _⟩ => show win0_2.index t (1 : Fin 2) * 64 + 1 * k.val = k.val; omega

/-- An operand's tile at point `t` is the operand array read where the output tile sits: the embedding's, -/
theorem tile0_at (c : Dev nD) (t : Fin cfg0.N) (j : S10000x64.Idx) :
    tile V c 0 t j = V c main_v13 (((cfg0.win 2).blk t).view.emb j) := by
  obtain ⟨e0, e1, e2, e3, e4, e5⟩ := same_tile t
  show V c main_v13 (((cfg0.win 0).blk t).view.emb j) = V c main_v13 (((cfg0.win 2).blk t).view.emb j)
  refine congrArg (V c main_v13) ?_
  funext a; apply Fin.ext
  match a with
  | ⟨0, _⟩ => show win0_0.index t (0 : Fin 2) * 10000 + 1 * (j 0).val = win0_2.index t (0 : Fin 2) * 10000 + 1 * (j 0).val; omega
  | ⟨1, _⟩ => show win0_0.index t (1 : Fin 2) * 64 + 1 * (j 1).val = win0_2.index t (1 : Fin 2) * 64 + 1 * (j 1).val; omega

/-- and the noise's. -/
theorem tile1_at (c : Dev nD) (t : Fin cfg0.N) (j : S10000x64.Idx) :
    tile V c 1 t j = V c main_v15 (((cfg0.win 2).blk t).view.emb j) := by
  obtain ⟨e0, e1, e2, e3, e4, e5⟩ := same_tile t
  show V c main_v15 (((cfg0.win 1).blk t).view.emb j) = V c main_v15 (((cfg0.win 2).blk t).view.emb j)
  refine congrArg (V c main_v15) ?_
  funext a; apply Fin.ext
  match a with
  | ⟨0, _⟩ => show win0_1.index t (0 : Fin 2) * 10000 + 1 * (j 0).val = win0_2.index t (0 : Fin 2) * 10000 + 1 * (j 0).val; omega
  | ⟨1, _⟩ => show win0_1.index t (1 : Fin 2) * 64 + 1 * (j 1).val = win0_2.index t (1 : Fin 2) * 64 + 1 * (j 1).val; omega

/-- What point `t` writes back is tile `t` of `result`. -/
theorem flushed_eq (c : Dev nD) (t : Fin cfg0.N) :
    (dat V c).flushed 2 t = ((cfg0.win 2).blk t).view.read (Elt Ideal) (result V c) := by
  show (cfg0.win 2).cut (grid0.coords t) ((dat V c).after 2 t) = _
  rw [dat_after2]
  unfold written
  rw [View.canon_unit_zero origin]
  simp only [View.ld_unit_zero (S := S10000x64) origin]
  obtain ⟨e0, e1, e2, e3, e4, e5⟩ := same_tile t
  funext j
  obtain ⟨p, k, rfl⟩ : ∃ (p : Fin 10000) (k : Fin 64), j = ix2 p k := ⟨j 0, j 1, eq_ix2 j⟩
  have hrow : ∀ q : Fin 10000, win0_2.index t (0 : Fin 2) * 10000 + q.val < 150000 := fun q => by have := q.isLt; omega
  show k0_pay1 (F := Ideal) (tile V c 0 t) (tile V c 1 t) (ix2 p k) = result V c (((cfg0.win 2).blk t).view.emb (ix2 p k))
  refine (Tile.pay0_apply (tile V c 0 t) (tile V c 1 t) p k).trans ?_
  exact Inject.rows_tile (V c main_v13) (V c main_v15) (tile V c 0 t) (tile V c 1 t) (((cfg0.win 2).blk t).view.emb)
    (fun q => ⟨win0_2.index t (0 : Fin 2) * 10000 + q.val, hrow q⟩) (fun q k' => place t q k' (hrow q))
    (tile0_at V c t) (tile1_at V c t) p k

/-- An index of the array is in point `t`'s tile iff each coordinate is in the tile's range on its axis. -/
theorem mem_tile (t : Fin cfg0.N) (i : S150000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v16).slice (win0_2.rect t)).set ↔ _
  rw [View.set_slice_whole, Rect.mem_set_unit]
  exact Iff.rfl

/-- Every index of the array is in some written-back tile. -/
theorem covered (i : S150000x64.Idx) :
    ∃ t : Fin cfg0.N, (cfg0.win 2).flush t = true ∧ i ∈ ((cfg0.win 2).blk t).view.set := by
  have hi0 : (i 0).val < 150000 := (i 0).isLt
  have hi1 : (i 1).val < 64 := (i 1).isLt
  obtain ⟨t, ht⟩ := every_tile ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the call. -/
theorem final (c : Dev nD) : (dat V c).arrAt 2 cfg0.N = result V c :=
  (dat V c).arrAt_eq_of_cover 2 (result V c) (fun t _ => flushed_eq V c t) (covered)

end Cert.KernelIdeal.Arr0

end
-- ==== Proof.KernelIdealArr1.lean ====
/-
  Call 1: what its result array holds once all 15 tiles are written back.

  Tile `t` of each of the three windows is rows `10000 t … 10000 t + 9999`, all 64 columns. What point `t` writes back is
  therefore that tile of ONE function of the two operand arrays as the call finds them — the row-wise injection
  `Inject.rows` —, because a tile holds whole rows and a row's norm needs nothing outside the row. The 15 tiles cover
  the 150000 rows, so the array ends equal to that function.
-/
import proofs.«147810_j21371757264955_1_alg».proof.Proof.KernelIdealCall1
import proofs.«147810_j21371757264955_1_alg».proof.Proof.KernelIdealTile
import Idealize.ShloMosaic.Lib.Pipeline.Value

set_option maxRecDepth 16384

noncomputable section

namespace Cert.KernelIdeal.Arr1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Call1

variable (V : (c : Dev nD) → (b : Ref sig .tc) → Buf (Elt Ideal) ((c : Thread nD τ).loc b))

theorem origin : (![0, 0] : Fin 2 → Nat) = fun _ => 0 := funext fun a => by fin_cases a <;> rfl

/-- The three index maps, decided over the grid: at point `t` every window's tile starts at the same row block and at
    column block 0, and the row block is below 15. -/
theorem same_tile : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (1 : Fin 2) = 0
    ∧ win1_2.index t (0 : Fin 2) ≤ 14 :=
  (by decide +kernel : ∀ t : Fin grid1.N, _)

/-- Every one of the 15 row blocks is some point's. -/
theorem every_tile : ∀ q : Fin 15, ∃ t : Fin cfg1.N, win1_2.index t = ![q.val, 0] :=
  (by decide +kernel : ∀ q : Fin 15, ∃ t : Fin grid1.N, win1_2.index t = ![q.val, 0])

/-- The array the call's result ends at: the injection of the embedding operand with the noise operand, row by row. -/
abbrev result (c : Dev nD) : S150000x64.Idx → EReal := Inject.rows (V c main_v29) (V c main_v31)

/-- Where local element `(p, k)` of point `t`'s output tile sits in the array. -/
theorem place (t : Fin cfg1.N) (p : Fin 10000) (k : Fin 64) (hrow : win1_2.index t (0 : Fin 2) * 10000 + p.val < 150000) :
    ((cfg1.win 2).blk t).view.emb (ix2 p k) = ix2 (⟨win1_2.index t (0 : Fin 2) * 10000 + p.val, hrow⟩ : Fin 150000) k := by
  obtain ⟨e0, e1, e2, e3, e4, e5⟩ := same_tile t
  funext a; apply Fin.ext
  match a with
  | ⟨0, _⟩ => show win1_2.index t (0 : Fin 2) * 10000 + 1 * p.val = win1_2.index t (0 : Fin 2) * 10000 + p.val; omega
  | ⟨1, _⟩ => show win1_2.index t (1 : Fin 2) * 64 + 1 * k.val = k.val; omega

/-- An operand's tile at point `t` is the operand array read where the output tile sits: the embedding's, -/
theorem tile0_at (c : Dev nD) (t : Fin cfg1.N) (j : S10000x64.Idx) :
    tile V c 0 t j = V c main_v29 (((cfg1.win 2).blk t).view.emb j) := by
  obtain ⟨e0, e1, e2, e3, e4, e5⟩ := same_tile t
  show V c main_v29 (((cfg1.win 0).blk t).view.emb j) = V c main_v29 (((cfg1.win 2).blk t).view.emb j)
  refine congrArg (V c main_v29) ?_
  funext a; apply Fin.ext
  match a with
  | ⟨0, _⟩ => show win1_0.index t (0 : Fin 2) * 10000 + 1 * (j 0).val = win1_2.index t (0 : Fin 2) * 10000 + 1 * (j 0).val; omega
  | ⟨1, _⟩ => show win1_0.index t (1 : Fin 2) * 64 + 1 * (j 1).val = win1_2.index t (1 : Fin 2) * 64 + 1 * (j 1).val; omega

/-- and the noise's. -/
theorem tile1_at (c : Dev nD) (t : Fin cfg1.N) (j : S10000x64.Idx) :
    tile V c 1 t j = V c main_v31 (((cfg1.win 2).blk t).view.emb j) := by
  obtain ⟨e0, e1, e2, e3, e4, e5⟩ := same_tile t
  show V c main_v31 (((cfg1.win 1).blk t).view.emb j) = V c main_v31 (((cfg1.win 2).blk t).view.emb j)
  refine congrArg (V c main_v31) ?_
  funext a; apply Fin.ext
  match a with
  | ⟨0, _⟩ => show win1_1.index t (0 : Fin 2) * 10000 + 1 * (j 0).val = win1_2.index t (0 : Fin 2) * 10000 + 1 * (j 0).val; omega
  | ⟨1, _⟩ => show win1_1.index t (1 : Fin 2) * 64 + 1 * (j 1).val = win1_2.index t (1 : Fin 2) * 64 + 1 * (j 1).val; omega

/-- What point `t` writes back is tile `t` of `result`. -/
theorem flushed_eq (c : Dev nD) (t : Fin cfg1.N) :
    (dat V c).flushed 2 t = ((cfg1.win 2).blk t).view.read (Elt Ideal) (result V c) := by
  show (cfg1.win 2).cut (grid1.coords t) ((dat V c).after 2 t) = _
  rw [dat_after2]
  unfold written
  rw [View.canon_unit_zero origin]
  simp only [View.ld_unit_zero (S := S10000x64) origin]
  obtain ⟨e0, e1, e2, e3, e4, e5⟩ := same_tile t
  funext j
  obtain ⟨p, k, rfl⟩ : ∃ (p : Fin 10000) (k : Fin 64), j = ix2 p k := ⟨j 0, j 1, eq_ix2 j⟩
  have hrow : ∀ q : Fin 10000, win1_2.index t (0 : Fin 2) * 10000 + q.val < 150000 := fun q => by have := q.isLt; omega
  show k1_pay1 (F := Ideal) (tile V c 0 t) (tile V c 1 t) (ix2 p k) = result V c (((cfg1.win 2).blk t).view.emb (ix2 p k))
  refine (Tile.pay1_apply (tile V c 0 t) (tile V c 1 t) p k).trans ?_
  exact Inject.rows_tile (V c main_v29) (V c main_v31) (tile V c 0 t) (tile V c 1 t) (((cfg1.win 2).blk t).view.emb)
    (fun q => ⟨win1_2.index t (0 : Fin 2) * 10000 + q.val, hrow q⟩) (fun q k' => place t q k' (hrow q))
    (tile0_at V c t) (tile1_at V c t) p k

/-- An index of the array is in point `t`'s tile iff each coordinate is in the tile's range on its axis. -/
theorem mem_tile (t : Fin cfg1.N) (i : S150000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v32).slice (win1_2.rect t)).set ↔ _
  rw [View.set_slice_whole, Rect.mem_set_unit]
  exact Iff.rfl

/-- Every index of the array is in some written-back tile. -/
theorem covered (i : S150000x64.Idx) :
    ∃ t : Fin cfg1.N, (cfg1.win 2).flush t = true ∧ i ∈ ((cfg1.win 2).blk t).view.set := by
  have hi0 : (i 0).val < 150000 := (i 0).isLt
  have hi1 : (i 1).val < 64 := (i 1).isLt
  obtain ⟨t, ht⟩ := every_tile ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_tile]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the call. -/
theorem final (c : Dev nD) : (dat V c).arrAt 2 cfg1.N = result V c :=
  (dat V c).arrAt_eq_of_cover 2 (result V c) (fun t _ => flushed_eq V c t) (covered)

end Cert.KernelIdeal.Arr1

end
-- ==== Proof.KernelIdealArr2.lean ====
/-
  Call 2: what its result array holds once all 15 tiles are written back.

  Tile `t` of each of the three windows is rows `10000 t … 10000 t + 9999`, all 64 columns. What point `t` writes back is
  therefore that tile of ONE function of the two operand arrays as the call finds them — the row-wise injection
  `Inject.rows` —, because a tile holds whole rows and a row's norm needs nothing outside the row. The 15 tiles cover
  the 150000 rows, so the array ends equal to that function.
-/
import proofs.«147810_j21371757264955_1_alg».proof.Proof.KernelIdealCall2
import proofs.«147810_j21371757264955_1_alg».proof.Proof.KernelIdealTile
import Idealize.ShloMosaic.Lib.Pipeline.Value

set_option maxRecDepth 16384

noncomputable section

namespace Cert.KernelIdeal.Arr2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Call2

variable (V : (c : Dev nD) → (b : Ref sig .tc) → Buf (Elt Ideal) ((c : Thread nD τ).loc b))

theorem origin : (![0, 0] : Fin 2 → Nat) = fun _ => 0 := funext fun a => by fin_cases a <;> rfl

/-- The three index maps, decided over the grid: at point `t` every window's tile starts at the same row block and at
    column block 0, and the row block is below 15. -/
theorem same_tile : ∀ t : Fin cfg2.N, win2_0.index t (0 : Fin 2) = win2_2.index t (0 : Fin 2)
    ∧ win2_0.index t (1 : Fin 2) = 0
    ∧ win2_1.index t (0 : Fin 2) = win2_2.index t (0 : Fin 2)
    ∧ win2_1.index t (1 : Fin 2) = 0
    ∧ win2_2.index t (1 : Fin 2) = 0
    ∧ win2_2.index t (0 : Fin 2) ≤ 14 :=
  (by decide +kernel : ∀ t : Fin grid2.N, _)

/-- Every one of the 15 row blocks is some point's. -/
theorem every_tile : ∀ q : Fin 15, ∃ t : Fin cfg2.N, win2_2.index t = ![q.val, 0] :=
  (by decide +kernel : ∀ q : Fin 15, ∃ t : Fin grid2.N, win2_2.index t = ![q.val, 0])

/-- The array the call's result ends at: the injection of the embedding operand with the noise operand, row by row. -/
abbrev result (c : Dev nD) : S150000x64.Idx → EReal := Inject.rows (V c main_v45) (V c main_v47)

/-- Where local element `(p, k)` of point `t`'s output tile sits in the array. -/
theorem place (t : Fin cfg2.N) (p : Fin 10000) (k : Fin 64) (hrow : win2_2.index t (0 : Fin 2) * 10000 + p.val < 150000) :
    ((cfg2.win 2).blk t).view.emb (ix2 p k) = ix2 (⟨win2_2.index t (0 : Fin 2) * 10000 + p.val, hrow⟩ : Fin 150000) k := by
  obtain ⟨e0, e1, e2, e3, e4, e5⟩ := same_tile t
  funext a; apply Fin.ext
  match a with
  | ⟨0, _⟩ => show win2_2.index t (0 : Fin 2) * 10000 + 1 * p.val = win2_2.index t (0 : Fin 2) * 10000 + p.val; omega
  | ⟨1, _⟩ => show win2_2.index t (1 : Fin 2) * 64 + 1 * k.val = k.val; omega

/-- An operand's tile at point `t` is the operand array read where the output tile sits: the embedding's, -/
theorem tile0_at (c : Dev nD) (t : Fin cfg2.N) (j : S10000x64.Idx) :
    tile V c 0 t j = V c main_v45 (((cfg2.win 2).blk t).view.emb j) := by
  obtain ⟨e0, e1, e2, e3, e4, e5⟩ := same_tile t
  show V c main_v45 (((cfg2.win 0).blk t).view.emb j) = V c main_v45 (((cfg2.win 2).blk t).view.emb j)
  refine congrArg (V c main_v45) ?_
  funext a; apply Fin.ext
  match a with
  | ⟨0, _⟩ => show win2_0.index t (0 : Fin 2) * 10000 + 1 * (j 0).val = win2_2.index t (0 : Fin 2) * 10000 + 1 * (j 0).val; omega
  | ⟨1, _⟩ => show win2_0.index t (1 : Fin 2) * 64 + 1 * (j 1).val = win2_2.index t (1 : Fin 2) * 64 + 1 * (j 1).val; omega

/-- and the noise's. -/
theorem tile1_at (c : Dev nD) (t : Fin cfg2.N) (j : S10000x64.Idx) :
    tile V c 1 t j = V c main_v47 (((cfg2.win 2).blk t).view.emb j) := by
  obtain ⟨e0, e1, e2, e3, e4, e5⟩ := same_tile t
  show V c main_v47 (((cfg2.win 1).blk t).view.emb j) = V c main_v47 (((cfg2.win 2).blk t).view.emb j)
  refine congrArg (V c main_v47) ?_
  funext a; apply Fin.ext
  match a with
  | ⟨0, _⟩ => show win2_1.index t (0 : Fin 2) * 10000 + 1 * (j 0).val = win2_2.index t (0 : Fin 2) * 10000 + 1 * (j 0).val; omega
  | ⟨1, _⟩ => show win2_1.index t (1 : Fin 2) * 64 + 1 * (j 1).val = win2_2.index t (1 : Fin 2) * 64 + 1 * (j 1).val; omega

/-- What point `t` writes back is tile `t` of `result`. -/
theorem flushed_eq (c : Dev nD) (t : Fin cfg2.N) :
    (dat V c).flushed 2 t = ((cfg2.win 2).blk t).view.read (Elt Ideal) (result V c) := by
  show (cfg2.win 2).cut (grid2.coords t) ((dat V c).after 2 t) = _
  rw [dat_after2]
  unfold written
  rw [View.canon_unit_zero origin]
  simp only [View.ld_unit_zero (S := S10000x64) origin]
  obtain ⟨e0, e1, e2, e3, e4, e5⟩ := same_tile t
  funext j
  obtain ⟨p, k, rfl⟩ : ∃ (p : Fin 10000) (k : Fin 64), j = ix2 p k := ⟨j 0, j 1, eq_ix2 j⟩
  have hrow : ∀ q : Fin 10000, win2_2.index t (0 : Fin 2) * 10000 + q.val < 150000 := fun q => by have := q.isLt; omega
  show k2_pay1 (F := Ideal) (tile V c 0 t) (tile V c 1 t) (ix2 p k) = result V c (((cfg2.win 2).blk t).view.emb (ix2 p k))
  refine (Tile.pay2_apply (tile V c 0 t) (tile V c 1 t) p k).trans ?_
  exact Inject.rows_tile (V c main_v45) (V c main_v47) (tile V c 0 t) (tile V c 1 t) (((cfg2.win 2).blk t).view.emb)
    (fun q => ⟨win2_2.index t (0 : Fin 2) * 10000 + q.val, hrow q⟩) (fun q k' => place t q k' (hrow q))
    (tile0_at V c t) (tile1_at V c t) p k

/-- An index of the array is in point `t`'s tile iff each coordinate is in the tile's range on its axis. -/
theorem mem_tile (t : Fin cfg2.N) (i : S150000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v48).slice (win2_2.rect t)).set ↔ _
  rw [View.set_slice_whole, Rect.mem_set_unit]
  exact Iff.rfl

/-- Every index of the array is in some written-back tile. -/
theorem covered (i : S150000x64.Idx) :
    ∃ t : Fin cfg2.N, (cfg2.win 2).flush t = true ∧ i ∈ ((cfg2.win 2).blk t).view.set := by
  have hi0 : (i 0).val < 150000 := (i 0).isLt
  have hi1 : (i 1).val < 64 := (i 1).isLt
  obtain ⟨t, ht⟩ := every_tile ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_tile]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The result array after the call. -/
theorem final (c : Dev nD) : (dat V c).arrAt 2 cfg2.N = result V c :=
  (dat V c).arrAt_eq_of_cover 2 (result V c) (fun t _ => flushed_eq V c t) (covered)

end Cert.KernelIdeal.Arr2

end
-- ==== Proof.RefLayer.lean ====
/-
  The reference's layer, read as one function.

  After each propagation the reference normalizes the layer's noise slab row by row (the root of each row's sum of
  squares, floored, divides the row), multiplies by the sign of the propagated embedding and by the step, and adds the
  embedding: twelve host operations on two arrays of 150000 × 64. Read at an element, that chain is `Inject.elem` of the
  element's embedding and noise and of its row's sum of squares — the host sum over axis 1 is the sum over the 64
  columns, the two broadcasts put the row's floor-guarded norm back on every column, and the host's `sign`, square
  root and quotient are the extended reals' own. So the whole chain is `Inject.rows`, in each of the three layers.
-/
import proofs.«147810_j21371757264955_1_alg».proof.Proof.RefRun
import proofs.«147810_j21371757264955_1_alg».proof.Proof.InjectSpec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Stretch Idealize.ShloMosaic.TcCoe Idealize.ShloMosaic.StableHlo

/-- One layer's host operations on the propagated embedding `x` and the layer's noise slab `nz`. -/
def layer (x nz : FVec Ideal S150000x64 .f32) : FVec Ideal S150000x64 .f32 :=
  addf x (mulf (mulf (Host.sign x)
      (Host.divf nz (broadcastInDim S150000x64 ![0, 1] bcast_S150000x1_S150000x64_0_1
        (maximumf (Host.sqrt (broadcastInDim S150000x1 ![0] bcast_S150000_S150000x1_0
            (Host.reduceAdd (mulf nz nz) (constant (F := Ideal) S_ .f32 0x00000000#32) reducesTo_S150000x64_S150000_d1 h_S_)))
          (broadcastInDim S150000x1 ![] bcast_S_S150000x1 (constant (F := Ideal) S_ .f32 0x2B8CBCCC#32))))))
    (broadcastInDim S150000x64 ![] bcast_S_S150000x64 (constant (F := Ideal) S_ .f32 0x3E4CCCCD#32)))

/-- A 150000 × 1 column spread over the 64 columns reads row `r`'s entry at every `(r, k)`. -/
theorem spread_apply {α : Type} (v : S150000x1.Idx → α) (r : Fin 150000) (k : Fin 64) :
    broadcastInDim S150000x64 ![0, 1] bcast_S150000x1_S150000x64_0_1 v (ix2 r k) = v (ix2 r (0 : Fin 1)) :=
  broadcastInDim_apply _ bcast_S150000x1_S150000x64_0_1 v (ix2 r k) (ix2 r (0 : Fin 1)) (fun a => match a with
    | ⟨0, _⟩ => by show r.val = if (150000 : Nat) = 1 then 0 else r.val; rw [if_neg (by decide)]
    | ⟨1, _⟩ => by show 0 = if (1 : Nat) = 1 then 0 else k.val; rw [if_pos rfl])

/-- A length-150000 vector stood up as a column reads entry `r` at `(r, 0)`. -/
theorem column_apply {α : Type} (v : S150000.Idx → α) (r : Fin 150000) (z : Fin 1) :
    broadcastInDim S150000x1 ![0] bcast_S150000_S150000x1_0 v (ix2 r z) = v (ix1 r) :=
  broadcastInDim_apply _ bcast_S150000_S150000x1_0 v (ix2 r z) (ix1 r) (fun a => match a with
    | ⟨0, _⟩ => by show r.val = if (150000 : Nat) = 1 then 0 else r.val; rw [if_neg (by decide)])

/-- A scalar spread over a shape reads the scalar everywhere. -/
theorem scalar_col_apply {α : Type} (v : S_.Idx → α) (j : S150000x1.Idx) :
    broadcastInDim S150000x1 ![] bcast_S_S150000x1 v j = v ix0 :=
  broadcastInDim_apply _ bcast_S_S150000x1 v j ix0 (fun a => a.elim0)
theorem scalar_all_apply {α : Type} (v : S_.Idx → α) (j : S150000x64.Idx) :
    broadcastInDim S150000x64 ![] bcast_S_S150000x64 v j = v ix0 :=
  broadcastInDim_apply _ bcast_S_S150000x64 v j ix0 (fun a => a.elim0)

/-- The host's sum over axis 1, from zero, at row `r` is the sum over the row's 64 columns. -/
theorem row_sum (y : FVec Ideal S150000x64 .f32) (r : Fin 150000) :
    Host.reduceAdd y (constant (F := Ideal) S_ .f32 0x00000000#32) reducesTo_S150000x64_S150000_d1 h_S_ (ix1 r)
      = ∑ k : Fin 64, y (ix2 r k) := by
  simp only [Host.reduceAdd, Ideal.hostReduceAdd_def]
  rw [Ideal.hostReduceAdd_single reducesTo_S150000x64_S150000_d1 (by decide)]
  have hz : constant (F := Ideal) S_ .f32 0x00000000#32 (Shape.Idx.first h_S_) = 0 := Ideal.ofBits_zero_f32
  rw [hz, zero_add]
  refine Finset.sum_congr rfl fun k _ => ?_
  exact congrArg y (funext fun a => Fin.ext (by match a with | ⟨0, _⟩ => rfl | ⟨1, _⟩ => rfl))

/-- The host's sign, quotient and square root act element by element, as the extended reals' own. -/
theorem sign_at {s : Shape} (x : FVec Ideal s .f32) (i : s.Idx) : Host.sign x i = Ideal.sign (x i) := rfl
theorem quot_at {s : Shape} (a b : FVec Ideal s .f32) (i : s.Idx) : Host.divf a b i = Ideal.div (a i) (b i) := rfl
theorem root_at {s : Shape} (v : FVec Ideal s .f32) (i : s.Idx) : Host.sqrt v i = Ideal.sqrt (v i) := rfl

/-- The layer is the row-wise injection. -/
theorem layer_eq (x nz : FVec Ideal S150000x64 .f32) : layer x nz = Inject.rows x nz := by
  funext i
  obtain ⟨r, k, rfl⟩ : ∃ (r : Fin 150000) (k : Fin 64), i = ix2 r k := ⟨i 0, i 1, eq_ix2 i⟩
  rw [Inject.rows_apply]
  unfold layer Inject.elem
  rw [addf_apply, mulf_apply, mulf_apply, sign_at, quot_at, spread_apply, maximumf_apply, root_at, column_apply, row_sum,
    scalar_col_apply, scalar_all_apply, constant_apply, constant_apply]
  rfl

set_option maxHeartbeats 4000000 in
/-- Each of the three injection stretches, from any contents `W`, leaves in its result buffer that chain of the
    propagated embedding and the noise slab it finds. -/
theorem inj0_read (W : Valuation τ sig (Elt Ideal)) :
    after inj0 W (Proc.devRef .tc main_v25) = layer (W (Proc.devRef .tc main_v13)) (W (Proc.devRef .tc main_v15)) := by
  after_results
  rfl
set_option maxHeartbeats 4000000 in
theorem inj1_read (W : Valuation τ sig (Elt Ideal)) :
    after inj1 W (Proc.devRef .tc main_v50) = layer (W (Proc.devRef .tc main_v38)) (W (Proc.devRef .tc main_v40)) := by
  after_results
  rfl
set_option maxHeartbeats 4000000 in
theorem inj2_read (W : Valuation τ sig (Elt Ideal)) :
    after inj2 W (Proc.devRef .tc main_v75) = layer (W (Proc.devRef .tc main_v63)) (W (Proc.devRef .tc main_v65)) := by
  after_results
  rfl

end Cert.ReferenceIdeal.RefValue

end
-- ==== Proof.Bridge.lean ====
/-
  The two idealized programs compute one function.

  Both run the same host operations around the injection: the two embedding tables joined, three rounds of "gather the
  neighbours' rows, weight them, add them up by destination" each with its noise slab sliced off, and at the end the mean
  of the three layers and the four slices. They differ only in who injects the noise — a call of the kernel, or twelve
  host operations — and both of those are `Inject.rows` of the same two arrays. So, boundary by boundary: equal
  operands into a propagation give equal propagated embeddings and equal noise slabs; those into the injection give
  equal layers; and equal layers into the closing stretch give equal results.
-/
import proofs.«147810_j21371757264955_1_alg».proof.Proof.KernelIdealRun
import proofs.«147810_j21371757264955_1_alg».proof.Proof.KernelIdealArr0
import proofs.«147810_j21371757264955_1_alg».proof.Proof.KernelIdealArr1
import proofs.«147810_j21371757264955_1_alg».proof.Proof.KernelIdealArr2
import proofs.«147810_j21371757264955_1_alg».proof.Proof.RefLayer
import proofs.«147810_j21371757264955_1_alg».proof.Proof.RefKeep

set_option maxRecDepth 16384

noncomputable section

namespace Cert.Bridge

open Idealize.ShloMosaic Idealize.ShloMosaic.TcCoe Idealize.SL.Sem Idealize.ShloMosaic.StableHlo

/-- The results' rewriting once more, for the reads a several-operand operation leaves under its family of operands
    (after the family has been applied to its three literal positions). -/
macro "results_again" : tactic =>
  `(tactic| (repeat (first
      | rw [nullary_result] | rw [unary_result] | rw [binary_result] | rw [ternary_result] | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide))))

/-! ## The shared stretches, on any boundary contents -/

set_option maxHeartbeats 4000000 in
/-- Propagation 0: the same operations on equal operands give equal results — the propagated embedding, -/
theorem prop0_emb (WK : Valuation Cert.KernelIdeal.τ Cert.KernelIdeal.sig (Elt Ideal)) (WR : Valuation Cert.ReferenceIdeal.τ Cert.ReferenceIdeal.sig (Elt Ideal))
    (h0 : WR (Proc.devRef .tc Cert.ReferenceIdeal.main_arg0) = WK (Proc.devRef .tc Cert.KernelIdeal.main_arg0)) (h1 : WR (Proc.devRef .tc Cert.ReferenceIdeal.main_arg1) = WK (Proc.devRef .tc Cert.KernelIdeal.main_arg1))
    (h2 : WR (Proc.devRef .tc Cert.ReferenceIdeal.main_arg2) = WK (Proc.devRef .tc Cert.KernelIdeal.main_arg2)) (h3 : WR (Proc.devRef .tc Cert.ReferenceIdeal.main_arg3) = WK (Proc.devRef .tc Cert.KernelIdeal.main_arg3))
    (h4 : WR (Proc.devRef .tc Cert.ReferenceIdeal.main_arg4) = WK (Proc.devRef .tc Cert.KernelIdeal.main_arg4)) :
    after Cert.KernelIdeal.Gen.hostOps0 WK (Proc.devRef .tc Cert.KernelIdeal.main_v13) = after Cert.ReferenceIdeal.Stretch.prop0 WR (Proc.devRef .tc Cert.ReferenceIdeal.main_v13) := by
  after_results
  rw [h0, h1, h2, h3, h4]
  rfl
set_option maxHeartbeats 4000000 in
/-- and the layer's noise slab. -/
theorem prop0_noise (WK : Valuation Cert.KernelIdeal.τ Cert.KernelIdeal.sig (Elt Ideal)) (WR : Valuation Cert.ReferenceIdeal.τ Cert.ReferenceIdeal.sig (Elt Ideal))
    (h5 : WR (Proc.devRef .tc Cert.ReferenceIdeal.main_arg5) = WK (Proc.devRef .tc Cert.KernelIdeal.main_arg5)) :
    after Cert.KernelIdeal.Gen.hostOps0 WK (Proc.devRef .tc Cert.KernelIdeal.main_v15) = after Cert.ReferenceIdeal.Stretch.prop0 WR (Proc.devRef .tc Cert.ReferenceIdeal.main_v15) := by
  after_results
  rw [h5]
  rfl

set_option maxHeartbeats 4000000 in
/-- Propagation 1: the same operations on equal operands give equal results — the propagated embedding, -/
theorem prop1_emb (WK : Valuation Cert.KernelIdeal.τ Cert.KernelIdeal.sig (Elt Ideal)) (WR : Valuation Cert.ReferenceIdeal.τ Cert.ReferenceIdeal.sig (Elt Ideal))
    (hx : WR (Proc.devRef .tc Cert.ReferenceIdeal.main_v25) = WK (Proc.devRef .tc Cert.KernelIdeal.main_v16))
    (h2 : WR (Proc.devRef .tc Cert.ReferenceIdeal.main_arg2) = WK (Proc.devRef .tc Cert.KernelIdeal.main_arg2)) (h3 : WR (Proc.devRef .tc Cert.ReferenceIdeal.main_arg3) = WK (Proc.devRef .tc Cert.KernelIdeal.main_arg3))
    (h4 : WR (Proc.devRef .tc Cert.ReferenceIdeal.main_arg4) = WK (Proc.devRef .tc Cert.KernelIdeal.main_arg4)) :
    after Cert.KernelIdeal.Gen.hostOps1 WK (Proc.devRef .tc Cert.KernelIdeal.main_v29) = after Cert.ReferenceIdeal.Stretch.prop1 WR (Proc.devRef .tc Cert.ReferenceIdeal.main_v38) := by
  after_results
  rw [hx, h2, h3, h4]
  rfl
set_option maxHeartbeats 4000000 in
/-- and the layer's noise slab. -/
theorem prop1_noise (WK : Valuation Cert.KernelIdeal.τ Cert.KernelIdeal.sig (Elt Ideal)) (WR : Valuation Cert.ReferenceIdeal.τ Cert.ReferenceIdeal.sig (Elt Ideal))
    (h5 : WR (Proc.devRef .tc Cert.ReferenceIdeal.main_arg5) = WK (Proc.devRef .tc Cert.KernelIdeal.main_arg5)) :
    after Cert.KernelIdeal.Gen.hostOps1 WK (Proc.devRef .tc Cert.KernelIdeal.main_v31) = after Cert.ReferenceIdeal.Stretch.prop1 WR (Proc.devRef .tc Cert.ReferenceIdeal.main_v40) := by
  after_results
  rw [h5]
  rfl

set_option maxHeartbeats 4000000 in
/-- Propagation 2: the same operations on equal operands give equal results — the propagated embedding, -/
theorem prop2_emb (WK : Valuation Cert.KernelIdeal.τ Cert.KernelIdeal.sig (Elt Ideal)) (WR : Valuation Cert.ReferenceIdeal.τ Cert.ReferenceIdeal.sig (Elt Ideal))
    (hx : WR (Proc.devRef .tc Cert.ReferenceIdeal.main_v50) = WK (Proc.devRef .tc Cert.KernelIdeal.main_v32))
    (h2 : WR (Proc.devRef .tc Cert.ReferenceIdeal.main_arg2) = WK (Proc.devRef .tc Cert.KernelIdeal.main_arg2)) (h3 : WR (Proc.devRef .tc Cert.ReferenceIdeal.main_arg3) = WK (Proc.devRef .tc Cert.KernelIdeal.main_arg3))
    (h4 : WR (Proc.devRef .tc Cert.ReferenceIdeal.main_arg4) = WK (Proc.devRef .tc Cert.KernelIdeal.main_arg4)) :
    after Cert.KernelIdeal.Gen.hostOps2 WK (Proc.devRef .tc Cert.KernelIdeal.main_v45) = after Cert.ReferenceIdeal.Stretch.prop2 WR (Proc.devRef .tc Cert.ReferenceIdeal.main_v63) := by
  after_results
  rw [hx, h2, h3, h4]
  rfl
set_option maxHeartbeats 4000000 in
/-- and the layer's noise slab. -/
theorem prop2_noise (WK : Valuation Cert.KernelIdeal.τ Cert.KernelIdeal.sig (Elt Ideal)) (WR : Valuation Cert.ReferenceIdeal.τ Cert.ReferenceIdeal.sig (Elt Ideal))
    (h5 : WR (Proc.devRef .tc Cert.ReferenceIdeal.main_arg5) = WK (Proc.devRef .tc Cert.KernelIdeal.main_arg5)) :
    after Cert.KernelIdeal.Gen.hostOps2 WK (Proc.devRef .tc Cert.KernelIdeal.main_v47) = after Cert.ReferenceIdeal.Stretch.prop2 WR (Proc.devRef .tc Cert.ReferenceIdeal.main_v65) := by
  after_results
  rw [h5]
  rfl

set_option maxHeartbeats 4000000 in
/-- The closing stretch: equal layers give equal results. -/
theorem close_res0 (WK : Valuation Cert.KernelIdeal.τ Cert.KernelIdeal.sig (Elt Ideal)) (WR : Valuation Cert.ReferenceIdeal.τ Cert.ReferenceIdeal.sig (Elt Ideal))
    (h1 : WR (Proc.devRef .tc Cert.ReferenceIdeal.main_v25) = WK (Proc.devRef .tc Cert.KernelIdeal.main_v16)) (h2 : WR (Proc.devRef .tc Cert.ReferenceIdeal.main_v50) = WK (Proc.devRef .tc Cert.KernelIdeal.main_v32)) (h3 : WR (Proc.devRef .tc Cert.ReferenceIdeal.main_v75) = WK (Proc.devRef .tc Cert.KernelIdeal.main_v48)) :
    after Cert.KernelIdeal.Gen.hostOps3 WK (Proc.devRef .tc Cert.KernelIdeal.main_v56) = after Cert.ReferenceIdeal.Stretch.close WR (Proc.devRef .tc Cert.ReferenceIdeal.main_v83) := by
  after_results
  simp only [Matrix.cons_val]
  results_again
  rw [h1, h2, h3]
  all_goals rfl

set_option maxHeartbeats 4000000 in
theorem close_res1 (WK : Valuation Cert.KernelIdeal.τ Cert.KernelIdeal.sig (Elt Ideal)) (WR : Valuation Cert.ReferenceIdeal.τ Cert.ReferenceIdeal.sig (Elt Ideal))
    (h1 : WR (Proc.devRef .tc Cert.ReferenceIdeal.main_v25) = WK (Proc.devRef .tc Cert.KernelIdeal.main_v16)) (h2 : WR (Proc.devRef .tc Cert.ReferenceIdeal.main_v50) = WK (Proc.devRef .tc Cert.KernelIdeal.main_v32)) (h3 : WR (Proc.devRef .tc Cert.ReferenceIdeal.main_v75) = WK (Proc.devRef .tc Cert.KernelIdeal.main_v48)) :
    after Cert.KernelIdeal.Gen.hostOps3 WK (Proc.devRef .tc Cert.KernelIdeal.main_v57) = after Cert.ReferenceIdeal.Stretch.close WR (Proc.devRef .tc Cert.ReferenceIdeal.main_v84) := by
  after_results
  simp only [Matrix.cons_val]
  results_again
  rw [h1, h2, h3]
  all_goals rfl

set_option maxHeartbeats 4000000 in
theorem close_res2 (WK : Valuation Cert.KernelIdeal.τ Cert.KernelIdeal.sig (Elt Ideal)) (WR : Valuation Cert.ReferenceIdeal.τ Cert.ReferenceIdeal.sig (Elt Ideal))
    (h1 : WR (Proc.devRef .tc Cert.ReferenceIdeal.main_v25) = WK (Proc.devRef .tc Cert.KernelIdeal.main_v16)) :
    after Cert.KernelIdeal.Gen.hostOps3 WK (Proc.devRef .tc Cert.KernelIdeal.main_v58) = after Cert.ReferenceIdeal.Stretch.close WR (Proc.devRef .tc Cert.ReferenceIdeal.main_v85) := by
  after_results
  rw [h1]
  all_goals rfl

set_option maxHeartbeats 4000000 in
theorem close_res3 (WK : Valuation Cert.KernelIdeal.τ Cert.KernelIdeal.sig (Elt Ideal)) (WR : Valuation Cert.ReferenceIdeal.τ Cert.ReferenceIdeal.sig (Elt Ideal))
    (h1 : WR (Proc.devRef .tc Cert.ReferenceIdeal.main_v25) = WK (Proc.devRef .tc Cert.KernelIdeal.main_v16)) :
    after Cert.KernelIdeal.Gen.hostOps3 WK (Proc.devRef .tc Cert.KernelIdeal.main_v59) = after Cert.ReferenceIdeal.Stretch.close WR (Proc.devRef .tc Cert.ReferenceIdeal.main_v86) := by
  after_results
  rw [h1]
  all_goals rfl

/-! ## The two runs, boundary by boundary -/

section
open Cert.KernelIdeal Cert.KernelIdeal.Gen Cert.KernelIdeal.Chain
open Cert.ReferenceIdeal.Stretch (at0 at1 at2 at3 at4 at5 at6 at7)

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The reference's memory agrees with the kernel program's on the six arguments, on core `c`. -/
def Agree : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)

/-! ### No stretch of the kernel program writes an argument -/

theorem argK_at2 (r : Ref sig .tc) (h1 : r ∉ hostOps0_W) (h2 : r ∉ ([main_v16] : List (Ref sig .tc))) :
    V2 m (tab m) c r = m ((c.tc : Thread nD τ).loc r) :=
  (V2_of m (tab m) c r h2).trans ((V1_of m c r h1).trans rfl)
theorem argK_at4 (r : Ref sig .tc) (h1 : r ∉ hostOps0_W) (h2 : r ∉ ([main_v16] : List (Ref sig .tc))) (h3 : r ∉ hostOps1_W)
    (h4 : r ∉ ([main_v32] : List (Ref sig .tc))) : V4 m (tab m) c r = m ((c.tc : Thread nD τ).loc r) :=
  (V4_of m (tab m) c r h4).trans ((V3_of m (tab m) c r h3).trans (argK_at2 m c r h1 h2))

variable (hag : Agree m m' c)
include hag

/-! ### Layer 1 -/

theorem emb1 : V1 m c main_v13 = at1 m' c (Proc.devRef .tc Cert.ReferenceIdeal.main_v13) :=
  prop0_emb (V0 m c) (at0 m' c) hag.1 hag.2.1 hag.2.2.1 hag.2.2.2.1 hag.2.2.2.2.1
theorem noise1 : V1 m c main_v15 = at1 m' c (Proc.devRef .tc Cert.ReferenceIdeal.main_v15) :=
  prop0_noise (V0 m c) (at0 m' c) hag.2.2.2.2.2
theorem out1 : V2 m (tab m) c main_v16 = at2 m' c (Proc.devRef .tc Cert.ReferenceIdeal.main_v25) := by
  refine ((left0_at m c 2).symm.trans (Arr0.final (in0 m) c)).trans ?_
  refine Eq.trans ?_ (Cert.ReferenceIdeal.RefValue.inj0_read (at1 m' c)).symm
  rw [Cert.ReferenceIdeal.RefValue.layer_eq]
  exact congrArg₂ Inject.rows (emb1 m m' c hag) (noise1 m m' c hag)

/-! ### Layer 2 -/

theorem emb2 : V3 m (tab m) c main_v29 = at3 m' c (Proc.devRef .tc Cert.ReferenceIdeal.main_v38) :=
  prop1_emb (V2 m (tab m) c) (at2 m' c) (out1 m m' c hag).symm
    ((Cert.ReferenceIdeal.Stretch.arg2_at2 m' c).trans (hag.2.2.1.trans (argK_at2 m c main_arg2 (by decide) (by decide)).symm))
    ((Cert.ReferenceIdeal.Stretch.arg3_at2 m' c).trans (hag.2.2.2.1.trans (argK_at2 m c main_arg3 (by decide) (by decide)).symm))
    ((Cert.ReferenceIdeal.Stretch.arg4_at2 m' c).trans (hag.2.2.2.2.1.trans (argK_at2 m c main_arg4 (by decide) (by decide)).symm))
theorem noise2 : V3 m (tab m) c main_v31 = at3 m' c (Proc.devRef .tc Cert.ReferenceIdeal.main_v40) :=
  prop1_noise (V2 m (tab m) c) (at2 m' c)
    ((Cert.ReferenceIdeal.Stretch.arg5_at2 m' c).trans (hag.2.2.2.2.2.trans (argK_at2 m c main_arg5 (by decide) (by decide)).symm))
theorem out2 : V4 m (tab m) c main_v32 = at4 m' c (Proc.devRef .tc Cert.ReferenceIdeal.main_v50) := by
  refine ((left1_at m c 2).symm.trans (Arr1.final (in1 m) c)).trans ?_
  refine Eq.trans ?_ (Cert.ReferenceIdeal.RefValue.inj1_read (at3 m' c)).symm
  rw [Cert.ReferenceIdeal.RefValue.layer_eq]
  exact congrArg₂ Inject.rows ((congrFun (V3_left m c) _).symm.trans (emb2 m m' c hag)) ((congrFun (V3_left m c) _).symm.trans (noise2 m m' c hag))

/-! ### Layer 3 -/

theorem emb3 : V5 m (tab m) c main_v45 = at5 m' c (Proc.devRef .tc Cert.ReferenceIdeal.main_v63) :=
  prop2_emb (V4 m (tab m) c) (at4 m' c) (out2 m m' c hag).symm
    ((Cert.ReferenceIdeal.Stretch.arg2_at4 m' c).trans (hag.2.2.1.trans (argK_at4 m c main_arg2 (by decide) (by decide) (by decide) (by decide)).symm))
    ((Cert.ReferenceIdeal.Stretch.arg3_at4 m' c).trans (hag.2.2.2.1.trans (argK_at4 m c main_arg3 (by decide) (by decide) (by decide) (by decide)).symm))
    ((Cert.ReferenceIdeal.Stretch.arg4_at4 m' c).trans (hag.2.2.2.2.1.trans (argK_at4 m c main_arg4 (by decide) (by decide) (by decide) (by decide)).symm))
theorem noise3 : V5 m (tab m) c main_v47 = at5 m' c (Proc.devRef .tc Cert.ReferenceIdeal.main_v65) :=
  prop2_noise (V4 m (tab m) c) (at4 m' c)
    ((Cert.ReferenceIdeal.Stretch.arg5_at4 m' c).trans (hag.2.2.2.2.2.trans (argK_at4 m c main_arg5 (by decide) (by decide) (by decide) (by decide)).symm))
theorem out3 : V6 m (tab m) c main_v48 = at6 m' c (Proc.devRef .tc Cert.ReferenceIdeal.main_v75) := by
  refine ((left2_at m c 2).symm.trans (Arr2.final (in2 m) c)).trans ?_
  refine Eq.trans ?_ (Cert.ReferenceIdeal.RefValue.inj2_read (at5 m' c)).symm
  rw [Cert.ReferenceIdeal.RefValue.layer_eq]
  exact congrArg₂ Inject.rows ((congrFun (V5_left m c) _).symm.trans (emb3 m m' c hag)) ((congrFun (V5_left m c) _).symm.trans (noise3 m m' c hag))

/-! ### The layers at the last boundary, and the four results -/

theorem out1_at6 : at6 m' c (Proc.devRef .tc Cert.ReferenceIdeal.main_v25) = V6 m (tab m) c main_v16 :=
  (Cert.ReferenceIdeal.Stretch.v25_at6 m' c).trans ((out1 m m' c hag).symm.trans
    ((V6_of m (tab m) c main_v16 (by decide)).trans ((V5_of m (tab m) c main_v16 (by decide)).trans
      ((V4_of m (tab m) c main_v16 (by decide)).trans (V3_of m (tab m) c main_v16 (by decide))))).symm)
theorem out2_at6 : at6 m' c (Proc.devRef .tc Cert.ReferenceIdeal.main_v50) = V6 m (tab m) c main_v32 :=
  (Cert.ReferenceIdeal.Stretch.v50_at6 m' c).trans ((out2 m m' c hag).symm.trans
    ((V6_of m (tab m) c main_v32 (by decide)).trans (V5_of m (tab m) c main_v32 (by decide))).symm)

theorem res0 : V7 m (tab m) c main_v56 = at7 m' c (Proc.devRef .tc Cert.ReferenceIdeal.main_v83) :=
  close_res0 (V6 m (tab m) c) (at6 m' c) (out1_at6 m m' c hag) (out2_at6 m m' c hag) (out3 m m' c hag).symm
theorem res1 : V7 m (tab m) c main_v57 = at7 m' c (Proc.devRef .tc Cert.ReferenceIdeal.main_v84) :=
  close_res1 (V6 m (tab m) c) (at6 m' c) (out1_at6 m m' c hag) (out2_at6 m m' c hag) (out3 m m' c hag).symm
theorem res2 : V7 m (tab m) c main_v58 = at7 m' c (Proc.devRef .tc Cert.ReferenceIdeal.main_v85) :=
  close_res2 (V6 m (tab m) c) (at6 m' c) (out1_at6 m m' c hag)
theorem res3 : V7 m (tab m) c main_v59 = at7 m' c (Proc.devRef .tc Cert.ReferenceIdeal.main_v86) :=
  close_res3 (V6 m (tab m) c) (at6 m' c) (out1_at6 m m' c hag)

end

end Cert.Bridge

end
-- ==== Proof.lean ====
/-
  The certificate of the XSimGCL encoder's forward pass: three rounds of sparse propagation, each followed by a
  sign-aligned, row-normalized noise injection, then the mean of the three layers.

  Frames. The kernel program (at the word level and idealized) is four stretches of host operations around three calls
  of one tiled kernel; each call only reads its two operand arrays and overwrites its result array tile by tile, and no
  stretch writes an argument, so every execution ends with the six arguments as launched. The reference is host
  operations only.

  The idealization. The kernel builds "1.0 with x's sign bit" from the float's word; the idealized program says
  `x < 0 ? -1 : 1` instead, in each of the three calls: the rule's statement, three times.

  The values. On the extended reals a call's result array is, row by row, `x + sign x · (n / max (‖n‖, floor)) · step` of
  its operand arrays — the same function the reference's twelve host operations compute — and everything else in the
  two programs is the same host operations applied to equal arrays. So the four results agree element by element.
  Finiteness of the inputs is never used: no step moves a factor across a sum or cancels.
-/
import proofs.«147810_j21371757264955_1_alg».proof.Defs
import proofs.«147810_j21371757264955_1_alg».proof.Proof.Gen.Kernel
import proofs.«147810_j21371757264955_1_alg».proof.Proof.Gen.KernelIdeal
import proofs.«147810_j21371757264955_1_alg».proof.Proof.Gen.ReferenceIdeal
import proofs.«147810_j21371757264955_1_alg».proof.Proof.Gen.Pre_finite_inputs
import proofs.«147810_j21371757264955_1_alg».proof.Proof.RefKeep
import proofs.«147810_j21371757264955_1_alg».proof.Proof.KernelChain
import proofs.«147810_j21371757264955_1_alg».proof.Proof.KernelIdealChain
import proofs.«147810_j21371757264955_1_alg».proof.Proof.KernelIdealRun
import proofs.«147810_j21371757264955_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Chain.frame m ρ

theorem frame_ideal : Cert.frame_KernelIdeal := fun m ρ _ => Cert.KernelIdeal.Chain.frame m ρ

theorem frame_reference : Cert.frame_ReferenceIdeal := fun m ρ _ => Cert.ReferenceIdeal.Stretch.frame m ρ

/-- The ledger's three entries, one per call: the sign-bit rule at the tile's shape. -/
theorem preserves : Cert.preserves_Kernel_KernelIdeal :=
  ⟨IdealRules.sign_bit.statement Cert.KernelIdeal.S10000x64 .f32, IdealRules.sign_bit.statement Cert.KernelIdeal.S10000x64 .f32,
    IdealRules.sign_bit.statement Cert.KernelIdeal.S10000x64 .f32⟩

section
open Cert.KernelIdeal Cert.KernelIdeal.Gen Cert.KernelIdeal.Chain

/-- An unscoped TensorCore buffer is among those read at the end. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Both idealized programs end with the four results at the last boundary's contents of the kernel program: the
    kernel program by its run, the reference because its own end contents, read stretch by stretch from the agreeing
    arguments, are those. -/
theorem algebraic : Cert.algebraic_KernelIdeal_ReferenceIdeal := by
  intro m ρ m' ρ' _ hagree
  refine ⟨fun c => V7 m (tab m) c main_v56, fun c => V7 m (tab m) c main_v57, fun c => V7 m (tab m) c main_v58,
    fun c => V7 m (tab m) c main_v59, ?_, ?_⟩
  · exact (θ_run Cert.KernelIdeal.defs _ _).mono (fun r h c =>
      ⟨h c _ (mem_unscoped main_v56 (by decide)), h c _ (mem_unscoped main_v57 (by decide)),
        h c _ (mem_unscoped main_v58 (by decide)), h c _ (mem_unscoped main_v59 (by decide)),
        (h c _ (mem_unscoped main_arg0 (by decide))).trans (V7_main_arg0 m (tab m) c),
        (h c _ (mem_unscoped main_arg1 (by decide))).trans (V7_main_arg1 m (tab m) c),
        (h c _ (mem_unscoped main_arg2 (by decide))).trans (V7_main_arg2 m (tab m) c),
        (h c _ (mem_unscoped main_arg3 (by decide))).trans (V7_main_arg3 m (tab m) c),
        (h c _ (mem_unscoped main_arg4 (by decide))).trans (V7_main_arg4 m (tab m) c),
        (h c _ (mem_unscoped main_arg5 (by decide))).trans (V7_main_arg5 m (tab m) c)⟩)
      (Cert.KernelIdeal.Chain.run_all m ρ)
  · exact (θ_run Cert.ReferenceIdeal.defs _ _).mono (fun r h c =>
      ⟨(h c Cert.ReferenceIdeal.main_v83).trans (Cert.Bridge.res0 m m' c (hagree c)).symm,
        (h c Cert.ReferenceIdeal.main_v84).trans (Cert.Bridge.res1 m m' c (hagree c)).symm,
        (h c Cert.ReferenceIdeal.main_v85).trans (Cert.Bridge.res2 m m' c (hagree c)).symm,
        (h c Cert.ReferenceIdeal.main_v86).trans (Cert.Bridge.res3 m m' c (hagree c)).symm,
        (h c Cert.ReferenceIdeal.main_arg0).trans (Cert.ReferenceIdeal.Stretch.arg0_at7 m' c),
        (h c Cert.ReferenceIdeal.main_arg1).trans (Cert.ReferenceIdeal.Stretch.arg1_at7 m' c),
        (h c Cert.ReferenceIdeal.main_arg2).trans (Cert.ReferenceIdeal.Stretch.arg2_at7 m' c),
        (h c Cert.ReferenceIdeal.main_arg3).trans (Cert.ReferenceIdeal.Stretch.arg3_at7 m' c),
        (h c Cert.ReferenceIdeal.main_arg4).trans (Cert.ReferenceIdeal.Stretch.arg4_at7 m' c),
        (h c Cert.ReferenceIdeal.main_arg5).trans (Cert.ReferenceIdeal.Stretch.arg5_at7 m' c)⟩)
      (Cert.ReferenceIdeal.Stretch.run m' ρ')

end

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
